-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x3 : Shape := ⟨2, ![65536, 3]⟩
abbrev S822944x16 : Shape := ⟨2, ![822944, 16]⟩
abbrev S10x1048583x16 : Shape := ⟨3, ![10, 1048583, 16]⟩
abbrev S_ : Shape := ⟨0, ![]⟩

class Facts : Prop where
  bcast_S_S65536x3 : S_.BroadcastsInDim S65536x3 (![] : Fin 0 → Fin S65536x3.rank)
  reducesTo_S65536x3_S_d0_1 : S65536x3.ReducesTo [0, 1] S_
  h_S_ : 0 < S_.numel
  bcast_S_S822944x16 : S_.BroadcastsInDim S822944x16 (![] : Fin 0 → Fin S822944x16.rank)
  reducesTo_S822944x16_S_d0_1 : S822944x16.ReducesTo [0, 1] S_
  bcast_S_S10x1048583x16 : S_.BroadcastsInDim S10x1048583x16 (![] : Fin 0 → Fin S10x1048583x16.rank)
  reducesTo_S10x1048583x16_S_d0_1_2 : S10x1048583x16.ReducesTo [0, 1, 2] S_

variable [Facts]

def fn {F : FTy → Type} [FloatOps F] (main_arg0 : FVec F S65536x3 .f32) (main_arg1 : FVec F S822944x16 .f32) (main_arg2 : FVec F S10x1048583x16 .f32) : IVec S_ 1 :=
  let main_v0 : FVec F S65536x3 .f32 := Host.absf main_arg0
  let main_cst : FVec F S_ .f32 := constant S_ .f32 0x7F800000#32
  let main_v1 : FVec F S65536x3 .f32 := broadcastInDim S65536x3 ![] bcast_S_S65536x3 main_cst
  let main_v2 : IVec S65536x3 1 := cmpf .olt main_v0 main_v1
  let main_c : IVec S_ 1 := constantI S_ 1 1#1
  let main_v3 : IVec S_ 1 := (fun x v => Host.reduce IntOp.andi x v reducesTo_S65536x3_S_d0_1 h_S_) main_v2 main_c
  let main_v4 : FVec F S822944x16 .f32 := Host.absf main_arg1
  let main_cst_0 : FVec F S_ .f32 := constant S_ .f32 0x7F800000#32
  let main_v5 : FVec F S822944x16 .f32 := broadcastInDim S822944x16 ![] bcast_S_S822944x16 main_cst_0
  let main_v6 : IVec S822944x16 1 := cmpf .olt main_v4 main_v5
  let main_c_1 : IVec S_ 1 := constantI S_ 1 1#1
  let main_v7 : IVec S_ 1 := (fun x v => Host.reduce IntOp.andi x v reducesTo_S822944x16_S_d0_1 h_S_) main_v6 main_c_1
  let main_v8 : IVec S_ 1 := andi main_v3 main_v7
  let main_v9 : FVec F S10x1048583x16 .f32 := Host.absf main_arg2
  let main_cst_2 : FVec F S_ .f32 := constant S_ .f32 0x7F800000#32
  let main_v10 : FVec F S10x1048583x16 .f32 := broadcastInDim S10x1048583x16 ![] bcast_S_S10x1048583x16 main_cst_2
  let main_v11 : IVec S10x1048583x16 1 := cmpf .olt main_v9 main_v10
  let main_c_3 : IVec S_ 1 := constantI S_ 1 1#1
  let main_v12 : IVec S_ 1 := (fun x v => Host.reduce IntOp.andi x v reducesTo_S10x1048583x16_S_d0_1_2 h_S_) main_v11 main_c_3
  let main_v13 : IVec S_ 1 := andi main_v8 main_v12
  main_v13
-- ==== Kernel.lean ====
abbrev S65536x3 : Shape := ⟨2, ![65536, 3]⟩
abbrev S822944x16 : Shape := ⟨2, ![822944, 16]⟩
abbrev S10x1048583x16 : Shape := ⟨3, ![10, 1048583, 16]⟩
abbrev S3 : Shape := ⟨1, ![3]⟩
abbrev S16 : Shape := ⟨1, ![16]⟩
abbrev S8x3 : Shape := ⟨2, ![8, 3]⟩
abbrev S5 : Shape := ⟨1, ![5]⟩
abbrev S1x3 : Shape := ⟨2, ![1, 3]⟩
abbrev S1x65536x3 : Shape := ⟨3, ![1, 65536, 3]⟩
abbrev S16x1x1 : Shape := ⟨3, ![16, 1, 1]⟩
abbrev S16x65536x3 : Shape := ⟨3, ![16, 65536, 3]⟩
abbrev S16x65536x1x3 : Shape := ⟨4, ![16, 65536, 1, 3]⟩
abbrev S1x1x8x3 : Shape := ⟨4, ![1, 1, 8, 3]⟩
abbrev S16x65536x8x3 : Shape := ⟨4, ![16, 65536, 8, 3]⟩
abbrev S_ : Shape := ⟨0, ![]⟩
abbrev S16x1x1x1 : Shape := ⟨4, ![16, 1, 1, 1]⟩
abbrev S6 : Shape := ⟨1, ![6]⟩
abbrev S6x1x1 : Shape := ⟨3, ![6, 1, 1]⟩
abbrev S6x65536x8x1 : Shape := ⟨4, ![6, 65536, 8, 1]⟩
abbrev S6x65536x8 : Shape := ⟨3, ![6, 65536, 8]⟩
abbrev S1 : Shape := ⟨1, ![1]⟩
abbrev S10x65536x8x3 : Shape := ⟨4, ![10, 65536, 8, 3]⟩
abbrev S10x65536x8x1 : Shape := ⟨4, ![10, 65536, 8, 1]⟩
abbrev S10x65536x8 : Shape := ⟨3, ![10, 65536, 8]⟩
abbrev S822944x1 : Shape := ⟨2, ![822944, 1]⟩
abbrev S16384x16 : Shape := ⟨2, ![16384, 16]⟩
abbrev S16384x1 : Shape := ⟨2, ![16384, 1]⟩
abbrev S16384 : Shape := ⟨1, ![16384]⟩
abbrev S822944 : Shape := ⟨1, ![822944]⟩
abbrev S10485830x16 : Shape := ⟨2, ![10485830, 16]⟩
abbrev S10485830x1 : Shape := ⟨2, ![10485830, 1]⟩
abbrev S10485830 : Shape := ⟨1, ![10485830]⟩
abbrev S10x1048583 : Shape := ⟨2, ![10, 1048583]⟩
abbrev S10 : Shape := ⟨1, ![10]⟩
abbrev S10x1x1 : Shape := ⟨3, ![10, 1, 1]⟩
abbrev S10x65536x8x2 : Shape := ⟨4, ![10, 65536, 8, 2]⟩
abbrev S16x65536x8 : Shape := ⟨3, ![16, 65536, 8]⟩
abbrev S16x65536x8x1 : Shape := ⟨4, ![16, 65536, 8, 1]⟩
abbrev S16x65536 : Shape := ⟨2, ![16, 65536]⟩
abbrev S65536x16 : Shape := ⟨2, ![65536, 16]⟩
abbrev S65536x19 : Shape := ⟨2, ![65536, 19]⟩

abbrev nBuf : Space → Nat
  | .hbm => 171
  | .vmem => 8
  | .smem => 0
  | _ => 0

abbrev hbmTy0_0 (i : Nat) : BufTy := match i % 128 with
  | 0 => ⟨S65536x3, .f32⟩
  | 1 => ⟨S822944x16, .f32⟩
  | 2 => ⟨S10x1048583x16, .f32⟩
  | 3 => ⟨S3, .f32⟩
  | 4 => ⟨S3, .f32⟩
  | 5 => ⟨S16, .f32⟩
  | 6 => ⟨S16, .i32⟩
  | 7 => ⟨S8x3, .f32⟩
  | 8 => ⟨S5, .i32⟩
  | 9 => ⟨S3, .i32⟩
  | 10 => ⟨S1x3, .f32⟩
  | 11 => ⟨S65536x3, .f32⟩
  | 12 => ⟨S65536x3, .f32⟩
  | 13 => ⟨S3, .f32⟩
  | 14 => ⟨S1x3, .f32⟩
  | 15 => ⟨S65536x3, .f32⟩
  | 16 => ⟨S65536x3, .f32⟩
  | 17 => ⟨S1x65536x3, .f32⟩
  | 18 => ⟨S16x1x1, .f32⟩
  | 19 => ⟨S16x65536x3, .f32⟩
  | 20 => ⟨S16x65536x3, .f32⟩
  | 21 => ⟨S16x65536x3, .f32⟩
  | 22 => ⟨S16x65536x1x3, .f32⟩
  | 23 => ⟨S1x1x8x3, .f32⟩
  | 24 => ⟨S16x65536x8x3, .f32⟩
  | 25 => ⟨S16x65536x8x3, .f32⟩
  | 26 => ⟨S16x65536x8x3, .f32⟩
  | 27 => ⟨S16x65536x8x3, .i32⟩
  | 28 => ⟨S_, .i32⟩
  | 29 => ⟨S16, .i32⟩
  | 30 => ⟨S16, .i32⟩
  | 31 => ⟨S16x1x1x1, .i32⟩
  | 32 => ⟨S_, .i32⟩
  | 33 => ⟨S_, .i32⟩
  | 34 => ⟨S16x65536x8x3, .i32⟩
  | 35 => ⟨S16x65536x8x3, .i32⟩
  | 36 => ⟨S16x65536x8x3, .i32⟩
  | 37 => ⟨S16x65536x8x3, .i32⟩
  | 38 => ⟨S16x65536x1x3, .i32⟩
  | 39 => ⟨S16x65536x3, .i32⟩
  | 40 => ⟨S16x65536x3, .f32⟩
  | 41 => ⟨S16x65536x3, .f32⟩
  | 42 => ⟨S6, .i32⟩
  | 43 => ⟨S6x1x1, .i32⟩
  | 44 => ⟨S6x65536x8x1, .i32⟩
  | 45 => ⟨S6x65536x8, .i32⟩
  | 46 => ⟨S6x65536x8, .i32⟩
  | 47 => ⟨S6x65536x8, .i32⟩
  | 48 => ⟨S6x65536x8, .i32⟩
  | 49 => ⟨S6x65536x8, .i32⟩
  | 50 => ⟨S6x65536x8x1, .i32⟩
  | 51 => ⟨S6x65536x8, .i32⟩
  | 52 => ⟨S6x65536x8, .i32⟩
  | 53 => ⟨S6x65536x8, .i32⟩
  | 54 => ⟨S6x65536x8, .i32⟩
  | 55 => ⟨S6x65536x8x1, .i32⟩
  | 56 => ⟨S6x65536x8, .i32⟩
  | 57 => ⟨S6x65536x8, .i32⟩
  | 58 => ⟨S_, .i32⟩
  | 59 => ⟨S1, .i32⟩
  | 60 => ⟨S6, .i32⟩
  | 61 => ⟨S6x1x1, .i32⟩
  | 62 => ⟨S6x65536x8, .i32⟩
  | 63 => ⟨S6x65536x8, .i32⟩
  | 64 => ⟨S10x65536x8x3, .i32⟩
  | 65 => ⟨S10x65536x8x1, .i32⟩
  | 66 => ⟨S10x65536x8, .i32⟩
  | 67 => ⟨S1, .i32⟩
  | 68 => ⟨S_, .i32⟩
  | 69 => ⟨S10x65536x8, .i32⟩
  | 70 => ⟨S10x65536x8, .i32⟩
  | 71 => ⟨S10x65536x8x1, .i32⟩
  | 72 => ⟨S10x65536x8, .i32⟩
  | 73 => ⟨S1, .i32⟩
  | 74 => ⟨S_, .i32⟩
  | 75 => ⟨S10x65536x8, .i32⟩
  | 76 => ⟨S10x65536x8, .i32⟩
  | 77 => ⟨S10x65536x8, .i32⟩
  | 78 => ⟨S10x65536x8x1, .i32⟩
  | 79 => ⟨S10x65536x8, .i32⟩
  | 80 => ⟨S1, .i32⟩
  | 81 => ⟨S_, .i32⟩
  | 82 => ⟨S10x65536x8, .i32⟩
  | 83 => ⟨S10x65536x8, .i32⟩
  | 84 => ⟨S10x65536x8, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S10x65536x8, .i32⟩
  | 92 => ⟨S10x65536x8, .i32⟩
  | 93 => ⟨S_, .i32⟩
  | 94 => ⟨S10x65536x8, .i32⟩
  | 95 => ⟨S10x65536x8, .i1⟩
  | 96 => ⟨S_, .i32⟩
  | 97 => ⟨S10x65536x8, .i32⟩
  | 98 => ⟨S10x65536x8, .i1⟩
  | 99 => ⟨S_, .i32⟩
  | 100 => ⟨S_, .i1⟩
  | 101 => ⟨S10x65536x8, .i1⟩
  | 102 => ⟨S10x65536x8, .i1⟩
  | 103 => ⟨S10x65536x8, .i1⟩
  | 104 => ⟨S10x65536x8, .i32⟩
  | 105 => ⟨S10x65536x8, .i32⟩
  | 106 => ⟨S10x65536x8, .i32⟩
  | 107 => ⟨S822944x1, .f32⟩
  | 108 => ⟨S822944, .f32⟩
  | 109 => ⟨S10485830x16, .f32⟩
  | 110 => ⟨S10485830x1, .f32⟩
  | 111 => ⟨S10485830, .f32⟩
  | 112 => ⟨S10x1048583, .f32⟩
  | 113 => ⟨S_, .i32⟩
  | 114 => ⟨S6x65536x8, .i32⟩
  | 115 => ⟨S6x65536x8, .i1⟩
  | 116 => ⟨S_, .i32⟩
  | 117 => ⟨S6x65536x8, .i32⟩
  | 118 => ⟨S6x65536x8, .i32⟩
  | 119 => ⟨S6x65536x8, .i32⟩
  | 120 => ⟨S6x65536x8x1, .i32⟩
  | 121 => ⟨S6x65536x8, .f32⟩
  | 122 => ⟨S10, .i32⟩
  | 123 => ⟨S10x1x1, .i32⟩
  | 124 => ⟨S_, .i32⟩
  | 125 => ⟨S10x1x1, .i32⟩
  | 126 => ⟨S10x1x1, .i1⟩
  | 127 => ⟨S_, .i32⟩
  | _ => ⟨S65536x3, .f32⟩

abbrev hbmTy0_1 (i : Nat) : BufTy := match i % 128 with
  | 0 => ⟨S10x1x1, .i32⟩
  | 1 => ⟨S10x1x1, .i32⟩
  | 2 => ⟨S10x1x1, .i32⟩
  | 3 => ⟨S_, .i32⟩
  | 4 => ⟨S10x65536x8, .i32⟩
  | 5 => ⟨S10x65536x8, .i1⟩
  | 6 => ⟨S_, .i32⟩
  | 7 => ⟨S10x65536x8, .i32⟩
  | 8 => ⟨S10x65536x8, .i32⟩
  | 9 => ⟨S10x65536x8, .i32⟩
  | 10 => ⟨S10x65536x8, .i32⟩
  | 11 => ⟨S10x65536x8x1, .i32⟩
  | 12 => ⟨S10x65536x8x1, .i32⟩
  | 13 => ⟨S10x65536x8x2, .i32⟩
  | 14 => ⟨S10x65536x8, .f32⟩
  | 15 => ⟨S16x65536x8, .f32⟩
  | 16 => ⟨S1x1x8x3, .f32⟩
  | 17 => ⟨S_, .f32⟩
  | 18 => ⟨S1x1x8x3, .f32⟩
  | 19 => ⟨S1x1x8x3, .f32⟩
  | 20 => ⟨S1x1x8x3, .f32⟩
  | 21 => ⟨S_, .f32⟩
  | 22 => ⟨S1x1x8x3, .f32⟩
  | 23 => ⟨S1x1x8x3, .f32⟩
  | 24 => ⟨S_, .f32⟩
  | 25 => ⟨S1x1x8x3, .f32⟩
  | 26 => ⟨S1x1x8x3, .f32⟩
  | 27 => ⟨S16x65536x1x3, .f32⟩
  | 28 => ⟨S16x65536x8x3, .f32⟩
  | 29 => ⟨S16x65536x8x3, .f32⟩
  | 30 => ⟨S16x65536x8x3, .f32⟩
  | 31 => ⟨S16x65536x8x3, .f32⟩
  | 32 => ⟨S16x65536x8x3, .f32⟩
  | 33 => ⟨S16x65536x8x1, .f32⟩
  | 34 => ⟨S16x65536x8, .f32⟩
  | 35 => ⟨S16x65536x8x1, .f32⟩
  | 36 => ⟨S16x65536x8, .f32⟩
  | 37 => ⟨S16x65536x8, .f32⟩
  | 38 => ⟨S16x65536x8, .f32⟩
  | 39 => ⟨S_, .f32⟩
  | 40 => ⟨S16x65536, .f32⟩
  | 41 => ⟨S65536x16, .f32⟩
  | 42 => ⟨S65536x19, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | .local _ .vmem, ⟨0, _⟩ => ⟨S16384x16, .f32⟩
  | .local _ .vmem, ⟨1, _⟩ => ⟨S16384x16, .f32⟩
  | .local _ .vmem, ⟨2, _⟩ => ⟨S16384x1, .f32⟩
  | .local _ .vmem, ⟨3, _⟩ => ⟨S16384x1, .f32⟩
  | .local _ .vmem, ⟨4, _⟩ => ⟨S16384x16, .f32⟩
  | .local _ .vmem, ⟨5, _⟩ => ⟨S16384x16, .f32⟩
  | .local _ .vmem, ⟨6, _⟩ => ⟨S16384x1, .f32⟩
  | .local _ .vmem, ⟨7, _⟩ => ⟨S16384x1, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_c : Ref sig .tc := ⟨.hbm, 6, rfl⟩
abbrev main_cst_2 : Ref sig .tc := ⟨.hbm, 7, rfl⟩
abbrev main_c_3 : Ref sig .tc := ⟨.hbm, 8, rfl⟩
abbrev main_c_4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c_8 : Ref sig .tc := ⟨.hbm, 85, rfl⟩
abbrev main_call1_v0 : Ref sig .tc := ⟨.hbm, 86, rfl⟩
abbrev main_call1_c : Ref sig .tc := ⟨.hbm, 87, rfl⟩
abbrev main_call1_v1 : Ref sig .tc := ⟨.hbm, 88, rfl⟩
abbrev main_call1_c_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_c_1 : Ref sig .tc := ⟨.hbm, 93, rfl⟩
abbrev main_call1_v5 : Ref sig .tc := ⟨.hbm, 94, rfl⟩
abbrev main_call1_v6 : Ref sig .tc := ⟨.hbm, 95, rfl⟩
abbrev main_call1_c_2 : Ref sig .tc := ⟨.hbm, 96, rfl⟩
abbrev main_call1_v7 : Ref sig .tc := ⟨.hbm, 97, rfl⟩
abbrev main_call1_v8 : Ref sig .tc := ⟨.hbm, 98, rfl⟩
abbrev main_call1_c_3 : Ref sig .tc := ⟨.hbm, 99, rfl⟩
abbrev main_call1_v9 : Ref sig .tc := ⟨.hbm, 100, rfl⟩
abbrev main_call1_v10 : Ref sig .tc := ⟨.hbm, 101, rfl⟩
abbrev main_call1_v11 : Ref sig .tc := ⟨.hbm, 102, rfl⟩
abbrev main_call1_v12 : Ref sig .tc := ⟨.hbm, 103, rfl⟩
abbrev main_call1_v13 : Ref sig .tc := ⟨.hbm, 104, rfl⟩
abbrev main_call1_v14 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_9 : Ref sig .tc := ⟨.hbm, 113, rfl⟩
abbrev main_v75 : Ref sig .tc := ⟨.hbm, 114, rfl⟩
abbrev main_v76 : Ref sig .tc := ⟨.hbm, 115, rfl⟩
abbrev main_c_10 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_c_11 : Ref sig .tc := ⟨.hbm, 124, rfl⟩
abbrev main_v84 : Ref sig .tc := ⟨.hbm, 125, rfl⟩
abbrev main_v85 : Ref sig .tc := ⟨.hbm, 126, rfl⟩
abbrev main_c_12 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_13 : Ref sig .tc := ⟨.hbm, 131, rfl⟩
abbrev main_v89 : Ref sig .tc := ⟨.hbm, 132, rfl⟩
abbrev main_v90 : Ref sig .tc := ⟨.hbm, 133, rfl⟩
abbrev main_c_14 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_15 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_16 : Ref sig .tc := ⟨.hbm, 149, rfl⟩
abbrev main_v104 : Ref sig .tc := ⟨.hbm, 150, rfl⟩
abbrev main_v105 : Ref sig .tc := ⟨.hbm, 151, rfl⟩
abbrev main_cst_17 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_18 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![51], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![641], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  bcast_S65536x3_S1x65536x3_1_2 : S65536x3.BroadcastsInDim S1x65536x3 (![1, 2] : Fin 2 → Fin S1x65536x3.rank)
  bcast_S16_S16x1x1_0 : S16.BroadcastsInDim S16x1x1 (![0] : Fin 1 → Fin S16x1x1.rank)
  bcast_S1x65536x3_S16x65536x3_0_1_2 : S1x65536x3.BroadcastsInDim S16x65536x3 (![0, 1, 2] : Fin 3 → Fin S16x65536x3.rank)
  bcast_S16x1x1_S16x65536x3_0_1_2 : S16x1x1.BroadcastsInDim S16x65536x3 (![0, 1, 2] : Fin 3 → Fin S16x65536x3.rank)
  bcast_S16x65536x3_S16x65536x1x3_0_1_3 : S16x65536x3.BroadcastsInDim S16x65536x1x3 (![0, 1, 3] : Fin 3 → Fin S16x65536x1x3.rank)
  bcast_S8x3_S1x1x8x3_2_3 : S8x3.BroadcastsInDim S1x1x8x3 (![2, 3] : Fin 2 → Fin S1x1x8x3.rank)
  bcast_S16x65536x1x3_S16x65536x8x3_0_1_2_3 : S16x65536x1x3.BroadcastsInDim S16x65536x8x3 (![0, 1, 2, 3] : Fin 4 → Fin S16x65536x8x3.rank)
  bcast_S1x1x8x3_S16x65536x8x3_0_1_2_3 : S1x1x8x3.BroadcastsInDim S16x65536x8x3 (![0, 1, 2, 3] : Fin 4 → Fin S16x65536x8x3.rank)
  bcast_S_S16 : S_.BroadcastsInDim S16 (![] : Fin 0 → Fin S16.rank)
  bcast_S16_S16x1x1x1_0 : S16.BroadcastsInDim S16x1x1x1 (![0] : Fin 1 → Fin S16x1x1x1.rank)
  bcast_S_S16x65536x8x3 : S_.BroadcastsInDim S16x65536x8x3 (![] : Fin 0 → Fin S16x65536x8x3.rank)
  bcast_S16x1x1x1_S16x65536x8x3_0_1_2_3 : S16x1x1x1.BroadcastsInDim S16x65536x8x3 (![0, 1, 2, 3] : Fin 4 → Fin S16x65536x8x3.rank)
  slices_S16x65536x8x3_S16x65536x1x3_0_0_0_0 : S16x65536x8x3.Slices ![0, 0, 0, 0] S16x65536x1x3
  shapeCasts_S16x65536x1x3_S16x65536x3 : S16x65536x1x3.ShapeCasts S16x65536x3
  slices_S16_S6_0 : S16.Slices ![0] S6
  bcast_S6_S6x1x1_0 : S6.BroadcastsInDim S6x1x1 (![0] : Fin 1 → Fin S6x1x1.rank)
  slices_S16x65536x8x3_S6x65536x8x1_0_0_0_0 : S16x65536x8x3.Slices ![0, 0, 0, 0] S6x65536x8x1
  shapeCasts_S6x65536x8x1_S6x65536x8 : S6x65536x8x1.ShapeCasts S6x65536x8
  bcast_S6x1x1_S6x65536x8_0_1_2 : S6x1x1.BroadcastsInDim S6x65536x8 (![0, 1, 2] : Fin 3 → Fin S6x65536x8.rank)
  slices_S16x65536x8x3_S6x65536x8x1_0_0_0_1 : S16x65536x8x3.Slices ![0, 0, 0, 1] S6x65536x8x1
  slices_S16x65536x8x3_S6x65536x8x1_0_0_0_2 : S16x65536x8x3.Slices ![0, 0, 0, 2] S6x65536x8x1
  bcast_S_S1 : S_.BroadcastsInDim S1 (![] : Fin 0 → Fin S1.rank)
  concatenates_S1_S5_S6_d0 : Shape.Concatenates [S1, S5] S6 0
  slices_S16x65536x8x3_S10x65536x8x3_6_0_0_0 : S16x65536x8x3.Slices ![6, 0, 0, 0] S10x65536x8x3
  slices_S10x65536x8x3_S10x65536x8x1_0_0_0_0 : S10x65536x8x3.Slices ![0, 0, 0, 0] S10x65536x8x1
  shapeCasts_S10x65536x8x1_S10x65536x8 : S10x65536x8x1.ShapeCasts S10x65536x8
  slices_S3_S1_0 : S3.Slices ![0] S1
  shapeCasts_S1_S_ : S1.ShapeCasts S_
  bcast_S_S10x65536x8 : S_.BroadcastsInDim S10x65536x8 (![] : Fin 0 → Fin S10x65536x8.rank)
  slices_S10x65536x8x3_S10x65536x8x1_0_0_0_1 : S10x65536x8x3.Slices ![0, 0, 0, 1] S10x65536x8x1
  slices_S3_S1_1 : S3.Slices ![1] S1
  slices_S10x65536x8x3_S10x65536x8x1_0_0_0_2 : S10x65536x8x3.Slices ![0, 0, 0, 2] S10x65536x8x1
  slices_S3_S1_2 : S3.Slices ![2] S1
  inb_S16384x16_S16384x16_0_0 : ∀ a, (![0, 0] : Fin 2 → Nat) a + S16384x16.size a ≤ S16384x16.size a
  h_S16384x16 : 0 < S16384x16.numel
  reduces_S16384x16_S16384 : S16384x16.Reduces [1] S16384
  shapeCasts_S16384_S16384x1 : S16384.ShapeCasts S16384x1
  inb_S16384x1_S16384x1_0_0 : ∀ a, (![0, 0] : Fin 2 → Nat) a + S16384x1.size a ≤ S16384x1.size a
  h_S16384x1 : 0 < S16384x1.numel
  shapeCasts_S822944x1_S822944 : S822944x1.ShapeCasts S822944
  shapeCasts_S10x1048583x16_S10485830x16 : S10x1048583x16.ShapeCasts S10485830x16
  shapeCasts_S16384x16_S16384x16 : S16384x16.ShapeCasts S16384x16
  shapeCasts_S10485830x1_S10485830 : S10485830x1.ShapeCasts S10485830
  shapeCasts_S10485830_S10x1048583 : S10485830.ShapeCasts S10x1048583
  bcast_S_S6x65536x8 : S_.BroadcastsInDim S6x65536x8 (![] : Fin 0 → Fin S6x65536x8.rank)
  bcast_S6x65536x8_S6x65536x8x1_0_1_2 : S6x65536x8.BroadcastsInDim S6x65536x8x1 (![0, 1, 2] : Fin 3 → Fin S6x65536x8x1.rank)
  bcast_S10_S10x1x1_0 : S10.BroadcastsInDim S10x1x1 (![0] : Fin 1 → Fin S10x1x1.rank)
  bcast_S_S10x1x1 : S_.BroadcastsInDim S10x1x1 (![] : Fin 0 → Fin S10x1x1.rank)
  bcast_S10x1x1_S10x65536x8_0_1_2 : S10x1x1.BroadcastsInDim S10x65536x8 (![0, 1, 2] : Fin 3 → Fin S10x65536x8.rank)
  bcast_S10x65536x8_S10x65536x8x1_0_1_2 : S10x65536x8.BroadcastsInDim S10x65536x8x1 (![0, 1, 2] : Fin 3 → Fin S10x65536x8x1.rank)
  concatenates_S10x65536x8x1_S10x65536x8x1_S10x65536x8x2_d3 : Shape.Concatenates [S10x65536x8x1, S10x65536x8x1] S10x65536x8x2 3
  concatenates_S6x65536x8_S10x65536x8_S16x65536x8_d0 : Shape.Concatenates [S6x65536x8, S10x65536x8] S16x65536x8 0
  bcast_S_S1x1x8x3 : S_.BroadcastsInDim S1x1x8x3 (![] : Fin 0 → Fin S1x1x8x3.rank)
  slices_S16x65536x8x3_S16x65536x8x1_0_0_0_0 : S16x65536x8x3.Slices ![0, 0, 0, 0] S16x65536x8x1
  shapeCasts_S16x65536x8x1_S16x65536x8 : S16x65536x8x1.ShapeCasts S16x65536x8
  slices_S16x65536x8x3_S16x65536x8x1_0_0_0_1 : S16x65536x8x3.Slices ![0, 0, 0, 1] S16x65536x8x1
  reducesTo_S16x65536x8_S16x65536_d2 : S16x65536x8.ReducesTo [2] S16x65536
  h_S_ : 0 < S_.numel
  transposes_S16x65536_S65536x16_1_0 : S16x65536.Transposes [1, 0] S65536x16
  concatenates_S65536x3_S65536x16_S65536x19_d1 : Shape.Concatenates [S65536x3, S65536x16] S65536x19 1
  gather_S822944_S6x65536x8x1_S6x65536x8_n_0_n_n_0_3_1_wf : GatherDims.WF S822944 S6x65536x8x1 S6x65536x8 [] [0] [] [0] [] 3 ![1]
  gather_S10x1048583_S10x65536x8x2_S10x65536x8_n_01_n_n_01_3_11_wf : GatherDims.WF S10x1048583 S10x65536x8x2 S10x65536x8 [] [0, 1] [] [0, 1] [] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16384x16.size a < S822944x16.size a
  hwx0_0 : ∀ i : grid0.Coords, EltTy.bits .f32 = 32 ∨ (Rect.unit (s := S822944x16) (fun a => cc0_transform_0 i a * S16384x16.size a) (fun a => (Pipeline.Clip.of (cc0_transform_0 i a) (S16384x16.size a) (S822944x16.size a)).extent (S16384x16.size a)) fun a => Pipeline.Clip.inb (Pipeline.Clip.ok_of (hstart0_0 i a))).WholeWords (EltTy.packing .f32)
  hwxs0_0 : ∀ i : grid0.Coords, EltTy.bits .f32 = 32 ∨ (Rect.unit (s := S16384x16) (fun _ => 0) (fun a => (Pipeline.Clip.of (cc0_transform_0 i a) (S16384x16.size a) (S822944x16.size a)).extent (S16384x16.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S16384x1.size a < S822944x1.size a
  hwx0_1 : ∀ i : grid0.Coords, EltTy.bits .f32 = 32 ∨ (Rect.unit (s := S822944x1) (fun a => cc0_transform_1 i a * S16384x1.size a) (fun a => (Pipeline.Clip.of (cc0_transform_1 i a) (S16384x1.size a) (S822944x1.size a)).extent (S16384x1.size a)) fun a => Pipeline.Clip.inb (Pipeline.Clip.ok_of (hstart0_1 i a))).WholeWords (EltTy.packing .f32)
  hwxs0_1 : ∀ i : grid0.Coords, EltTy.bits .f32 = 32 ∨ (Rect.unit (s := S16384x1) (fun _ => 0) (fun a => (Pipeline.Clip.of (cc0_transform_1 i a) (S16384x1.size a) (S822944x1.size a)).extent (S16384x1.size a)) fun a => (Nat.zero_add _).trans_le (Pipeline.Clip.extent_le (Pipeline.Clip.ok_of (hstart0_1 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S16384x16.size a < S10485830x16.size a
  hwx1_0 : ∀ i : grid1.Coords, EltTy.bits .f32 = 32 ∨ (Rect.unit (s := S10485830x16) (fun a => cc1_transform_0 i a * S16384x16.size a) (fun a => (Pipeline.Clip.of (cc1_transform_0 i a) (S16384x16.size a) (S10485830x16.size a)).extent (S16384x16.size a)) fun a => Pipeline.Clip.inb (Pipeline.Clip.ok_of (hstart1_0 i a))).WholeWords (EltTy.packing .f32)
  hwxs1_0 : ∀ i : grid1.Coords, EltTy.bits .f32 = 32 ∨ (Rect.unit (s := S16384x16) (fun _ => 0) (fun a => (Pipeline.Clip.of (cc1_transform_0 i a) (S16384x16.size a) (S10485830x16.size a)).extent (S16384x16.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S16384x1.size a < S10485830x1.size a
  hwx1_1 : ∀ i : grid1.Coords, EltTy.bits .f32 = 32 ∨ (Rect.unit (s := S10485830x1) (fun a => cc1_transform_1 i a * S16384x1.size a) (fun a => (Pipeline.Clip.of (cc1_transform_1 i a) (S16384x1.size a) (S10485830x1.size a)).extent (S16384x1.size a)) fun a => Pipeline.Clip.inb (Pipeline.Clip.ok_of (hstart1_1 i a))).WholeWords (EltTy.packing .f32)
  hwxs1_1 : ∀ i : grid1.Coords, EltTy.bits .f32 = 32 ∨ (Rect.unit (s := S16384x1) (fun _ => 0) (fun a => (Pipeline.Clip.of (cc1_transform_1 i a) (S16384x1.size a) (S10485830x1.size a)).extent (S16384x1.size a)) fun a => (Nat.zero_add _).trans_le (Pipeline.Clip.extent_le (Pipeline.Clip.ok_of (hstart1_1 i a)))).WholeWords (EltTy.packing .f32)

variable [Facts₀]

def gather_S822944_S6x65536x8x1_S6x65536x8_n_0_n_n_0_3_1 : GatherDims S822944 S6x65536x8x1 S6x65536x8 where
  offsetDims := []
  collapsedSliceDims := [0]
  operandBatchingDims := []
  startIndicesBatchingDims := []
  startIndexMap := [0]
  indexVectorDim := 3
  sliceSizes := ![1]
  wf := gather_S822944_S6x65536x8x1_S6x65536x8_n_0_n_n_0_3_1_wf
def gather_S10x1048583_S10x65536x8x2_S10x65536x8_n_01_n_n_01_3_11 : GatherDims S10x1048583 S10x65536x8x2 S10x65536x8 where
  offsetDims := []
  collapsedSliceDims := [0, 1]
  operandBatchingDims := []
  startIndicesBatchingDims := []
  startIndexMap := [0, 1]
  indexVectorDim := 3
  sliceSizes := ![1, 1]
  wf := gather_S10x1048583_S10x65536x8x2_S10x65536x8_n_01_n_n_01_3_11_wf

abbrev win0_0 : Pipeline.Window sig grid0 :=
  Pipeline.Window.ofSpecClip (Memref.whole main_arg1) S16384x16.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v69) S16384x1.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpecClip (Memref.whole main_v71) S16384x16.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v72) S16384x1.size cc1_transform_1 reads1_1 true false 2 stage1_1 sem1_1
    hrank1 hreads1_1 hstart1_1 nbuf1_1 (Memref.isWhole_whole _) hwx1_1 hwxs1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S65536x3 : Shape := ⟨2, ![65536, 3]⟩
abbrev S822944x16 : Shape := ⟨2, ![822944, 16]⟩
abbrev S10x1048583x16 : Shape := ⟨3, ![10, 1048583, 16]⟩
abbrev S3 : Shape := ⟨1, ![3]⟩
abbrev S16 : Shape := ⟨1, ![16]⟩
abbrev S8x3 : Shape := ⟨2, ![8, 3]⟩
abbrev S5 : Shape := ⟨1, ![5]⟩
abbrev S1x3 : Shape := ⟨2, ![1, 3]⟩
abbrev S1x65536x3 : Shape := ⟨3, ![1, 65536, 3]⟩
abbrev S16x1x1 : Shape := ⟨3, ![16, 1, 1]⟩
abbrev S16x65536x3 : Shape := ⟨3, ![16, 65536, 3]⟩
abbrev S16x65536x1x3 : Shape := ⟨4, ![16, 65536, 1, 3]⟩
abbrev S1x1x8x3 : Shape := ⟨4, ![1, 1, 8, 3]⟩
abbrev S16x65536x8x3 : Shape := ⟨4, ![16, 65536, 8, 3]⟩
abbrev S_ : Shape := ⟨0, ![]⟩
abbrev S16x1x1x1 : Shape := ⟨4, ![16, 1, 1, 1]⟩
abbrev S6 : Shape := ⟨1, ![6]⟩
abbrev S6x1x1 : Shape := ⟨3, ![6, 1, 1]⟩
abbrev S6x65536x8x1 : Shape := ⟨4, ![6, 65536, 8, 1]⟩
abbrev S6x65536x8 : Shape := ⟨3, ![6, 65536, 8]⟩
abbrev S1 : Shape := ⟨1, ![1]⟩
abbrev S10x65536x8x3 : Shape := ⟨4, ![10, 65536, 8, 3]⟩
abbrev S10x65536x8x1 : Shape := ⟨4, ![10, 65536, 8, 1]⟩
abbrev S10x65536x8 : Shape := ⟨3, ![10, 65536, 8]⟩
abbrev S6x65536x8x16 : Shape := ⟨4, ![6, 65536, 8, 16]⟩
abbrev S10 : Shape := ⟨1, ![10]⟩
abbrev S10x1x1 : Shape := ⟨3, ![10, 1, 1]⟩
abbrev S10x65536x8x2 : Shape := ⟨4, ![10, 65536, 8, 2]⟩
abbrev S10x65536x8x16 : Shape := ⟨4, ![10, 65536, 8, 16]⟩
abbrev S16x65536x8x16 : Shape := ⟨4, ![16, 65536, 8, 16]⟩
abbrev S16x65536x8x1 : Shape := ⟨4, ![16, 65536, 8, 1]⟩
abbrev S16x65536x8 : Shape := ⟨3, ![16, 65536, 8]⟩
abbrev S16x65536x16 : Shape := ⟨3, ![16, 65536, 16]⟩
abbrev S65536x16x16 : Shape := ⟨3, ![65536, 16, 16]⟩
abbrev S65536x16 : Shape := ⟨2, ![65536, 16]⟩
abbrev S65536x19 : Shape := ⟨2, ![65536, 19]⟩

abbrev nBuf : Space → Nat
  | .hbm => 165
  | .vmem => 0
  | .smem => 0
  | _ => 0

abbrev hbmTy0_0 (i : Nat) : BufTy := match i % 128 with
  | 0 => ⟨S65536x3, .f32⟩
  | 1 => ⟨S822944x16, .f32⟩
  | 2 => ⟨S10x1048583x16, .f32⟩
  | 3 => ⟨S3, .f32⟩
  | 4 => ⟨S3, .f32⟩
  | 5 => ⟨S16, .f32⟩
  | 6 => ⟨S16, .i32⟩
  | 7 => ⟨S8x3, .f32⟩
  | 8 => ⟨S5, .i32⟩
  | 9 => ⟨S1x3, .f32⟩
  | 10 => ⟨S65536x3, .f32⟩
  | 11 => ⟨S65536x3, .f32⟩
  | 12 => ⟨S3, .f32⟩
  | 13 => ⟨S1x3, .f32⟩
  | 14 => ⟨S65536x3, .f32⟩
  | 15 => ⟨S65536x3, .f32⟩
  | 16 => ⟨S1x65536x3, .f32⟩
  | 17 => ⟨S16x1x1, .f32⟩
  | 18 => ⟨S16x65536x3, .f32⟩
  | 19 => ⟨S16x65536x3, .f32⟩
  | 20 => ⟨S16x65536x3, .f32⟩
  | 21 => ⟨S16x65536x1x3, .f32⟩
  | 22 => ⟨S1x1x8x3, .f32⟩
  | 23 => ⟨S16x65536x8x3, .f32⟩
  | 24 => ⟨S16x65536x8x3, .f32⟩
  | 25 => ⟨S16x65536x8x3, .f32⟩
  | 26 => ⟨S16x65536x8x3, .i32⟩
  | 27 => ⟨S_, .i32⟩
  | 28 => ⟨S16, .i32⟩
  | 29 => ⟨S16, .i32⟩
  | 30 => ⟨S16x1x1x1, .i32⟩
  | 31 => ⟨S_, .i32⟩
  | 32 => ⟨S_, .i32⟩
  | 33 => ⟨S16x65536x8x3, .i32⟩
  | 34 => ⟨S16x65536x8x3, .i32⟩
  | 35 => ⟨S16x65536x8x3, .i32⟩
  | 36 => ⟨S16x65536x8x3, .i32⟩
  | 37 => ⟨S16x65536x1x3, .i32⟩
  | 38 => ⟨S16x65536x3, .i32⟩
  | 39 => ⟨S16x65536x3, .f32⟩
  | 40 => ⟨S16x65536x3, .f32⟩
  | 41 => ⟨S6, .i32⟩
  | 42 => ⟨S6x1x1, .i32⟩
  | 43 => ⟨S6x65536x8x1, .i32⟩
  | 44 => ⟨S6x65536x8, .i32⟩
  | 45 => ⟨S6x65536x8, .i32⟩
  | 46 => ⟨S6x65536x8, .i32⟩
  | 47 => ⟨S6x65536x8, .i32⟩
  | 48 => ⟨S6x65536x8, .i32⟩
  | 49 => ⟨S6x65536x8x1, .i32⟩
  | 50 => ⟨S6x65536x8, .i32⟩
  | 51 => ⟨S6x65536x8, .i32⟩
  | 52 => ⟨S6x65536x8, .i32⟩
  | 53 => ⟨S6x65536x8, .i32⟩
  | 54 => ⟨S6x65536x8x1, .i32⟩
  | 55 => ⟨S6x65536x8, .i32⟩
  | 56 => ⟨S6x65536x8, .i32⟩
  | 57 => ⟨S_, .i32⟩
  | 58 => ⟨S1, .i32⟩
  | 59 => ⟨S6, .i32⟩
  | 60 => ⟨S6x1x1, .i32⟩
  | 61 => ⟨S6x65536x8, .i32⟩
  | 62 => ⟨S6x65536x8, .i32⟩
  | 63 => ⟨S10x65536x8x3, .i32⟩
  | 64 => ⟨S10x65536x8x1, .i32⟩
  | 65 => ⟨S10x65536x8, .i32⟩
  | 66 => ⟨S_, .i32⟩
  | 67 => ⟨S10x65536x8, .i32⟩
  | 68 => ⟨S10x65536x8, .i32⟩
  | 69 => ⟨S10x65536x8x1, .i32⟩
  | 70 => ⟨S10x65536x8, .i32⟩
  | 71 => ⟨S_, .i32⟩
  | 72 => ⟨S10x65536x8, .i32⟩
  | 73 => ⟨S10x65536x8, .i32⟩
  | 74 => ⟨S10x65536x8, .i32⟩
  | 75 => ⟨S10x65536x8x1, .i32⟩
  | 76 => ⟨S10x65536x8, .i32⟩
  | 77 => ⟨S_, .i32⟩
  | 78 => ⟨S10x65536x8, .i32⟩
  | 79 => ⟨S10x65536x8, .i32⟩
  | 80 => ⟨S10x65536x8, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S10x65536x8, .i32⟩
  | 88 => ⟨S10x65536x8, .i32⟩
  | 89 => ⟨S_, .i32⟩
  | 90 => ⟨S10x65536x8, .i32⟩
  | 91 => ⟨S10x65536x8, .i1⟩
  | 92 => ⟨S_, .i32⟩
  | 93 => ⟨S10x65536x8, .i32⟩
  | 94 => ⟨S10x65536x8, .i1⟩
  | 95 => ⟨S_, .i32⟩
  | 96 => ⟨S_, .i1⟩
  | 97 => ⟨S10x65536x8, .i1⟩
  | 98 => ⟨S10x65536x8, .i1⟩
  | 99 => ⟨S10x65536x8, .i1⟩
  | 100 => ⟨S10x65536x8, .i32⟩
  | 101 => ⟨S10x65536x8, .i32⟩
  | 102 => ⟨S10x65536x8, .i32⟩
  | 103 => ⟨S_, .i32⟩
  | 104 => ⟨S6x65536x8, .i32⟩
  | 105 => ⟨S6x65536x8, .i1⟩
  | 106 => ⟨S_, .i32⟩
  | 107 => ⟨S6x65536x8, .i32⟩
  | 108 => ⟨S6x65536x8, .i32⟩
  | 109 => ⟨S6x65536x8, .i32⟩
  | 110 => ⟨S6x65536x8x1, .i32⟩
  | 111 => ⟨S6x65536x8x16, .f32⟩
  | 112 => ⟨S10, .i32⟩
  | 113 => ⟨S10x1x1, .i32⟩
  | 114 => ⟨S_, .i32⟩
  | 115 => ⟨S10x1x1, .i32⟩
  | 116 => ⟨S10x1x1, .i1⟩
  | 117 => ⟨S_, .i32⟩
  | 118 => ⟨S10x1x1, .i32⟩
  | 119 => ⟨S10x1x1, .i32⟩
  | 120 => ⟨S10x1x1, .i32⟩
  | 121 => ⟨S_, .i32⟩
  | 122 => ⟨S10x65536x8, .i32⟩
  | 123 => ⟨S10x65536x8, .i1⟩
  | 124 => ⟨S_, .i32⟩
  | 125 => ⟨S10x65536x8, .i32⟩
  | 126 => ⟨S10x65536x8, .i32⟩
  | 127 => ⟨S10x65536x8, .i32⟩
  | _ => ⟨S65536x3, .f32⟩

abbrev hbmTy0_1 (i : Nat) : BufTy := match i % 128 with
  | 0 => ⟨S10x65536x8, .i32⟩
  | 1 => ⟨S10x65536x8x1, .i32⟩
  | 2 => ⟨S10x65536x8x1, .i32⟩
  | 3 => ⟨S10x65536x8x2, .i32⟩
  | 4 => ⟨S10x65536x8x16, .f32⟩
  | 5 => ⟨S16x65536x8x16, .f32⟩
  | 6 => ⟨S1x1x8x3, .f32⟩
  | 7 => ⟨S_, .f32⟩
  | 8 => ⟨S1x1x8x3, .f32⟩
  | 9 => ⟨S1x1x8x3, .f32⟩
  | 10 => ⟨S1x1x8x3, .f32⟩
  | 11 => ⟨S_, .f32⟩
  | 12 => ⟨S1x1x8x3, .f32⟩
  | 13 => ⟨S1x1x8x3, .f32⟩
  | 14 => ⟨S_, .f32⟩
  | 15 => ⟨S1x1x8x3, .f32⟩
  | 16 => ⟨S1x1x8x3, .f32⟩
  | 17 => ⟨S16x65536x1x3, .f32⟩
  | 18 => ⟨S16x65536x8x3, .f32⟩
  | 19 => ⟨S16x65536x8x3, .f32⟩
  | 20 => ⟨S16x65536x8x3, .f32⟩
  | 21 => ⟨S16x65536x8x3, .f32⟩
  | 22 => ⟨S16x65536x8x3, .f32⟩
  | 23 => ⟨S16x65536x8x1, .f32⟩
  | 24 => ⟨S16x65536x8, .f32⟩
  | 25 => ⟨S16x65536x8x1, .f32⟩
  | 26 => ⟨S16x65536x8, .f32⟩
  | 27 => ⟨S16x65536x8, .f32⟩
  | 28 => ⟨S16x65536x8x1, .f32⟩
  | 29 => ⟨S16x65536x8x16, .f32⟩
  | 30 => ⟨S16x65536x8x16, .f32⟩
  | 31 => ⟨S_, .f32⟩
  | 32 => ⟨S16x65536x16, .f32⟩
  | 33 => ⟨S65536x16x16, .f32⟩
  | 34 => ⟨S_, .f32⟩
  | 35 => ⟨S65536x16, .f32⟩
  | 36 => ⟨S65536x19, .f32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_c : Ref sig .tc := ⟨.hbm, 6, rfl⟩
abbrev main_cst_2 : Ref sig .tc := ⟨.hbm, 7, rfl⟩
abbrev main_c_3 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_10 : Ref sig .tc := ⟨.hbm, 81, rfl⟩
abbrev main_call1_v0 : Ref sig .tc := ⟨.hbm, 82, rfl⟩
abbrev main_call1_c : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_c_1 : Ref sig .tc := ⟨.hbm, 89, rfl⟩
abbrev main_call1_v5 : Ref sig .tc := ⟨.hbm, 90, rfl⟩
abbrev main_call1_v6 : Ref sig .tc := ⟨.hbm, 91, rfl⟩
abbrev main_call1_c_2 : Ref sig .tc := ⟨.hbm, 92, rfl⟩
abbrev main_call1_v7 : Ref sig .tc := ⟨.hbm, 93, rfl⟩
abbrev main_call1_v8 : Ref sig .tc := ⟨.hbm, 94, rfl⟩
abbrev main_call1_c_3 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_v62 : Ref sig .tc := ⟨.hbm, 102, rfl⟩
abbrev main_c_11 : Ref sig .tc := ⟨.hbm, 103, rfl⟩
abbrev main_v63 : Ref sig .tc := ⟨.hbm, 104, rfl⟩
abbrev main_v64 : Ref sig .tc := ⟨.hbm, 105, rfl⟩
abbrev main_c_12 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_13 : Ref sig .tc := ⟨.hbm, 114, rfl⟩
abbrev main_v72 : Ref sig .tc := ⟨.hbm, 115, rfl⟩
abbrev main_v73 : Ref sig .tc := ⟨.hbm, 116, rfl⟩
abbrev main_c_14 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_15 : Ref sig .tc := ⟨.hbm, 121, rfl⟩
abbrev main_v77 : Ref sig .tc := ⟨.hbm, 122, rfl⟩
abbrev main_v78 : Ref sig .tc := ⟨.hbm, 123, rfl⟩
abbrev main_c_16 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_17 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_18 : Ref sig .tc := ⟨.hbm, 139, rfl⟩
abbrev main_v92 : Ref sig .tc := ⟨.hbm, 140, rfl⟩
abbrev main_v93 : Ref sig .tc := ⟨.hbm, 141, rfl⟩
abbrev main_cst_19 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_20 : Ref sig .tc := ⟨.hbm, 159, rfl⟩
abbrev main_v110 : Ref sig .tc := ⟨.hbm, 160, rfl⟩
abbrev main_v111 : Ref sig .tc := ⟨.hbm, 161, rfl⟩
abbrev main_cst_21 : Ref sig .tc := ⟨.hbm, 162, rfl⟩
abbrev main_v112 : Ref sig .tc := ⟨.hbm, 163, rfl⟩
abbrev main_v113 : Ref sig .tc := ⟨.hbm, 164, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S65536x3_0_1 : S1x3.BroadcastsInDim S65536x3 (![0, 1] : Fin 2 → Fin S65536x3.rank)
  bcast_S65536x3_S1x65536x3_1_2 : S65536x3.BroadcastsInDim S1x65536x3 (![1, 2] : Fin 2 → Fin S1x65536x3.rank)
  bcast_S16_S16x1x1_0 : S16.BroadcastsInDim S16x1x1 (![0] : Fin 1 → Fin S16x1x1.rank)
  bcast_S1x65536x3_S16x65536x3_0_1_2 : S1x65536x3.BroadcastsInDim S16x65536x3 (![0, 1, 2] : Fin 3 → Fin S16x65536x3.rank)
  bcast_S16x1x1_S16x65536x3_0_1_2 : S16x1x1.BroadcastsInDim S16x65536x3 (![0, 1, 2] : Fin 3 → Fin S16x65536x3.rank)
  bcast_S16x65536x3_S16x65536x1x3_0_1_3 : S16x65536x3.BroadcastsInDim S16x65536x1x3 (![0, 1, 3] : Fin 3 → Fin S16x65536x1x3.rank)
  bcast_S8x3_S1x1x8x3_2_3 : S8x3.BroadcastsInDim S1x1x8x3 (![2, 3] : Fin 2 → Fin S1x1x8x3.rank)
  bcast_S16x65536x1x3_S16x65536x8x3_0_1_2_3 : S16x65536x1x3.BroadcastsInDim S16x65536x8x3 (![0, 1, 2, 3] : Fin 4 → Fin S16x65536x8x3.rank)
  bcast_S1x1x8x3_S16x65536x8x3_0_1_2_3 : S1x1x8x3.BroadcastsInDim S16x65536x8x3 (![0, 1, 2, 3] : Fin 4 → Fin S16x65536x8x3.rank)
  bcast_S_S16 : S_.BroadcastsInDim S16 (![] : Fin 0 → Fin S16.rank)
  bcast_S16_S16x1x1x1_0 : S16.BroadcastsInDim S16x1x1x1 (![0] : Fin 1 → Fin S16x1x1x1.rank)
  bcast_S_S16x65536x8x3 : S_.BroadcastsInDim S16x65536x8x3 (![] : Fin 0 → Fin S16x65536x8x3.rank)
  bcast_S16x1x1x1_S16x65536x8x3_0_1_2_3 : S16x1x1x1.BroadcastsInDim S16x65536x8x3 (![0, 1, 2, 3] : Fin 4 → Fin S16x65536x8x3.rank)
  slices_S16x65536x8x3_S16x65536x1x3_0_0_0_0 : S16x65536x8x3.Slices ![0, 0, 0, 0] S16x65536x1x3
  shapeCasts_S16x65536x1x3_S16x65536x3 : S16x65536x1x3.ShapeCasts S16x65536x3
  slices_S16_S6_0 : S16.Slices ![0] S6
  bcast_S6_S6x1x1_0 : S6.BroadcastsInDim S6x1x1 (![0] : Fin 1 → Fin S6x1x1.rank)
  slices_S16x65536x8x3_S6x65536x8x1_0_0_0_0 : S16x65536x8x3.Slices ![0, 0, 0, 0] S6x65536x8x1
  shapeCasts_S6x65536x8x1_S6x65536x8 : S6x65536x8x1.ShapeCasts S6x65536x8
  bcast_S6x1x1_S6x65536x8_0_1_2 : S6x1x1.BroadcastsInDim S6x65536x8 (![0, 1, 2] : Fin 3 → Fin S6x65536x8.rank)
  slices_S16x65536x8x3_S6x65536x8x1_0_0_0_1 : S16x65536x8x3.Slices ![0, 0, 0, 1] S6x65536x8x1
  slices_S16x65536x8x3_S6x65536x8x1_0_0_0_2 : S16x65536x8x3.Slices ![0, 0, 0, 2] S6x65536x8x1
  bcast_S_S1 : S_.BroadcastsInDim S1 (![] : Fin 0 → Fin S1.rank)
  concatenates_S1_S5_S6_d0 : Shape.Concatenates [S1, S5] S6 0
  slices_S16x65536x8x3_S10x65536x8x3_6_0_0_0 : S16x65536x8x3.Slices ![6, 0, 0, 0] S10x65536x8x3
  slices_S10x65536x8x3_S10x65536x8x1_0_0_0_0 : S10x65536x8x3.Slices ![0, 0, 0, 0] S10x65536x8x1
  shapeCasts_S10x65536x8x1_S10x65536x8 : S10x65536x8x1.ShapeCasts S10x65536x8
  bcast_S_S10x65536x8 : S_.BroadcastsInDim S10x65536x8 (![] : Fin 0 → Fin S10x65536x8.rank)
  slices_S10x65536x8x3_S10x65536x8x1_0_0_0_1 : S10x65536x8x3.Slices ![0, 0, 0, 1] S10x65536x8x1
  slices_S10x65536x8x3_S10x65536x8x1_0_0_0_2 : S10x65536x8x3.Slices ![0, 0, 0, 2] S10x65536x8x1
  bcast_S_S6x65536x8 : S_.BroadcastsInDim S6x65536x8 (![] : Fin 0 → Fin S6x65536x8.rank)
  bcast_S6x65536x8_S6x65536x8x1_0_1_2 : S6x65536x8.BroadcastsInDim S6x65536x8x1 (![0, 1, 2] : Fin 3 → Fin S6x65536x8x1.rank)
  bcast_S10_S10x1x1_0 : S10.BroadcastsInDim S10x1x1 (![0] : Fin 1 → Fin S10x1x1.rank)
  bcast_S_S10x1x1 : S_.BroadcastsInDim S10x1x1 (![] : Fin 0 → Fin S10x1x1.rank)
  bcast_S10x1x1_S10x65536x8_0_1_2 : S10x1x1.BroadcastsInDim S10x65536x8 (![0, 1, 2] : Fin 3 → Fin S10x65536x8.rank)
  bcast_S10x65536x8_S10x65536x8x1_0_1_2 : S10x65536x8.BroadcastsInDim S10x65536x8x1 (![0, 1, 2] : Fin 3 → Fin S10x65536x8x1.rank)
  concatenates_S10x65536x8x1_S10x65536x8x1_S10x65536x8x2_d3 : Shape.Concatenates [S10x65536x8x1, S10x65536x8x1] S10x65536x8x2 3
  concatenates_S6x65536x8x16_S10x65536x8x16_S16x65536x8x16_d0 : Shape.Concatenates [S6x65536x8x16, S10x65536x8x16] S16x65536x8x16 0
  bcast_S_S1x1x8x3 : S_.BroadcastsInDim S1x1x8x3 (![] : Fin 0 → Fin S1x1x8x3.rank)
  slices_S16x65536x8x3_S16x65536x8x1_0_0_0_0 : S16x65536x8x3.Slices ![0, 0, 0, 0] S16x65536x8x1
  shapeCasts_S16x65536x8x1_S16x65536x8 : S16x65536x8x1.ShapeCasts S16x65536x8
  slices_S16x65536x8x3_S16x65536x8x1_0_0_0_1 : S16x65536x8x3.Slices ![0, 0, 0, 1] S16x65536x8x1
  bcast_S16x65536x8_S16x65536x8x1_0_1_2 : S16x65536x8.BroadcastsInDim S16x65536x8x1 (![0, 1, 2] : Fin 3 → Fin S16x65536x8x1.rank)
  bcast_S16x65536x8x1_S16x65536x8x16_0_1_2_3 : S16x65536x8x1.BroadcastsInDim S16x65536x8x16 (![0, 1, 2, 3] : Fin 4 → Fin S16x65536x8x16.rank)
  reducesTo_S16x65536x8x16_S16x65536x16_d2 : S16x65536x8x16.ReducesTo [2] S16x65536x16
  h_S_ : 0 < S_.numel
  transposes_S16x65536x16_S65536x16x16_1_0_2 : S16x65536x16.Transposes [1, 0, 2] S65536x16x16
  reducesTo_S65536x16x16_S65536x16_d2 : S65536x16x16.ReducesTo [2] S65536x16
  concatenates_S65536x3_S65536x16_S65536x19_d1 : Shape.Concatenates [S65536x3, S65536x16] S65536x19 1
  gather_S822944x16_S6x65536x8x1_S6x65536x8x16_3_0_n_n_0_3_116_wf : GatherDims.WF S822944x16 S6x65536x8x1 S6x65536x8x16 [3] [0] [] [0] [] 3 ![1, 16]
  gather_S10x1048583x16_S10x65536x8x2_S10x65536x8x16_3_01_n_n_01_3_1116_wf : GatherDims.WF S10x1048583x16 S10x65536x8x2 S10x65536x8x16 [3] [0, 1] [] [0, 1] [] 3 ![1, 1, 16]

variable [Facts₀]

def gather_S822944x16_S6x65536x8x1_S6x65536x8x16_3_0_n_n_0_3_116 : GatherDims S822944x16 S6x65536x8x1 S6x65536x8x16 where
  offsetDims := [3]
  collapsedSliceDims := [0]
  operandBatchingDims := []
  startIndicesBatchingDims := []
  startIndexMap := [0]
  indexVectorDim := 3
  sliceSizes := ![1, 16]
  wf := gather_S822944x16_S6x65536x8x1_S6x65536x8x16_3_0_n_n_0_3_116_wf
def gather_S10x1048583x16_S10x65536x8x2_S10x65536x8x16_3_01_n_n_01_3_1116 : GatherDims S10x1048583x16 S10x65536x8x2 S10x65536x8x16 where
  offsetDims := [3]
  collapsedSliceDims := [0, 1]
  operandBatchingDims := []
  startIndicesBatchingDims := []
  startIndexMap := [0, 1]
  indexVectorDim := 3
  sliceSizes := ![1, 1, 16]
  wf := gather_S10x1048583x16_S10x65536x8x2_S10x65536x8x16_3_01_n_n_01_3_1116_wf

class Facts : Prop extends Facts₀ where

variable [Facts]
-- ==== Proof.BitsBody.lean ====
/-
  The row-sum kernels of the two pallas_calls at the word level, and what the pipeline rule asks of them.

  Each body loads its whole [16384,16] input staging buffer, sums each row, and stores the [16384,1] column of sums
  over its whole output staging buffer. The last block of either pallas_call overhangs its array: the fetch fills only
  the rows inside the array and the rest of the input buffer holds words nothing names. At the word level a float sum
  is an opaque function of its WHOLE operand, so what the body stores — even on the rows inside the array — is a
  function of those unnamed words too: no closed form over the launch memory describes the output buffer. The frame
  does not read it. So the proof data below state the input window exactly (the block just fetched, on the moved rows)
  and FORGET the output window: the body is handed the output buffer at arbitrary contents and gives it back at
  arbitrary contents, and what is proved of the body is that both whole-buffer accesses are in bounds, the input
  buffer is left as found and the output buffer is still owned whole.
-/
import proofs.«118521_j721554506107_2_alg».proof.Proof.Gen.Kernel
import proofs.«118521_j721554506107_2_alg».proof.Proof.Gen.Kernel.Skeleton
import proofs.«118521_j721554506107_2_alg».proof.Proof.Gen.Kernel.Launch
import proofs.«118521_j721554506107_2_alg».proof.Proof.Gen.Kernel.Points
import Idealize.ShloMosaic.Lib.Pipeline.FrameBody
import Idealize.ShloMosaic.Lib.Pipeline.Kit
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
/-- The row-sum body of pallas_call 0 on whole staging memrefs: the input buffer, at any contents `x0`, is only
    read and stays at `x0`; the output buffer, at any contents, is overwritten whole and ends at SOME contents
    (the stored value is a float reduction of all of `x0`, which this statement does not name). No access faults:
    both accesses are the whole buffers. -/
theorem rowsum0 (c : Dev nD) (E : Set ℕ) (i : grid0.Coords) (arg1 : Memref sig .tc .vmem S16384x16 .f32) (harg1 : arg1.IsWhole)
    (arg2 : Memref sig .tc .vmem S16384x1 .f32) (harg2 : arg2.IsWhole)
    (x0 : Vec F S16384x16 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ (∃ d, owns (c : Thread nD τ) arg2 fullShare d)) -∗ K ⟨⟩))
      ⊢ wp frame (wpE (defs₀ (F := F)) Variants.none c none) E (cc0__rowsum_kernel i arg1 harg1 arg2 harg2) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _, _; isplitr
  swap; · iexact H1
  ipureintro; rfl

set_option maxHeartbeats 1000000 in
/-- The row-sum body of pallas_call 1 on whole staging memrefs: the input buffer, at any contents `x0`, is only
    read and stays at `x0`; the output buffer, at any contents, is overwritten whole and ends at SOME contents
    (the stored value is a float reduction of all of `x0`, which this statement does not name). No access faults:
    both accesses are the whole buffers. -/
theorem rowsum1 (c : Dev nD) (E : Set ℕ) (i : grid1.Coords) (arg1 : Memref sig .tc .vmem S16384x16 .f32) (harg1 : arg1.IsWhole)
    (arg2 : Memref sig .tc .vmem S16384x1 .f32) (harg2 : arg2.IsWhole)
    (x0 : Vec F S16384x16 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ (∃ d, owns (c : Thread nD τ) arg2 fullShare d)) -∗ K ⟨⟩))
      ⊢ wp frame (wpE (defs₀ (F := F)) Variants.none c none) E (cc1__rowsum_kernel i arg1 harg1 arg2 harg2) K := by
  simp only [cc1__rowsum_kernel_eq_skeleton]; unfold cc1__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _, _; isplitr
  swap; · iexact H1
  ipureintro; rfl

/-- The windows this certificate FORGETS: the output (window 1) of either pallas_call. -/
def forgets : Fin 2 → Bool := fun w => w.val == 1

section Data
variable (V : (c : Dev nD) → (b : Ref sig .tc) → Buf (Elt F) ((c : Thread nD τ).loc b))

/-! ## Pallas_call 0: the proof data and the body obligation, at the entry contents `V` -/

/-- The proof data of pipeline 0 on core `c`, the arrays as the region finds them (`V`). The input window (0) is
    EXACT: its staging buffer after the body holds the block the fetch at that point read — the rows inside the array —
    filled out past the array's end with the zero word (the window is loose: only the moved rows are ever stated). The
    output window (1) is FORGOTTEN: the stored row sums are a float reduction over the WHOLE input buffer, the rows past
    the array's end included, so no closed form over the launch memory names them; nothing of the claim reads them.
    The invariant is the scoped rest and the generator register; nothing is owed; full shares. -/
def dat0 (c : Dev nD) : Dat τ (Elt F) Unit ℕ (UR sig nD τ) ℕ cfg0 c where
  A w := V c (Pipeline.arrRef spec0 w)
  after w t := match w with
    | ⟨0, _⟩ => win0_0.fill (grid0.coords t) (fun _ => Scalar.ofBits .f32 0#32)
        ((win0_0.blk t).view.read (Elt F) (V c (Pipeline.arrRef spec0 0)))
    | ⟨1, h⟩ => Pipeline.Dat.unnamed (cfg := cfg0) ⟨1, h⟩ t
  Φ _ := Pipeline.ΦA spec0 c
  q _ := fullShare
  owed _ := 0

theorem A_eq0 (c : Dev nD) (w : Fin cfg0.W) : (dat0 V c).A w = V c (Pipeline.arrRef spec0 w) := by
  dsimp only [dat0]

/-- The input block at point `t`: the rows of the array the fetch reads. -/
def iblk0 (c : Dev nD) (t : Fin cfg0.N) : (win0_0.xblock (grid0.coords t)).Idx → Elt F .f32 :=
  (win0_0.blk t).view.read (Elt F) (V c (Pipeline.arrRef spec0 0))

theorem after0_0 (c : Dev nD) (t : Fin cfg0.N) :
    (dat0 V c).after 0 t = win0_0.fill (grid0.coords t) (fun _ => Scalar.ofBits .f32 0#32) (iblk0 V c t) := by
  dsimp only [dat0, iblk0]

/-- What the body finds in the input buffer: just fetched (every point fetches), the block on the rows inside the
    array and `d` elsewhere. -/
theorem before0_0 (c : Dev nD) (t : Fin cfg0.N) (d) :
    (dat0 V c).before 0 t d = win0_0.fill (grid0.coords t) d (iblk0 V c t) := by
  unfold Dat.before; rw [if_pos (fetch0_0 t)]; rfl

/-- What the body is called with at point `t`: the input buffer just fetched, the output buffer at anything; -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ X, owns (c : Thread nD τ) (st0_1 t) fullShare X))

/-- and what it returns: the input buffer stated on the moved rows only, the output buffer at anything. -/
def bodyPost0 (c : Dev nD) (t : Fin cfg0.N) : sProp 𝕄 :=
  iprop((dat0 V c).Φ t.succ ∗ (dat0 V c).owesAt () t.succ
    ∗ (∃ d, owns (c : Thread nD τ) (st0_0 t) fullShare
        ((cfg0.win 0).fill (cfg0.grid.coords t) d ((cfg0.win 0).cut (cfg0.grid.coords t) ((dat0 V c).after 0 t))))
    ∗ (∃ X, owns (c : Thread nD τ) (st0_1 t) fullShare X))

/-- The body at any point `t` (never a case split on the point): the input buffer holds its block filled out with
    some `d` and leaves as it came; cut back to the moved rows that is the block, whatever the filler. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩⟩
  rw [before0_0 V c t d0]
  iapply (rowsum0 c Set.univ (grid0.coords t) _ _ _ _ (win0_0.fill (grid0.coords t) d0 (iblk0 V c t)) _)
  isplitl [H0]; · iexact H0
  isplitl [H1]; · iexists _; iexact H1
  iintro ⟨H0, H1⟩
  isplitl [HΦ]; · iexact HΦ
  isplitl [Ho]; · iexact Ho
  isplitl [H0]
  · iexists d0
    rw [after0_0 V c t]
    change _ ⊢ owns (c : Thread nD τ) (st0_0 t) fullShare
      (win0_0.fill (grid0.coords t) d0 (win0_0.cut (grid0.coords t)
        (win0_0.fill (grid0.coords t) (fun _ => Scalar.ofBits .f32 0#32) (iblk0 V c t))))
    rw [win0_0.cut_fill]; try iexact H0
  iexact H1

/-- The library's body obligation (loose windows, the output forgotten), at every point. -/
theorem body_obligation0 (c : Dev nD) :
    BodyObligationLoose (dat0 (F := F) V c) (defs₀ (F := F)) Variants.none () Set.univ forgets := fun t => by
  rw [bigSep_W0, bigSep_W0]
  exact sound_body0 V c t

/-! ## Pallas_call 1: the proof data and the body obligation, at the entry contents `V` -/

/-- The proof data of pipeline 1 on core `c`, the arrays as the region finds them (`V`). The input window (0) is
    EXACT: its staging buffer after the body holds the block the fetch at that point read — the rows inside the array —
    filled out past the array's end with the zero word (the window is loose: only the moved rows are ever stated). The
    output window (1) is FORGOTTEN: the stored row sums are a float reduction over the WHOLE input buffer, the rows past
    the array's end included, so no closed form over the launch memory names them; nothing of the claim reads them.
    The invariant is the scoped rest and the generator register; nothing is owed; full shares. -/
def dat1 (c : Dev nD) : Dat τ (Elt F) Unit ℕ (UR sig nD τ) ℕ cfg1 c where
  A w := V c (Pipeline.arrRef spec1 w)
  after w t := match w with
    | ⟨0, _⟩ => win1_0.fill (grid1.coords t) (fun _ => Scalar.ofBits .f32 0#32)
        ((win1_0.blk t).view.read (Elt F) (V c (Pipeline.arrRef spec1 0)))
    | ⟨1, h⟩ => Pipeline.Dat.unnamed (cfg := cfg1) ⟨1, h⟩ t
  Φ _ := Pipeline.ΦA spec1 c
  q _ := fullShare
  owed _ := 0

theorem A_eq1 (c : Dev nD) (w : Fin cfg1.W) : (dat1 V c).A w = V c (Pipeline.arrRef spec1 w) := by
  dsimp only [dat1]

/-- The input block at point `t`: the rows of the array the fetch reads. -/
def iblk1 (c : Dev nD) (t : Fin cfg1.N) : (win1_0.xblock (grid1.coords t)).Idx → Elt F .f32 :=
  (win1_0.blk t).view.read (Elt F) (V c (Pipeline.arrRef spec1 0))

theorem after1_0 (c : Dev nD) (t : Fin cfg1.N) :
    (dat1 V c).after 0 t = win1_0.fill (grid1.coords t) (fun _ => Scalar.ofBits .f32 0#32) (iblk1 V c t) := by
  dsimp only [dat1, iblk1]

/-- What the body finds in the input buffer: just fetched (every point fetches), the block on the rows inside the
    array and `d` elsewhere. -/
theorem before1_0 (c : Dev nD) (t : Fin cfg1.N) (d) :
    (dat1 V c).before 0 t d = win1_0.fill (grid1.coords t) d (iblk1 V c t) := by
  unfold Dat.before; rw [if_pos (fetch1_0 t)]; rfl

/-- What the body is called with at point `t`: the input buffer just fetched, the output buffer at anything; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ X, owns (c : Thread nD τ) (st1_1 t) fullShare X))

/-- and what it returns: the input buffer stated on the moved rows only, the output buffer at anything. -/
def bodyPost1 (c : Dev nD) (t : Fin cfg1.N) : sProp 𝕄 :=
  iprop((dat1 V c).Φ t.succ ∗ (dat1 V c).owesAt () t.succ
    ∗ (∃ d, owns (c : Thread nD τ) (st1_0 t) fullShare
        ((cfg1.win 0).fill (cfg1.grid.coords t) d ((cfg1.win 0).cut (cfg1.grid.coords t) ((dat1 V c).after 0 t))))
    ∗ (∃ X, owns (c : Thread nD τ) (st1_1 t) fullShare X))

/-- The body at any point `t` (never a case split on the point): the input buffer holds its block filled out with
    some `d` and leaves as it came; cut back to the moved rows that is the block, whatever the filler. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩⟩
  rw [before1_0 V c t d0]
  iapply (rowsum1 c Set.univ (grid1.coords t) _ _ _ _ (win1_0.fill (grid1.coords t) d0 (iblk1 V c t)) _)
  isplitl [H0]; · iexact H0
  isplitl [H1]; · iexists _; iexact H1
  iintro ⟨H0, H1⟩
  isplitl [HΦ]; · iexact HΦ
  isplitl [Ho]; · iexact Ho
  isplitl [H0]
  · iexists d0
    rw [after1_0 V c t]
    change _ ⊢ owns (c : Thread nD τ) (st1_0 t) fullShare
      (win1_0.fill (grid1.coords t) d0 (win1_0.cut (grid1.coords t)
        (win1_0.fill (grid1.coords t) (fun _ => Scalar.ofBits .f32 0#32) (iblk1 V c t))))
    rw [win1_0.cut_fill]; try iexact H0
  iexact H1

/-- The library's body obligation (loose windows, the output forgotten), at every point. -/
theorem body_obligation1 (c : Dev nD) :
    BodyObligationLoose (dat1 (F := F) V c) (defs₀ (F := F)) Variants.none () Set.univ forgets := fun t => by
  rw [bigSep_W1, bigSep_W1]
  exact sound_body1 V c t

end Data

end Cert.Kernel.Hand

end
-- ==== Proof.BitsRun.lean ====
/-
  The frame of the word-level program: every weakly fair execution of @main terminates without a fault and leaves the
  three argument arrays as launched.

  @main is eight items: four host stretches, the first row-sum region (over the second argument, into `main_v69`), a
  host stretch of two reshapes (of `main_v69` into `main_v70`, of the third argument into `main_v71`), the second
  row-sum region (over `main_v71`, into `main_v72`), and a last host stretch.

  The regions are certified at relational proof data with their output windows forgotten (the stored row sums are an
  opaque function of a staging buffer part of whose words nothing names): a region's exit gives its result array at
  SOME contents. So from the first region's exit on, the thread state between two items is existential: for some
  contents `outs` of the results, every unscoped buffer is held at the valuation the items so far make of the launch
  memory and `outs`. A host stretch entered from such a state runs at whichever `outs` it is handed. The second
  region's proof data must name its arrays' entry contents BEFORE the run; they can, because neither array depends on
  `outs`: its input `main_v71` is a reshape of the third argument and its output `main_v72` is written by nothing
  before it (`V6_v71`, `V6_v72`). At the end each argument is read back through every item to its launch contents,
  for any `outs`: no host stretch writes an argument, a region writes only its own result.
-/
import proofs.«118521_j721554506107_2_alg».proof.Proof.BitsBody
import proofs.«118521_j721554506107_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the second region's arrays hold at its entry does not depend on what the first region left

Between the regions the host reshapes the first region's result (into `main_v70`) and reshapes the third argument
(into `main_v71`, the second region's input array); the second region's output array `main_v72` is written by nothing
before it. So both arrays of the second region are, at its entry, functions of the launch memory alone. -/

/-- The reshape of the third argument reads the third argument only. -/
theorem after_hostOps1_v71 (W W' : Valuation τ sig (Elt F))
    (h : W (Proc.devRef .tc main_arg2) = W' (Proc.devRef .tc main_arg2)) :
    StableHlo.after (hostOps1 (F := F)) W (Proc.devRef .tc main_v71) = StableHlo.after (hostOps1 (F := F)) W' (Proc.devRef .tc main_v71) := by
  simp only [hostOps1, StableHlo.after_cons, StableHlo.after_nil]
  rw [StableHlo.reshape_result, StableHlo.reshape_result]
  rw [HloOp.result_of_not_mem _ W (b := Proc.devRef .tc main_arg2) (by rw [StableHlo.reshape_writes, Finset.mem_singleton]; exact StableHlo.devRef_ne_of_ne (by decide)),
    HloOp.result_of_not_mem _ W' (b := Proc.devRef .tc main_arg2) (by rw [StableHlo.reshape_writes, Finset.mem_singleton]; exact StableHlo.devRef_ne_of_ne (by decide)), h]

theorem V6_v71 (c : Dev nD) (outs outs' : Outs (F := F)) : V6 m outs c main_v71 = V6 m outs' c main_v71 :=
  after_hostOps1_v71 _ _ ((V5_of m outs c main_arg2 (by decide)).trans (V5_of m outs' c main_arg2 (by decide)).symm)

theorem V6_v72 (c : Dev nD) (outs outs' : Outs (F := F)) : V6 m outs c main_v72 = V6 m outs' c main_v72 :=
  (V6_of m outs c main_v72 (by decide)).trans <| (V5_of m outs c main_v72 (by decide)).trans <|
    (V5_of m outs' c main_v72 (by decide)).symm.trans (V6_of m outs' c main_v72 (by decide)).symm

/-! ## The proof data family and the thread states -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ => R

/-- The first region's entry contents: the launch memory after the four host stretches before it. -/
abbrev VA : (c : Dev nD) → (b : Ref sig .tc) → Buf (Elt F) ((c : Thread nD τ).loc b) := fun c b => V4 m c b
/-- Some contents for the regions' results, to NAME the second region's entry contents by (they do not depend on
    the choice at the second region's arrays: `V6_v71`, `V6_v72`). -/
def outs₀ : Outs (F := F) := fun _ r c => m ((c : Thread nD τ).loc r)
/-- The second region's entry contents, at its arrays. -/
abbrev VB : (c : Dev nD) → (b : Ref sig .tc) → Buf (Elt F) ((c : Thread nD τ).loc b) := fun c b => V6 m (outs₀ m) c b

/-- Every pipeline's exact proof data, each at its region's entry contents (a literal match on the pipeline). -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c

/-- The same read relationally, each output window forgotten: what the regions are certified at. -/
def rdats : (p : Fin 2) → (c : Dev nD) → RDat τ (Elt F) Unit ℕ (UR sig nD τ) ℕ (Pipeline.pin (pcfgs (F := F)) adm p) c
  | ⟨0, _⟩ => fun c => (dat0 (VA m) c).toRForget forgets
  | ⟨1, _⟩ => fun c => (dat1 (VB m) c).toRForget forgets

/-- Results' contents with `main_v69` at `o` (read at item 5 only). -/
def outsA (c : Dev nD) (o : Buf (Elt F) ((c : Thread nD τ).loc main_v69)) : Outs (F := F) :=
  fun _ r _ => Function.update (V4 m c) (Proc.devRef .tc main_v69) o (Proc.devRef .tc r)

/-- Results' contents as `outs` but with `main_v72` at `o` at item 7. -/
def outsB (outs : Outs (F := F)) (c : Dev nD) (o : Buf (Elt F) ((c : Thread nD τ).loc main_v72)) : Outs (F := F) :=
  fun j r c' => if j = 7 then Function.update (V0 m c) (Proc.devRef .tc main_v72) o (Proc.devRef .tc r) else outs j r c'

theorem V5_outsA (c : Dev nD) (o : Buf (Elt F) ((c : Thread nD τ).loc main_v69)) :
    V5 m (outsA m c o) c = Function.update (V4 m c) (Proc.devRef .tc main_v69) o := by
  show Function.update (V4 m c) (Proc.devRef .tc main_v69) (Function.update (V4 m c) (Proc.devRef .tc main_v69) o (Proc.devRef .tc main_v69)) = _
  rw [Function.update_self]

theorem V7_outsB (outs : Outs (F := F)) (c : Dev nD) (o : Buf (Elt F) ((c : Thread nD τ).loc main_v72)) :
    V7 m (outsB m outs c o) c = Function.update (V6 m outs c) (Proc.devRef .tc main_v72) o := by
  show Function.update (V6 m (outsB m outs c o) c) (Proc.devRef .tc main_v72) (Function.update (V0 m c) (Proc.devRef .tc main_v72) o (Proc.devRef .tc main_v72)) = _
  rw [Function.update_self]
  rfl

/-! ## The host stretches after a region, entered at contents nobody names -/

/-- Item 5, the host stretch `hostOps1`, entered with `main_v69` at SOME contents: the stretch's specification at those
    contents, whatever they are. -/
def seg5x : Pipeline.HostSeg (Name := ℕ) (U := UR sig nD τ) (pcfgs (F := F)) defs₀ 𝒱₀ L lv where
  prog := StableHlo.seq hostOps1
  pre c := iprop(∃ outs : Outs (F := F), StableHlo.held (c : Thread nD τ) (Pipeline.ucRefs τ sig) (V5 m outs c) ∗ R c)
  post c := iprop(∃ outs : Outs (F := F), StableHlo.held (c : Thread nD τ) (Pipeline.ucRefs τ sig) (V6 m outs c) ∗ R c)
  run c {β} k K := by
    iintro ⟨Hk, Hbd, ⟨%outs, Hpre⟩, Hla⟩
    have hrun := (seg5 m outs 𝒱₀ L lv (E (F := F))).run c k K
    have hpre : (iprop(StableHlo.held (c : Thread nD τ) (Pipeline.ucRefs τ sig) (V5 m outs c) ∗ R c) : sProp 𝕄)
        ⊢ (seg5 m outs 𝒱₀ L lv (E (F := F))).pre c := .rfl
    have hpost : (seg5 m outs 𝒱₀ L lv (E (F := F))).post c
        ⊢ (iprop(StableHlo.held (c : Thread nD τ) (Pipeline.ucRefs τ sig) (V6 m outs c) ∗ R c) : sProp 𝕄) := .rfl
    iapply hrun
    isplitl [Hk]
    · iintro ⟨Hbd, Hpost⟩; iapply Hk
      isplitl [Hbd]; · iexact Hbd
      iexists outs; iapply hpost; iexact Hpost
    isplitl [Hbd]; · iexact Hbd
    isplitl [Hpre]; · iapply hpre; iexact Hpre
    iexact Hla

/-- Item 7, the host stretch `hostOps2`, likewise entered with `main_v69` and `main_v72` at some contents. -/
def seg7x : Pipeline.HostSeg (Name := ℕ) (U := UR sig nD τ) (pcfgs (F := F)) defs₀ 𝒱₀ L lv where
  prog := StableHlo.seq hostOps2
  pre c := iprop(∃ outs : Outs (F := F), StableHlo.held (c : Thread nD τ) (Pipeline.ucRefs τ sig) (V7 m outs c) ∗ R c)
  post c := iprop(∃ outs : Outs (F := F), StableHlo.held (c : Thread nD τ) (Pipeline.ucRefs τ sig) (V8 m outs c) ∗ R c)
  run c {β} k K := by
    iintro ⟨Hk, Hbd, ⟨%outs, Hpre⟩, Hla⟩
    have hrun := (seg7 m outs 𝒱₀ L lv (E (F := F))).run c k K
    have hpre : (iprop(StableHlo.held (c : Thread nD τ) (Pipeline.ucRefs τ sig) (V7 m outs c) ∗ R c) : sProp 𝕄)
        ⊢ (seg7 m outs 𝒱₀ L lv (E (F := F))).pre c := .rfl
    have hpost : (seg7 m outs 𝒱₀ L lv (E (F := F))).post c
        ⊢ (iprop(StableHlo.held (c : Thread nD τ) (Pipeline.ucRefs τ sig) (V8 m outs c) ∗ R c) : sProp 𝕄) := .rfl
    iapply hrun
    isplitl [Hk]
    · iintro ⟨Hbd, Hpost⟩; iapply Hk
      isplitl [Hbd]; · iexact Hbd
      iexists outs; iapply hpost; iexact Hpost
    isplitl [Hbd]; · iexact Hbd
    isplitl [Hpre]; · iapply hpre; iexact Hpre
    iexact Hla

/-! ## The regions as segments -/

theorem arrRef0_0 : (Pipeline.arrRef spec0 0 : Ref sig .tc) = main_arg1 := rfl
theorem arrRef0_1 : (Pipeline.arrRef spec0 1 : Ref sig .tc) = main_v69 := rfl
theorem arrRef1_0 : (Pipeline.arrRef spec1 0 : Ref sig .tc) = main_v71 := rfl
theorem arrRef1_1 : (Pipeline.arrRef spec1 1 : Ref sig .tc) = main_v72 := rfl

theorem V5_outsA_in (c : Dev nD) (o : Buf (Elt F) ((c : Thread nD τ).loc main_v69)) :
    V5 m (outsA m c o) c main_arg1 = V4 m c main_arg1 := V5_of m (outsA m c o) c main_arg1 (by decide)
theorem V5_outsA_out (c : Dev nD) (o : Buf (Elt F) ((c : Thread nD τ).loc main_v69)) :
    V5 m (outsA m c o) c main_v69 = o := by
  rw [V5_outsA]; exact Function.update_self _ _ _

/-- At the first region's exit: its arrays — the input as entered, the result at contents `o` — and the rest of the
    unscoped buffers as entered are the unscoped buffers at the entry contents updated at the result. -/
theorem exit_join0 (c : Dev nD) (o : Buf (Elt F) ((c : Thread nD τ).loc main_v69)) :
    iprop((pdats m 0 c).arrays (fun w => V5 m (outsA m c o) c (Pipeline.arrRef spec0 w))
        ∗ Pipeline.unscopedRest (Ix := Unit) (Name := ℕ) (U := UR sig nD τ) (Lvl := ℕ) spec0 c (VA m c))
      ⊢ (StableHlo.held (c : Thread nD τ) (Pipeline.ucRefs τ sig) (V5 m (outsA m c o) c) : sProp 𝕄) := by
  have hjoin := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (VA m c) (fun b => V5 m (outsA m c o) c b) (fun w => V5 m (outsA m c o) c (Pipeline.arrRef spec0 w)) (fun _ => rfl)
    (fun b hb => V5_of m (outsA m c o) c b fun h => hb (by
      rw [List.mem_singleton] at h; subst h
      exact Finset.mem_image.mpr ⟨1, Finset.mem_univ _, rfl⟩))
  rw [Pipeline.unscopedBufs_held] at hjoin
  exact hjoin

/-- The input array of pallas_call 0 after the write-backs below any point holds what it held at entry: the pipeline
    never writes an input array. (Stated at a variable point count, so that nothing unfolds the write-backs' recursion.) -/
theorem in_arr0 (c : Dev nD) (n : ℕ) (F0 : Buf (Elt F) ((cfg0.win 0).arr.view.loc (c : Thread nD τ)))
    (h0 : (rdats m 0 c).ArrAt 0 n F0) : F0 = VA m c (Pipeline.arrRef spec0 0) := by
  have hrd : rdats m 0 c = (dat0 (VA m) c).toRForget forgets := rfl
  rw [hrd] at h0
  exact (((dat0 (VA m) c).toRForget_arrAt_iff (fgt := forgets) (w := 0) rfl n F0).mp h0).trans
    (((dat0 (VA m) c).arrAt_in 0 rfl n).trans (A_eq0 (VA m) c 0))

set_option backward.isDefEq.respectTransparency.types false in
/-- EXIT of pallas_call 0, the arrays' part, after the write-backs below ANY point `n`: the input array can only hold
    what it held at entry, the result array holds some contents `F1`; with the rest of the unscoped buffers as entered
    they are every unscoped buffer at the entry contents updated at the result by `F1`. -/
theorem exit_arrays0 (c : Dev nD) (n : ℕ) :
    iprop((rdats m 0 c).arraysAt n
        ∗ Pipeline.unscopedRest (Ix := Unit) (Name := ℕ) (U := UR sig nD τ) (Lvl := ℕ) spec0 c (VA m c))
      ⊢ (iprop(∃ outs : Outs (F := F), StableHlo.held (c : Thread nD τ) (Pipeline.ucRefs τ sig) (V5 m outs c)) : sProp 𝕄) := by
  unfold Pipeline.RDat.arraysAt
  rw [bigSep_W0]
  iintro ⟨⟨⟨%F0, %h0, Ha0⟩, ⟨%F1, %h1, Ha1⟩⟩, Hrest⟩
  have e0 : F0 = VA m c (Pipeline.arrRef spec0 0) := in_arr0 m c n F0 h0
  iexists outsA m c F1
  iapply (exit_join0 m c F1)
  isplitl [Ha0 Ha1]
  · unfold Dat.arrays
    rw [bigSep_W0]
    beta_reduce
    rw [show V5 m (outsA m c F1) c (Pipeline.arrRef spec0 0) = VA m c (Pipeline.arrRef spec0 0) from V5_outsA_in m c F1,
      show V5 m (outsA m c F1) c (Pipeline.arrRef spec0 1) = F1 from V5_outsA_out m c F1, ← e0]
    isplitl [Ha0]
    · iexact Ha0
    · iexact Ha1
  iexact Hrest

set_option backward.isDefEq.respectTransparency.types false in
/-- REGION 0 (pallas_call 0): entered from every unscoped buffer at the contents after the four host stretches, left
    with the input array as entered, the result `main_v69` at SOME contents (the output window is forgotten), every
    other unscoped buffer as entered. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).toRForget
  hwaits := Pipeline.RDat.hwaits_of_owed_zero _ _ _ _ L lv 0 fun _ _ => rfl
  pre c := iprop(StableHlo.held (c : Thread nD τ) (Pipeline.ucRefs τ sig) (V4 m c) ∗ R c)
  post c := iprop(∃ outs : Outs (F := F), StableHlo.held (c : Thread nD τ) (Pipeline.ucRefs τ sig) (V5 m outs c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    have hx := exit_arrays0 m c (Pipeline.pin (pcfgs (F := F)) adm 0).N
    ihave H := hx $$ [Ha Hrest]
    · isplitl [Ha] <;> iassumption
    icases H with ⟨%outs, Hh⟩
    iexists outs
    isplitl [Hh]; · iexact Hh
    isplitl [HY]; · iexact HY
    unfold Pipeline.RDat.owesAt Pipeline.owesWithin
    icases HO with ⟨%W, -, HO⟩; iexists W; iexact HO

theorem V6_outsB (outs : Outs (F := F)) (c : Dev nD) (o : Buf (Elt F) ((c : Thread nD τ).loc main_v72)) :
    V6 m (outsB m outs c o) c = V6 m outs c := rfl

theorem V7_outsB_in (outs : Outs (F := F)) (c : Dev nD) (o : Buf (Elt F) ((c : Thread nD τ).loc main_v72)) :
    V7 m (outsB m outs c o) c main_v71 = VB m c main_v71 :=
  (V7_of m (outsB m outs c o) c main_v71 (by decide)).trans
    ((congrFun (V6_outsB m outs c o) (Proc.devRef .tc main_v71)).trans (V6_v71 m c outs (outs₀ m)))
theorem V7_outsB_out (outs : Outs (F := F)) (c : Dev nD) (o : Buf (Elt F) ((c : Thread nD τ).loc main_v72)) :
    V7 m (outsB m outs c o) c main_v72 = o := by
  rw [V7_outsB]; exact Function.update_self _ _ _

/-- At the second region's exit: its arrays — the input as entered, the result at contents `o` — and the rest of the
    unscoped buffers as entered are the unscoped buffers at the entry contents updated at the result. -/
theorem exit_join1 (c : Dev nD) (outs : Outs (F := F)) (o : Buf (Elt F) ((c : Thread nD τ).loc main_v72)) :
    iprop((pdats m 1 c).arrays (fun w => V7 m (outsB m outs c o) c (Pipeline.arrRef spec1 w))
        ∗ Pipeline.unscopedRest (Ix := Unit) (Name := ℕ) (U := UR sig nD τ) (Lvl := ℕ) spec1 c (fun b => V6 m outs c b))
      ⊢ (StableHlo.held (c : Thread nD τ) (Pipeline.ucRefs τ sig) (V7 m (outsB m outs c o) c) : sProp 𝕄) := by
  have hjoin := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (fun b => V6 m outs c b) (fun b => V7 m (outsB m outs c o) c b) (fun w => V7 m (outsB m outs c o) c (Pipeline.arrRef spec1 w)) (fun _ => rfl)
    (fun b hb => (V7_of m (outsB m outs c o) c b fun h => hb (by
      rw [List.mem_singleton] at h; subst h
      exact Finset.mem_image.mpr ⟨1, Finset.mem_univ _, rfl⟩)).trans (congrFun (V6_outsB m outs c o) (Proc.devRef .tc b)))
  rw [Pipeline.unscopedBufs_held] at hjoin
  exact hjoin

/-- The second region's arrays at its entry, whatever the first region left: the proof data's entry contents. -/
theorem entry_A1 (c : Dev nD) (outs : Outs (F := F)) :
    ∀ w, (rdats m 1 c).A w = V6 m outs c (Pipeline.arrRef (Pipeline.pin (pcfgs (F := F)) adm 1).spec w) :=
  Fin.forall_fin_two.mpr ⟨V6_v71 m c (outs₀ m) outs, V6_v72 m c (outs₀ m) outs⟩

/-- The input array of pallas_call 1 after the write-backs below any point holds what it held at entry: the pipeline
    never writes an input array. (Stated at a variable point count, so that nothing unfolds the write-backs' recursion.) -/
theorem in_arr1 (c : Dev nD) (n : ℕ) (F0 : Buf (Elt F) ((cfg1.win 0).arr.view.loc (c : Thread nD τ)))
    (h0 : (rdats m 1 c).ArrAt 0 n F0) : F0 = VB m c (Pipeline.arrRef spec1 0) := by
  have hrd : rdats m 1 c = (dat1 (VB m) c).toRForget forgets := rfl
  rw [hrd] at h0
  exact (((dat1 (VB m) c).toRForget_arrAt_iff (fgt := forgets) (w := 0) rfl n F0).mp h0).trans
    (((dat1 (VB m) c).arrAt_in 0 rfl n).trans (A_eq1 (VB m) c 0))

set_option backward.isDefEq.respectTransparency.types false in
/-- EXIT of pallas_call 1, the arrays' part, after the write-backs below ANY point `n`: the input array can only hold
    what it held at entry, the result array holds some contents `F1`; with the rest of the unscoped buffers as entered
    they are every unscoped buffer at the entry contents updated at the result by `F1`. -/
theorem exit_arrays1 (c : Dev nD) (n : ℕ) :
    iprop((rdats m 1 c).arraysAt n
        ∗ (∃ outs : Outs (F := F), Pipeline.unscopedRest (Ix := Unit) (Name := ℕ) (U := UR sig nD τ) (Lvl := ℕ) spec1 c (fun b => V6 m outs c b)))
      ⊢ (iprop(∃ outs : Outs (F := F), StableHlo.held (c : Thread nD τ) (Pipeline.ucRefs τ sig) (V7 m outs c)) : sProp 𝕄) := by
  unfold Pipeline.RDat.arraysAt
  rw [bigSep_W1]
  iintro ⟨⟨⟨%F0, %h0, Ha0⟩, ⟨%F1, %h1, Ha1⟩⟩, ⟨%outs, Hrest⟩⟩
  have e0 : F0 = VB m c (Pipeline.arrRef spec1 0) := in_arr1 m c n F0 h0
  iexists outsB m outs c F1
  iapply (exit_join1 m c outs F1)
  isplitl [Ha0 Ha1]
  · unfold Dat.arrays
    rw [bigSep_W1]
    beta_reduce
    rw [show V7 m (outsB m outs c F1) c (Pipeline.arrRef spec1 0) = VB m c (Pipeline.arrRef spec1 0) from V7_outsB_in m outs c F1,
      show V7 m (outsB m outs c F1) c (Pipeline.arrRef spec1 1) = F1 from V7_outsB_out m outs c F1, ← e0]
    isplitl [Ha0]
    · iexact Ha0
    · iexact Ha1
  iexact Hrest

set_option backward.isDefEq.respectTransparency.types false in
/-- REGION 1 (pallas_call 1): entered from every unscoped buffer at the contents after the host stretch between the
    regions, WHATEVER the first region left in its result; left with the input array `main_v71` as entered, the result
    `main_v72` at some contents, every other unscoped buffer as entered. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).toRForget
  hwaits := Pipeline.RDat.hwaits_of_owed_zero _ _ _ _ L lv 1 fun _ _ => rfl
  pre c := iprop(∃ outs : Outs (F := F), StableHlo.held (c : Thread nD τ) (Pipeline.ucRefs τ sig) (V6 m outs c) ∗ R c)
  post c := iprop(∃ outs : Outs (F := F), StableHlo.held (c : Thread nD τ) (Pipeline.ucRefs τ sig) (V7 m outs c) ∗ R c)
  X c := iprop(∃ r, prngReg c r)
  Y c := iprop(∃ r, prngReg c r)
  Z c := iprop(∃ outs : Outs (F := F), Pipeline.unscopedRest (Ix := Unit) (Name := ℕ) (U := UR sig nD τ) (Lvl := ℕ) spec1 c (fun b => V6 m outs c b))
  hentry c := by
    rw [Pipeline.ownSems0_none]
    iintro ⟨⟨%outs, Hub, Hp, HO⟩, -, -⟩
    have hsplit := Pipeline.RDat.arrays_of_unscopedBufs (p := 1) (pcfgs (F := F)) adm (rdats m) launch1.win launch1.arr_whole c
      ((rdats m 1 c).share_full fun _ => rfl) (fun b => V6 m outs c b) (entry_A1 m c outs)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists outs; iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    have hx := exit_arrays1 m c (Pipeline.pin (pcfgs (F := F)) adm 1).N
    ihave H := hx $$ [Ha Hrest]
    · isplitl [Ha] <;> iassumption
    icases H with ⟨%outs, Hh⟩
    iexists outs
    isplitl [Hh]; · iexact Hh
    isplitl [HY]; · iexact HY
    unfold Pipeline.RDat.owesAt Pipeline.owesWithin
    icases HO with ⟨%W, -, HO⟩; iexists W; iexact HO

/-! ## @main as segments, and the launch -/

/-- @main's eight items in order: the four host stretches before the first region, the first region, the stretch
    between the regions, the second region, the last stretch. -/
abbrev segs : List (Pipeline.RDat.Seg (pcfgs (F := F)) adm (rdats m) () defs₀ 𝒱₀ L lv) :=
  [ .host (seg0 m 𝒱₀ L lv (E (F := F))), .host (seg1 m 𝒱₀ L lv (E (F := F))), .host (seg2 m 𝒱₀ L lv (E (F := F))),
    .host (seg3 m 𝒱₀ L lv (E (F := F))), .region (reg0 m), .host (seg5x m), .region (reg1 m), .host (seg7x m) ]

/-- The last thread state without the `owes`: every unscoped buffer at the last valuation, for SOME contents the two
    regions left in their results, and the generator register at some state. -/
abbrev Tₙ (c : Dev nD) : sProp 𝕄 :=
  iprop(∃ outs : Outs (F := F), StableHlo.held (c : Thread nD τ) (Pipeline.ucRefs τ sig) (V8 m outs c) ∗ ∃ r, prngReg c r)

theorem last_state (c : Dev nD) :
    (seg7x m).post c ⊢ (iprop(Tₙ m c ∗ ∃ W, owes (c : Thread nD τ) (0 : CellTallies nD τ sig Unit) W) : sProp 𝕄) := by
  show (iprop(∃ outs : Outs (F := F), StableHlo.held (c : Thread nD τ) (Pipeline.ucRefs τ sig) (V8 m outs c) ∗ R c) : sProp 𝕄) ⊢ _
  iintro ⟨%outs, Hh, Hp, HO⟩
  isplitl [Hh Hp]
  · iexists outs
    isplitl [Hh]; · iexact Hh
    iexact Hp
  iexact HO

set_option backward.isDefEq.respectTransparency.types false in
/-- THE FRAME of the word-level program, at any float instance: from any memory with zero counters every weakly fair
    execution of @main on the TensorCores terminates, nothing faulting, and every final state has the three argument
    arrays as launched. No host stretch writes an argument; a region reads an argument (or a reshape of one) through
    an input window, which the pipeline never writes, and writes only its own result array, whose contents the frame
    never names. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun c => last_state m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      iintro ⟨⟨%outs, Hh, -⟩, HSI⟩
      unfold StableHlo.held
      ihave Hr := (pointsTo_read_all (Pipeline.ucRefs τ sig) (fun b => ((c : Thread nD τ).1, b)) (V8 m outs c) s') $$ [Hh HSI]
      · isplitl [Hh] <;> iassumption
      icases Hr with ⟨%h, HSI⟩
      imodintro
      isplitr
      · ipureintro
        exact ⟨(h (Proc.devRef .tc main_arg0) (Finset.mem_filter.mpr ⟨StableHlo.devRef_mem_tcRefs main_arg0, by decide⟩)).trans (V8_main_arg0 m outs c),
          (h (Proc.devRef .tc main_arg1) (Finset.mem_filter.mpr ⟨StableHlo.devRef_mem_tcRefs main_arg1, by decide⟩)).trans (V8_main_arg1 m outs c),
          (h (Proc.devRef .tc main_arg2) (Finset.mem_filter.mpr ⟨StableHlo.devRef_mem_tcRefs main_arg2, by decide⟩)).trans (V8_main_arg2 m outs c)⟩
      · iexact HSI)
    (hQ := fun _ h => h)

end Cert.Kernel.Hand

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.RowSums.lean ====
/-
  The two row-sum kernels' stored value read at an index.  Each kernel body reads a block X of 16384 rows of 16
  entries and stores the column whose entry (r, 0) is the sum of row r of X over the extended reals; the zero
  accumulator of the reduction contributes nothing.  In particular entry (r, 0) depends on row r of X only.
-/
import proofs.«118521_j721554506107_2_alg».proof.Proof.Gen.KernelIdeal.Skeleton
import proofs.«118521_j721554506107_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-- The sum over axis 1 of a [16384, 16] block, kept as a column: entry (r, 0) is the sum of row r. -/
theorem rowsum_col_apply (X : FVec Ideal S16384x16 .f32) (hφ : FKind.Formats .f32)
    (hacc : (0x00000000#32 : BitVec 32) = FKind.add.neutral .f32 hφ) (r : Fin 16384) :
    shapeCast S16384x1
        (multiReduction .add [1] S16384 X 0x00000000#32 reduces_S16384x16_S16384 hφ hacc)
        shapeCasts_S16384_S16384x1 (ix2 r (0 : Fin 1))
      = ∑ f : Fin 16, X (ix2 r f) :=
  (Cert.LibKeepdims.shapeCast_col_apply _ shapeCasts_S16384_S16384x1 r).trans
    (Cert.LibKeepdims.rowsum_apply X 0x00000000#32 reduces_S16384x16_S16384 hφ hacc r)

/-- The first kernel's stored column at (r, 0): the sum of row r of the block it read. -/
theorem k0_pay1_apply (X : Vec Ideal S16384x16 .f32) (r : Fin 16384) :
    k0_pay1 (F := Ideal) X (ix2 r (0 : Fin 1)) = ∑ f : Fin 16, X (ix2 r f) := by
  unfold k0_pay1
  exact rowsum_col_apply X (.inl rfl) rfl r

/-- The second kernel's stored column at (r, 0): the same row sum (its extra cast is the identity). -/
theorem k1_pay1_apply (X : Vec Ideal S16384x16 .f32) (r : Fin 16384) :
    k1_pay1 (F := Ideal) X (ix2 r (0 : Fin 1)) = ∑ f : Fin 16, X (ix2 r f) := by
  unfold k1_pay1
  rw [shapeCast_self]
  exact rowsum_col_apply X (.inl rfl) rfl r

/-- Entry (r, 0) of the first kernel's stored column depends on row r of the block only. -/
theorem k0_pay1_congr_rows (X Y : Vec Ideal S16384x16 .f32) (r : Fin 16384)
    (h : ∀ f : Fin 16, X (ix2 r f) = Y (ix2 r f)) :
    k0_pay1 (F := Ideal) X (ix2 r (0 : Fin 1)) = k0_pay1 (F := Ideal) Y (ix2 r (0 : Fin 1)) := by
  rw [k0_pay1_apply, k0_pay1_apply]
  exact Finset.sum_congr rfl fun f _ => h f

/-- Entry (r, 0) of the second kernel's stored column depends on row r of the block only. -/
theorem k1_pay1_congr_rows (X Y : Vec Ideal S16384x16 .f32) (r : Fin 16384)
    (h : ∀ f : Fin 16, X (ix2 r f) = Y (ix2 r f)) :
    k1_pay1 (F := Ideal) X (ix2 r (0 : Fin 1)) = k1_pay1 (F := Ideal) Y (ix2 r (0 : Fin 1)) := by
  rw [k1_pay1_apply, k1_pay1_apply]
  exact Finset.sum_congr rfl fun f _ => h f

end Cert.KernelIdeal.Hand

end
-- ==== Proof.IdealBody.lean ====
/-
  The two row-sum calls of the kernel's program, each as a pipeline body over the extended reals.

  Each call walks a table of 16-wide rows in blocks of 16384 rows and stores, for every row of the block, the sum
  of its 16 entries.  The last block of each table overhangs the table's end: its fetch fills only the rows inside
  the table (the rest of the staging buffer holds words nothing names), and its write-back moves only those rows.
  Over the extended reals a row's sum reads that row only, so on the rows the write-back moves the body's result
  does not depend on what fills the input buffer past the table's end.  The proof data therefore name the input
  buffer after the body as the fetched block filled out with the zero word, and the output buffer as the row sums
  of that; the body obligation states both on the moved rows only.
-/
import proofs.«118521_j721554506107_2_alg».proof.Proof.Gen.KernelIdeal
import proofs.«118521_j721554506107_2_alg».proof.Proof.Gen.KernelIdeal.Skeleton
import proofs.«118521_j721554506107_2_alg».proof.Proof.Gen.KernelIdeal.Launch
import proofs.«118521_j721554506107_2_alg».proof.Proof.Gen.KernelIdeal.Points
import proofs.«118521_j721554506107_2_alg».proof.Proof.RowSums
import Idealize.ShloMosaic.Lib.Pipeline.FrameBody
import Idealize.ShloMosaic.Lib.Pipeline.Kit
import Idealize.ShloMosaic.Lib.ValueIdx
import Idealize.ShloMosaic.Lib.Tactic

-- membership in a rectangle of 16384 rows recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

/-- The two zero offsets of a whole-buffer access, as the constant function. -/
theorem zeros2 : (![0, 0] : Fin 2 → Nat) = fun _ => 0 := funext fun a => by fin_cases a <;> rfl

/-- Two fillings of the same block agree wherever the transfer moves. -/
theorem fill_agree {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

-- the buffer contents of a core when a call is entered: what each call's half is stated at
variable (V : (c : Dev nD) → (b : Ref sig .tc) → Buf (Elt Ideal) ((c : Thread nD τ).loc b))

/-! # The first call: the row sums of the dense table, 51 blocks -/

/-- Window `w`'s block at point `t`, its part inside the array, read off the array as the call finds it. -/
def iblk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

/-- The input block at point `t` filled out to the whole staging buffer with the zero word past the array's end. -/
def fetched0 (c : Dev nD) (t : Fin cfg0.N) : S16384x16.Idx → Elt Ideal .f32 :=
  win0_0.fill (grid0.coords t) (fun _ => Scalar.ofBits (F := Ideal) .f32 0#32) (iblk0 V c 0 t)

/-- The proof data: the arrays as the call finds them; after the body at point `t` the input buffer at the fetched
    block (zero past the array's end) and the output buffer at its row sums; nothing owed; full shares. -/
def dat0 (c : Dev nD) : Dat τ (Elt Ideal) Unit ℕ (UR sig nD τ) ℕ cfg0 c where
  A w := V c (Pipeline.arrRef spec0 w)
  after w t := match w with
    | ⟨0, _⟩ => fetched0 V c t
    | ⟨1, _⟩ => k0_pay1 (F := Ideal) (fetched0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = fetched0 V c t := by dsimp only [dat0]
theorem after0_1 (c : Dev nD) (t : Fin cfg0.N) : (dat0 V c).after 1 t = k0_pay1 (F := Ideal) (fetched0 V c t) := by dsimp only [dat0]

/-- The input buffer as the body finds it: just fetched, the block on the rows inside the array, `d` elsewhere. -/
theorem before0_0 (c : Dev nD) (t : Fin cfg0.N) (d) :
    (dat0 V c).before 0 t d = win0_0.fill (grid0.coords t) d (iblk0 V c 0 t) := by
  unfold Dat.before; rw [if_pos (fetch0_0 t)]
  unfold Dat.fetched Dat.blockOf iblk0; rw [A_eq0]

/-- The output buffer as the body finds it: never fetched, and written back at the point before, so at contents
    nothing names. -/
theorem before0_1 (c : Dev nD) (t : Fin cfg0.N) (d) : (dat0 V c).before 1 t d = d := by
  unfold Dat.before
  rw [if_neg (by rw [show (cfg0.win 1).fetch t = false from rfl]; exact Bool.false_ne_true)]
  split
  · rfl
  · exact if_pos (flush0_1 _)

/-- The whole-buffer rectangles the body loads and stores through. -/
abbrev r0_in : Rect S16384x16 := Rect.unit (s := S16384x16) ![0, 0] S16384x16.size inb_S16384x16_S16384x16_0_0
abbrev r0_out : Rect S16384x1 := Rect.unit (s := S16384x1) ![0, 0] S16384x1.size inb_S16384x1_S16384x1_0_0

/-- The output buffer after the body, from the input buffer's contents: its one store as a piece. -/
def out0_1 (x0 : Vec Ideal S16384x16 .f32) : Vec Ideal S16384x1 .f32 :=
  View.canon [⟨r0_out, k0_pay1 (F := Ideal) (View.ld x0 r0_in)⟩]

/-- The one store covers the buffer. -/
theorem cover0_1 (p0 : Vec Ideal S16384x1 .f32) (y : S16384x1.Idx) :
    ∃ pc ∈ ([⟨r0_out, p0⟩] : List (View.Piece (Elt Ideal) S16384x1 .f32)), y ∈ pc.1.set :=
  ⟨_, List.mem_singleton_self _, View.mem_set_unit_zero (S := S16384x1) zeros2 inb_S16384x1_S16384x1_0_0 y⟩

/-- One whole-buffer store leaves its payload, and a whole-buffer load reads the contents: the body leaves the
    row sums of what the input buffer held. -/
theorem out0_1_eq (x0 : Vec Ideal S16384x16 .f32) : out0_1 x0 = k0_pay1 (F := Ideal) x0 := by
  unfold out0_1
  rw [View.canon_unit_zero (S := S16384x1) zeros2 inb_S16384x1_S16384x1_0_0,
    View.ld_unit_zero (S := S16384x16) zeros2 inb_S16384x16_S16384x16_0_0]

set_option maxHeartbeats 1000000 in
/-- The body on whole staging buffers, the input's at contents `x0` and the output's at anything: the input's is
    left as it was and the output's holds the row sums of `x0`. -/
theorem sound_kernel0 (c : Dev nD) (E : Set ℕ) (i : grid0.Coords) (arg0 : Memref sig .tc .vmem S16384x16 .f32) (harg0 : arg0.IsWhole) (arg1 : Memref sig .tc .vmem S16384x1 .f32) (harg1 : arg1.IsWhole)
    (x0 : Vec Ideal S16384x16 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := Ideal)) Variants.none c none) E (cc0__rowsum_kernel (F := Ideal) i arg0 harg0 arg1 harg1) K := by
  simp only [cc0__rowsum_kernel_eq_skeleton]; unfold cc0__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The two windows cut the same rows, and the input window cuts no column. -/
theorem xsize0 : ∀ i : grid0.Coords, win0_1.xsize i 0 = win0_0.xsize i 0 ∧ win0_0.xsize i 1 = 16 := by decide +kernel

/-- On the rows the write-back moves, the row sums do not see what fills the input buffer past the array's end:
    a row's sum reads that row only, and the rows the write-back moves are rows the fetch moved. -/
theorem cut_pay0 (i : grid0.Coords) (d d' : S16384x16.Idx → Elt Ideal .f32) (g : (win0_0.xblock i).Idx → Elt Ideal .f32) :
    win0_1.cut i (k0_pay1 (F := Ideal) (win0_0.fill i d g)) = win0_1.cut i (k0_pay1 (F := Ideal) (win0_0.fill i d' g)) := by
  funext j
  show k0_pay1 (F := Ideal) (win0_0.fill i d g) (win0_1.xinj i j) = k0_pay1 (F := Ideal) (win0_0.fill i d' g) (win0_1.xinj i j)
  have hj0 : (j 0).val < win0_1.xsize i 0 := (j 0).isLt
  have hr : (j 0).val < 16384 := lt_of_lt_of_le hj0 (win0_1.xsize_le i 0)
  have e : (win0_1.xinj i j : S16384x1.Idx) = ix2 (⟨(j 0).val, hr⟩ : Fin 16384) (0 : Fin 1) :=
    (eq_ix2 (n0 := 16384) (n1 := 1) (win0_1.xinj i j)).trans (congrArg (ix2 (⟨(j 0).val, hr⟩ : Fin 16384)) (Subsingleton.elim (α := Fin 1) _ _))
  rw [e]
  refine k0_pay1_congr_rows _ _ _ fun f => fill_agree win0_0 i d d' g ((win0_0.moved_iff i _).mpr fun a => ?_)
  match a with
  | ⟨0, _⟩ => exact lt_of_lt_of_eq hj0 (xsize0 i).1
  | ⟨1, _⟩ => exact lt_of_lt_of_eq f.isLt (xsize0 i).2.symm

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns: each buffer stated on the rows its window's transfers move. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t)))))

/-- The body at any point: the input buffer holds the fetched block filled out with some `d0`, the body leaves it so
    and leaves the row sums of that in the output buffer; on the moved rows these are the proof data's. -/
theorem sound_body0 (c : Dev nD) (t : Fin cfg0.N) :
    bodyPre0 V c t ⊢ wp frame (wpE (defs₀ (F := Ideal)) Variants.none c none) Set.univ (bodyAt0 (F := Ideal) t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  rw [before0_0 V c t d0, before0_1 V c t d1]
  iapply (sound_kernel0 c Set.univ (grid0.coords t) _ _ _ _ (win0_0.fill (grid0.coords t) d0 (iblk0 V c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    rw [show win0_0.cut (grid0.coords t) (fetched0 V c t) = iblk0 V c 0 t from win0_0.cut_fill _ _ _]
    iexact H0
  · iexists k0_pay1 (F := Ideal) (win0_0.fill (grid0.coords t) d0 (iblk0 V c 0 t))
    rw [out0_1_eq]
    rw [show fetched0 V c t = win0_0.fill (grid0.coords t) (fun _ => Scalar.ofBits (F := Ideal) .f32 0#32) (iblk0 V c 0 t) from rfl,
      win0_1.fill_congr_cut (grid0.coords t) (cut_pay0 (grid0.coords t) d0 _ (iblk0 V c 0 t))]
    iexact H1

/-- The body obligation of the first call, at every point. -/
theorem body_obligation0 (c : Dev nD) : BodyObligationLoose (dat0 V c) (defs₀ (F := Ideal)) Variants.none () Set.univ := fun t => by
  rw [bigSep_W0, bigSep_W0]
  exact sound_body0 V c t

/-! # The second call: the row sums of the hash table's rows, 641 blocks -/

/-- Window `w`'s block at point `t`, its part inside the array, read off the array as the call finds it. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The input block at point `t` filled out to the whole staging buffer with the zero word past the array's end. -/
def fetched1 (c : Dev nD) (t : Fin cfg1.N) : S16384x16.Idx → Elt Ideal .f32 :=
  win1_0.fill (grid1.coords t) (fun _ => Scalar.ofBits (F := Ideal) .f32 0#32) (iblk1 V c 0 t)

/-- The proof data: the arrays as the call finds them; after the body at point `t` the input buffer at the fetched
    block (zero past the array's end) and the output buffer at its row sums; nothing owed; full shares. -/
def dat1 (c : Dev nD) : Dat τ (Elt Ideal) Unit ℕ (UR sig nD τ) ℕ cfg1 c where
  A w := V c (Pipeline.arrRef spec1 w)
  after w t := match w with
    | ⟨0, _⟩ => fetched1 V c t
    | ⟨1, _⟩ => k1_pay1 (F := Ideal) (fetched1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = fetched1 V c t := by dsimp only [dat1]
theorem after1_1 (c : Dev nD) (t : Fin cfg1.N) : (dat1 V c).after 1 t = k1_pay1 (F := Ideal) (fetched1 V c t) := by dsimp only [dat1]

/-- The input buffer as the body finds it: just fetched, the block on the rows inside the array, `d` elsewhere. -/
theorem before1_0 (c : Dev nD) (t : Fin cfg1.N) (d) :
    (dat1 V c).before 0 t d = win1_0.fill (grid1.coords t) d (iblk1 V c 0 t) := by
  unfold Dat.before; rw [if_pos (fetch1_0 t)]
  unfold Dat.fetched Dat.blockOf iblk1; rw [A_eq1]

/-- The output buffer as the body finds it: never fetched, and written back at the point before, so at contents
    nothing names. -/
theorem before1_1 (c : Dev nD) (t : Fin cfg1.N) (d) : (dat1 V c).before 1 t d = d := by
  unfold Dat.before
  rw [if_neg (by rw [show (cfg1.win 1).fetch t = false from rfl]; exact Bool.false_ne_true)]
  split
  · rfl
  · exact if_pos (flush1_1 _)

/-- The whole-buffer rectangles the body loads and stores through. -/
abbrev r1_in : Rect S16384x16 := Rect.unit (s := S16384x16) ![0, 0] S16384x16.size inb_S16384x16_S16384x16_0_0
abbrev r1_out : Rect S16384x1 := Rect.unit (s := S16384x1) ![0, 0] S16384x1.size inb_S16384x1_S16384x1_0_0

/-- The output buffer after the body, from the input buffer's contents: its one store as a piece. -/
def out1_1 (x0 : Vec Ideal S16384x16 .f32) : Vec Ideal S16384x1 .f32 :=
  View.canon [⟨r1_out, k1_pay1 (F := Ideal) (View.ld x0 r1_in)⟩]

/-- The one store covers the buffer. -/
theorem cover1_1 (p0 : Vec Ideal S16384x1 .f32) (y : S16384x1.Idx) :
    ∃ pc ∈ ([⟨r1_out, p0⟩] : List (View.Piece (Elt Ideal) S16384x1 .f32)), y ∈ pc.1.set :=
  ⟨_, List.mem_singleton_self _, View.mem_set_unit_zero (S := S16384x1) zeros2 inb_S16384x1_S16384x1_0_0 y⟩

/-- One whole-buffer store leaves its payload, and a whole-buffer load reads the contents: the body leaves the
    row sums of what the input buffer held. -/
theorem out1_1_eq (x0 : Vec Ideal S16384x16 .f32) : out1_1 x0 = k1_pay1 (F := Ideal) x0 := by
  unfold out1_1
  rw [View.canon_unit_zero (S := S16384x1) zeros2 inb_S16384x1_S16384x1_0_0,
    View.ld_unit_zero (S := S16384x16) zeros2 inb_S16384x16_S16384x16_0_0]

set_option maxHeartbeats 1000000 in
/-- The body on whole staging buffers, the input's at contents `x0` and the output's at anything: the input's is
    left as it was and the output's holds the row sums of `x0`. -/
theorem sound_kernel1 (c : Dev nD) (E : Set ℕ) (i : grid1.Coords) (arg0 : Memref sig .tc .vmem S16384x16 .f32) (harg0 : arg0.IsWhole) (arg1 : Memref sig .tc .vmem S16384x1 .f32) (harg1 : arg1.IsWhole)
    (x0 : Vec Ideal S16384x16 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := Ideal)) Variants.none c none) E (cc1__rowsum_kernel (F := Ideal) i arg0 harg0 arg1 harg1) K := by
  simp only [cc1__rowsum_kernel_eq_skeleton]; unfold cc1__rowsum_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The two windows cut the same rows, and the input window cuts no column. -/
theorem xsize1 : ∀ i : grid1.Coords, win1_1.xsize i 0 = win1_0.xsize i 0 ∧ win1_0.xsize i 1 = 16 := by decide +kernel

/-- On the rows the write-back moves, the row sums do not see what fills the input buffer past the array's end:
    a row's sum reads that row only, and the rows the write-back moves are rows the fetch moved. -/
theorem cut_pay1 (i : grid1.Coords) (d d' : S16384x16.Idx → Elt Ideal .f32) (g : (win1_0.xblock i).Idx → Elt Ideal .f32) :
    win1_1.cut i (k1_pay1 (F := Ideal) (win1_0.fill i d g)) = win1_1.cut i (k1_pay1 (F := Ideal) (win1_0.fill i d' g)) := by
  funext j
  show k1_pay1 (F := Ideal) (win1_0.fill i d g) (win1_1.xinj i j) = k1_pay1 (F := Ideal) (win1_0.fill i d' g) (win1_1.xinj i j)
  have hj0 : (j 0).val < win1_1.xsize i 0 := (j 0).isLt
  have hr : (j 0).val < 16384 := lt_of_lt_of_le hj0 (win1_1.xsize_le i 0)
  have e : (win1_1.xinj i j : S16384x1.Idx) = ix2 (⟨(j 0).val, hr⟩ : Fin 16384) (0 : Fin 1) :=
    (eq_ix2 (n0 := 16384) (n1 := 1) (win1_1.xinj i j)).trans (congrArg (ix2 (⟨(j 0).val, hr⟩ : Fin 16384)) (Subsingleton.elim (α := Fin 1) _ _))
  rw [e]
  refine k1_pay1_congr_rows _ _ _ fun f => fill_agree win1_0 i d d' g ((win1_0.moved_iff i _).mpr fun a => ?_)
  match a with
  | ⟨0, _⟩ => exact lt_of_lt_of_eq hj0 (xsize1 i).1
  | ⟨1, _⟩ => exact lt_of_lt_of_eq f.isLt (xsize1 i).2.symm

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns: each buffer stated on the rows its window's transfers move. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ (∃ d, owns (c : Thread nD τ) (st1_1 t) fullShare (win1_1.fill (grid1.coords t) d (win1_1.cut (grid1.coords t) ((dat1 V c).after 1 t)))))

/-- The body at any point: the input buffer holds the fetched block filled out with some `d0`, the body leaves it so
    and leaves the row sums of that in the output buffer; on the moved rows these are the proof data's. -/
theorem sound_body1 (c : Dev nD) (t : Fin cfg1.N) :
    bodyPre1 V c t ⊢ wp frame (wpE (defs₀ (F := Ideal)) Variants.none c none) Set.univ (bodyAt1 (F := Ideal) t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  rw [before1_0 V c t d0, before1_1 V c t d1]
  iapply (sound_kernel1 c Set.univ (grid1.coords t) _ _ _ _ (win1_0.fill (grid1.coords t) d0 (iblk1 V c 0 t)) _)
  isplitl [H0]; · iexact H0
  isplitl [H1]; · iexists _; iexact H1
  iintro ⟨H0, H1⟩
  isplitl [HΦ]; · iexact HΦ
  isplitl [Ho]; · iexact Ho
  isplitl [H0]
  · iexists d0
    rw [show win1_0.cut (grid1.coords t) (fetched1 V c t) = iblk1 V c 0 t from win1_0.cut_fill _ _ _]
    iexact H0
  · iexists k1_pay1 (F := Ideal) (win1_0.fill (grid1.coords t) d0 (iblk1 V c 0 t))
    rw [out1_1_eq]
    rw [show fetched1 V c t = win1_0.fill (grid1.coords t) (fun _ => Scalar.ofBits (F := Ideal) .f32 0#32) (iblk1 V c 0 t) from rfl,
      win1_1.fill_congr_cut (grid1.coords t) (cut_pay1 (grid1.coords t) d0 _ (iblk1 V c 0 t))]
    iexact H1

/-- The body obligation of the second call, at every point. -/
theorem body_obligation1 (c : Dev nD) : BodyObligationLoose (dat1 V c) (defs₀ (F := Ideal)) Variants.none () Set.univ := fun t => by
  rw [bigSep_W1, bigSep_W1]
  exact sound_body1 V c t

end Cert.KernelIdeal.Hand

end
-- ==== Proof.IdealRun.lean ====
/-
  The run of the kernel's program over the extended reals, with every buffer's final contents named.

  The program is four stretches of host operations, the first row-sum call, a stretch, the second row-sum call and a
  last stretch.  The buffer contents at each boundary are a fold from the launch memory: a stretch applies its
  operations to the contents before it; a call leaves its windows' arrays at what its write-backs leave (the proof
  data's arrays after the last point) and every other buffer as entered.  Each boundary's contents are the thread
  state the next segment is entered from, beside the generator register at some state and nothing owed.  The run:
  from any memory with zero counters, every weakly fair execution terminates and every unscoped buffer ends at the
  last boundary's contents; the three arguments end as launched.
-/
import proofs.«118521_j721554506107_2_alg».proof.Proof.IdealBody
import proofs.«118521_j721554506107_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## The buffer contents at each segment boundary: a fold through the program -/

/-- Core `c`'s buffers at launch. -/
abbrev W0 (c : Dev nD) : Valuation τ sig (Elt Ideal) := fun b => m (c, b)
/-- After the first stretch, -/
abbrev W1 (c : Dev nD) : Valuation τ sig (Elt Ideal) := StableHlo.after (hostOps0 (F := Ideal)) (W0 m c)
/-- the second, -/
abbrev W2 (c : Dev nD) : Valuation τ sig (Elt Ideal) := StableHlo.after (hostOps0_1 (F := Ideal)) (W1 m c)
/-- the third, -/
abbrev W3 (c : Dev nD) : Valuation τ sig (Elt Ideal) := StableHlo.after (hostOps0_2 (F := Ideal)) (W2 m c)
/-- the fourth: the first call's entry. -/
abbrev W4 (c : Dev nD) : Valuation τ sig (Elt Ideal) := StableHlo.after (hostOps0_3 (F := Ideal)) (W3 m c)
/-- The same read at the core's references (what the first call's proof data take). -/
abbrev V4 : (c : Dev nD) → (b : Ref sig .tc) → Buf (Elt Ideal) ((c : Thread nD τ).loc b) := fun c b => W4 m c b
/-- At the first call's exit: its arrays at what the pipeline leaves, every other buffer as entered. -/
def W5 (c : Dev nD) : Valuation τ sig (Elt Ideal) :=
  Pipeline.withArrays spec0 c (W4 m c) fun w => (dat0 (V4 m) c).arrAt w cfg0.N
theorem W5_arr (c : Dev nD) (w : Fin cfg0.W) :
    W5 m c (Proc.devRef .tc (Pipeline.arrRef spec0 w)) = (dat0 (V4 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = W4 m c (Proc.devRef .tc b) := by
  unfold W5; exact Pipeline.withArrays_of_ne spec0 c _ _ b hb
/-- The same read at the core's references (the first call's exit contents). -/
abbrev Vout0 : (c : Dev nD) → (b : Ref sig .tc) → Buf (Elt Ideal) ((c : Thread nD τ).loc b) := fun c b => W5 m c b
theorem hF0 (c : Dev nD) (w : Fin cfg0.W) : (dat0 (V4 m) c).arrAt w cfg0.N = Vout0 m c (Pipeline.arrRef spec0 w) :=
  (W5_arr m c w).symm
theorem hrest0 (c : Dev nD) : ∀ b, b ∉ Finset.univ.image (Pipeline.arrRef spec0) → Vout0 m c b = V4 m c b :=
  fun b hb => W5_of_ne m c b fun w e => hb (Finset.mem_image.mpr ⟨w, Finset.mem_univ _, e⟩)

/-- After the stretch between the calls: the second call's entry. -/
abbrev W6 (c : Dev nD) : Valuation τ sig (Elt Ideal) := StableHlo.after (hostOps1 (F := Ideal)) (W5 m c)
abbrev V6 : (c : Dev nD) → (b : Ref sig .tc) → Buf (Elt Ideal) ((c : Thread nD τ).loc b) := fun c b => W6 m c b
/-- At the second call's exit: its arrays at what the pipeline leaves, every other buffer as entered. -/
def W7 (c : Dev nD) : Valuation τ sig (Elt Ideal) :=
  Pipeline.withArrays spec1 c (W6 m c) fun w => (dat1 (V6 m) c).arrAt w cfg1.N
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev Vout1 : (c : Dev nD) → (b : Ref sig .tc) → Buf (Elt Ideal) ((c : Thread nD τ).loc b) := fun c b => W7 m c b
theorem hF1 (c : Dev nD) (w : Fin cfg1.W) : (dat1 (V6 m) c).arrAt w cfg1.N = Vout1 m c (Pipeline.arrRef spec1 w) :=
  (W7_arr m c w).symm
theorem hrest1 (c : Dev nD) : ∀ b, b ∉ Finset.univ.image (Pipeline.arrRef spec1) → Vout1 m c b = V6 m c b :=
  fun b hb => W7_of_ne m c b fun w e => hb (Finset.mem_image.mpr ⟨w, Finset.mem_univ _, e⟩)

/-- After the last stretch: the contents the program ends at. -/
abbrev W8 (c : Dev nD) : Valuation τ sig (Elt Ideal) := StableHlo.after (hostOps2 (F := Ideal)) (W7 m c)

/-! ### The arguments end as launched: no stretch writes one, the first call reads the second through an input
    window and neither call writes any -/

theorem W4_of_launch (c : Dev nD) (r : Ref sig .tc) (h0 : r ∉ hostOps0_W) (h1 : r ∉ hostOps0_1_W) (h2 : r ∉ hostOps0_2_W)
    (h3 : r ∉ hostOps0_3_W) : W4 m c (Proc.devRef .tc r) = m ((c : Thread nD τ).loc r) :=
  (StableHlo.after_of_writes_sub (hostOps0_3 (F := Ideal)) _ hostOps0_3_writes h3).trans <|
    (StableHlo.after_of_writes_sub (hostOps0_2 (F := Ideal)) _ hostOps0_2_writes h2).trans <|
    (StableHlo.after_of_writes_sub (hostOps0_1 (F := Ideal)) _ hostOps0_1_writes h1).trans <|
    (StableHlo.after_of_writes_sub (hostOps0 (F := Ideal)) _ hostOps0_writes h0).trans rfl

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub (hostOps2 (F := Ideal)) _ hostOps2_writes (by decide)
    _ = W6 m c (Proc.devRef .tc main_arg0) := W7_of_ne m c main_arg0 (by decide)
    _ = W5 m c (Proc.devRef .tc main_arg0) := StableHlo.after_of_writes_sub (hostOps1 (F := Ideal)) _ hostOps1_writes (by decide)
    _ = W4 m c (Proc.devRef .tc main_arg0) := W5_of_ne m c main_arg0 (by decide)
    _ = m ((c : Thread nD τ).loc main_arg0) := W4_of_launch m c main_arg0 (by decide) (by decide) (by decide) (by decide)

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub (hostOps2 (F := Ideal)) _ hostOps2_writes (by decide)
    _ = W6 m c (Proc.devRef .tc main_arg1) := W7_of_ne m c main_arg1 (by decide)
    _ = W5 m c (Proc.devRef .tc main_arg1) := StableHlo.after_of_writes_sub (hostOps1 (F := Ideal)) _ hostOps1_writes (by decide)
    _ = W4 m c (Proc.devRef .tc main_arg1) := (W5_arr m c 0).trans (((dat0 (V4 m) c).arrAt_in 0 rfl _).trans (A_eq0 (V4 m) c 0))
    _ = m ((c : Thread nD τ).loc main_arg1) := W4_of_launch m c main_arg1 (by decide) (by decide) (by decide) (by decide)

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub (hostOps2 (F := Ideal)) _ hostOps2_writes (by decide)
    _ = W6 m c (Proc.devRef .tc main_arg2) := W7_of_ne m c main_arg2 (by decide)
    _ = W5 m c (Proc.devRef .tc main_arg2) := StableHlo.after_of_writes_sub (hostOps1 (F := Ideal)) _ hostOps1_writes (by decide)
    _ = W4 m c (Proc.devRef .tc main_arg2) := W5_of_ne m c main_arg2 (by decide)
    _ = m ((c : Thread nD τ).loc main_arg2) := W4_of_launch m c main_arg2 (by decide) (by decide) (by decide) (by decide)

/-! ## The proof data family and the thread state -/

/-- Every pipeline's proof data, each at its call's entry contents. -/
def pdats : (p : Fin 2) → (c : Dev nD) → Dat τ (Elt Ideal) Unit ℕ (UR sig nD τ) ℕ (Pipeline.pin (pcfgs (F := Ideal)) adm p) c
  | ⟨0, _⟩ => fun c => dat0 (V4 m) c
  | ⟨1, _⟩ => fun c => dat1 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-- The last stretch's thread state regrouped: the buffers and the generator register, beside the tallies. -/
theorem last_link (c : Dev nD) : (iprop(StableHlo.held (c : Thread nD τ) (Pipeline.ucRefs τ sig) (W8 m c) ∗ R c) : sProp 𝕄)
    ⊢ iprop(Tₙ m c ∗ ∃ W, owes (c : Thread nD τ) (0 : CellTallies nD τ sig Unit) W) := by
  iintro ⟨Hh, Hp, HO⟩
  isplitr [HO]
  · isplitl [Hh]
    · iexact Hh
    · iexact Hp
  · iexact HO

/-! ## The calls as segments -/

-- a library lemma stated over a pinned configuration unifies with the printed one only when unification may unfold
-- plain definitions in a metavariable's type
set_option backward.isDefEq.respectTransparency.types false in
/-- Call 0 over the thread state: entered from every unscoped buffer at `W4`, left at `W5`. Its arrays are split
    out of the unscoped buffers and put back at the exit contents; the generator register goes into the invariant
    and comes out; nothing is owed; the kernel has no semaphore of its own. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (V4 m) c
  hwaits := Pipeline.hwaits_of_owed_zero _ _ _ _ L lv 0 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (V4 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V4 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- Call 1 over the thread state: entered from every unscoped buffer at `W6`, left at `W7`. Its arrays are split
    out of the unscoped buffers and put back at the exit contents; the generator register goes into the invariant
    and comes out; nothing is owed; the kernel has no semaphore of its own. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V6 m) c
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V6 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 8 segments in order. -/
abbrev segs : List (Pipeline.Seg (pcfgs (F := Ideal)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .host (hseg hostOps1 hostOps1_sub hostOps1_fresh (W5 m)),
    .region (reg1 m),
    .host (hseg hostOps2 hostOps2_sub hostOps2_fresh (W7 m)) ]
/-- The program is the run of the segments. -/
theorem main_run (c : Dev nD) : main (F := Ideal) c = Pipeline.Seg.run (segs m) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the cores terminates,
    nothing faulting, and every final state has every unscoped buffer at the last boundary's contents. -/
theorem run_all (ρ : Dev nD → PrngReg) : θ_run (defs (F := Ideal)) (onTc (τ := τ) (main (F := Ideal))) ⟨m, fun _ => 0, ρ⟩
    (fun r => ∀ c : Dev nD, ∀ b ∈ Pipeline.ucRefs τ sig, r.2.mem (((c : Thread nD τ)).1, b) = W8 m c b) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- info: 'Cert.KernelIdeal.Hand.run_all' depends on axioms: [propext, Classical.choice, Quot.sound] -/
#guard_msgs in #print axioms run_all

end Cert.KernelIdeal.Hand

end
-- ==== Proof.IdealClaims.lean ====
/-
  The two statements about the kernel's program over the extended reals that rest on its run alone: the program
  terminates with its three arguments as launched, and it terminates with the result buffer at the last
  boundary's contents and the arguments as launched.  Both read the run's post (every unscoped buffer at the last
  boundary's contents) at the buffers they name.
-/
import proofs.«118521_j721554506107_2_alg».proof.Defs
import proofs.«118521_j721554506107_2_alg».proof.Proof.IdealRun
import proofs.«118521_j721554506107_2_alg».proof.Proof.Gen.Pre_finite_inputs

noncomputable section

namespace Cert.Proof.IdealClaims

open Idealize.ShloMosaic Idealize.ShloMosaic.TcCoe Idealize.SL.Sem

/-- The program over the extended reals runs, the result buffer ends at the last boundary's contents and the
    arguments end as launched. -/
theorem kernel_side (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v122) = Cert.KernelIdeal.Hand.W8 m c (Proc.devRef .tc Cert.KernelIdeal.main_v122)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run (Cert.KernelIdeal.defs (F := Ideal)) _ _).mono
    (fun r h c =>
      ⟨h c _ (Cert.KernelIdeal.Hand.mem_uc Cert.KernelIdeal.main_v122 (by decide)),
        (h c _ (Cert.KernelIdeal.Hand.mem_uc Cert.KernelIdeal.main_arg0 (by decide))).trans (Cert.KernelIdeal.Hand.W8_main_arg0 m c),
        (h c _ (Cert.KernelIdeal.Hand.mem_uc Cert.KernelIdeal.main_arg1 (by decide))).trans (Cert.KernelIdeal.Hand.W8_main_arg1 m c),
        (h c _ (Cert.KernelIdeal.Hand.mem_uc Cert.KernelIdeal.main_arg2 (by decide))).trans (Cert.KernelIdeal.Hand.W8_main_arg2 m c)⟩)
    (Cert.KernelIdeal.Hand.run_all m ρ)

/-- The program over the extended reals runs and its arguments end as launched. -/
theorem frame_pi : Cert.frame_KernelIdeal := fun m ρ _ =>
  (θ_run (Cert.KernelIdeal.defs (F := Ideal)) _ _).mono (fun r h c => (h c).2) (kernel_side m ρ)

/-- info: 'Cert.Proof.IdealClaims.kernel_side' depends on axioms: [propext, Classical.choice, Quot.sound] -/
#guard_msgs in #print axioms kernel_side

end Cert.Proof.IdealClaims

end
-- ==== Proof.RefOps.lean ====
/-
  The reference's @main as lists of host operations: every printed statement of its three windows in order, a call
  of an outlined function (the clamp to [0, n-1]; the floored remainder by the table size, itself calling a select)
  replaced by that function's operations over the call's own buffers. Two groupings of the same operations: window by
  window (the printed definitions are cut every 60 statements), and by stretch (before the clamp, the clamp, up to the
  remainder, the remainder, the rest).
-/
import proofs.«118521_j721554506107_2_alg».proof.Proof.Gen.ReferenceIdeal
import Idealize.ShloMosaic.Lib.Pipeline.Kit
import Idealize.ShloMosaic.Lib.Pipeline.Regions

set_option maxRecDepth 2048

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

/-- 29 operations: window 0, item 0. -/
abbrev main_part0_ops0 : List (HloOp τ sig (Elt F)) :=
  [ StableHlo.nullary main_cst (constant S3 .f32 0xC0000000#32),
    StableHlo.nullary main_cst_0 (constant S3 .f32 0x40000000#32),
    StableHlo.nullary main_cst_1 (fun i => FloatOps.ofBits .f32 (lit0 (S16.rowMajor i))),
    StableHlo.nullary main_c (fun i => lit1 (S16.rowMajor i)),
    StableHlo.nullary main_cst_2 (fun i => FloatOps.ofBits .f32 (lit2 (S8x3.rowMajor i))),
    StableHlo.nullary main_c_3 (fun i => lit3 (S5.rowMajor i)),
    StableHlo.unary main_cst main_v0 (broadcastInDim S1x3 ![1] bcast_S3_S1x3_1 : (⟨S3, .f32⟩ : BufTy).Contents (Elt F) → (⟨S1x3, .f32⟩ : BufTy).Contents (Elt F)),
    StableHlo.unary main_v0 main_v1 (broadcastInDim S65536x3 ![0, 1] bcast_S1x3_S65536x3_0_1 : (⟨S1x3, .f32⟩ : BufTy).Contents (Elt F) → (⟨S65536x3, .f32⟩ : BufTy).Contents (Elt F)),
    StableHlo.binary main_arg0 main_v1 main_v2 (subf : (⟨S65536x3, .f32⟩ : BufTy).Contents (Elt F) → (⟨S65536x3, .f32⟩ : BufTy).Contents (Elt F) → (⟨S65536x3, .f32⟩ : BufTy).Contents (Elt F)),
    StableHlo.binary main_cst_0 main_cst main_v3 (subf : (⟨S3, .f32⟩ : BufTy).Contents (Elt F) → (⟨S3, .f32⟩ : BufTy).Contents (Elt F) → (⟨S3, .f32⟩ : BufTy).Contents (Elt F)),
    StableHlo.unary main_v3 main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S65536x3 ![0, 1] bcast_S1x3_S65536x3_0_1 : (⟨S1x3, .f32⟩ : BufTy).Contents (Elt F) → (⟨S65536x3, .f32⟩ : BufTy).Contents (Elt F)),
    StableHlo.binary main_v2 main_v5 main_v6 (Host.divf : (⟨S65536x3, .f32⟩ : BufTy).Contents (Elt F) → (⟨S65536x3, .f32⟩ : BufTy).Contents (Elt F) → (⟨S65536x3, .f32⟩ : BufTy).Contents (Elt F)),
    StableHlo.unary main_v6 main_v7 (broadcastInDim S1x65536x3 ![1, 2] bcast_S65536x3_S1x65536x3_1_2 : (⟨S65536x3, .f32⟩ : BufTy).Contents (Elt F) → (⟨S1x65536x3, .f32⟩ : BufTy).Contents (Elt F)),
    StableHlo.unary main_cst_1 main_v8 (broadcastInDim S16x1x1 ![0] bcast_S16_S16x1x1_0 : (⟨S16, .f32⟩ : BufTy).Contents (Elt F) → (⟨S16x1x1, .f32⟩ : BufTy).Contents (Elt F)),
    StableHlo.unary main_v7 main_v9 (broadcastInDim S16x65536x3 ![0, 1, 2] bcast_S1x65536x3_S16x65536x3_0_1_2 : (⟨S1x65536x3, .f32⟩ : BufTy).Contents (Elt F) → (⟨S16x65536x3, .f32⟩ : BufTy).Contents (Elt F)),
    StableHlo.unary main_v8 main_v10 (broadcastInDim S16x65536x3 ![0, 1, 2] bcast_S16x1x1_S16x65536x3_0_1_2 : (⟨S16x1x1, .f32⟩ : BufTy).Contents (Elt F) → (⟨S16x65536x3, .f32⟩ : BufTy).Contents (Elt F)),
    StableHlo.binary main_v9 main_v10 main_v11 (Host.divf : (⟨S16x65536x3, .f32⟩ : BufTy).Contents (Elt F) → (⟨S16x65536x3, .f32⟩ : BufTy).Contents (Elt F) → (⟨S16x65536x3, .f32⟩ : BufTy).Contents (Elt F)),
    StableHlo.unary main_v11 main_v12 (broadcastInDim S16x65536x1x3 ![0, 1, 3] bcast_S16x65536x3_S16x65536x1x3_0_1_3 : (⟨S16x65536x3, .f32⟩ : BufTy).Contents (Elt F) → (⟨S16x65536x1x3, .f32⟩ : BufTy).Contents (Elt F)),
    StableHlo.unary main_cst_2 main_v13 (broadcastInDim S1x1x8x3 ![2, 3] bcast_S8x3_S1x1x8x3_2_3 : (⟨S8x3, .f32⟩ : BufTy).Contents (Elt F) → (⟨S1x1x8x3, .f32⟩ : BufTy).Contents (Elt F)),
    StableHlo.unary main_v12 main_v14 (broadcastInDim S16x65536x8x3 ![0, 1, 2, 3] bcast_S16x65536x1x3_S16x65536x8x3_0_1_2_3 : (⟨S16x65536x1x3, .f32⟩ : BufTy).Contents (Elt F) → (⟨S16x65536x8x3, .f32⟩ : BufTy).Contents (Elt F)),
    StableHlo.unary main_v13 main_v15 (broadcastInDim S16x65536x8x3 ![0, 1, 2, 3] bcast_S1x1x8x3_S16x65536x8x3_0_1_2_3 : (⟨S1x1x8x3, .f32⟩ : BufTy).Contents (Elt F) → (⟨S16x65536x8x3, .f32⟩ : BufTy).Contents (Elt F)),
    StableHlo.binary main_v14 main_v15 main_v16 (addf : (⟨S16x65536x8x3, .f32⟩ : BufTy).Contents (Elt F) → (⟨S16x65536x8x3, .f32⟩ : BufTy).Contents (Elt F) → (⟨S16x65536x8x3, .f32⟩ : BufTy).Contents (Elt F)),
    StableHlo.unary main_v16 main_v17 (fptosi 32 : (⟨S16x65536x8x3, .f32⟩ : BufTy).Contents (Elt F) → (⟨S16x65536x8x3, .i32⟩ : BufTy).Contents (Elt F)),
    StableHlo.nullary main_c_4 (constantI S_ 32 1#32),
    StableHlo.unary main_c_4 main_v18 (broadcastInDim S16 ![] bcast_S_S16 : (⟨S_, .i32⟩ : BufTy).Contents (Elt F) → (⟨S16, .i32⟩ : BufTy).Contents (Elt F)),
    StableHlo.binary main_c main_v18 main_v19 (subi : (⟨S16, .i32⟩ : BufTy).Contents (Elt F) → (⟨S16, .i32⟩ : BufTy).Contents (Elt F) → (⟨S16, .i32⟩ : BufTy).Contents (Elt F)),
    StableHlo.unary main_v19 main_v20 (broadcastInDim S16x1x1x1 ![0] bcast_S16_S16x1x1x1_0 : (⟨S16, .i32⟩ : BufTy).Contents (Elt F) → (⟨S16x1x1x1, .i32⟩ : BufTy).Contents (Elt F)),
    StableHlo.nullary main_c_5 (constantI S_ 32 0#32) ]

/-- 5 operations: window 0, item 1 (the operations of one call of @clip). -/
abbrev main_part0_ops1 : List (HloOp τ sig (Elt F)) :=
  [ StableHlo.TRef.unary (.of main_c_5 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S16x65536x8x3, .i32⟩) (broadcastInDim S16x65536x8x3 ![] bcast_S_S16x65536x8x3),
    StableHlo.TRef.binary (.of main_call0_v1 : StableHlo.TRef sig ⟨S16x65536x8x3, .i32⟩) (.of main_v17 : StableHlo.TRef sig ⟨S16x65536x8x3, .i32⟩) (.of main_call0_v2 : StableHlo.TRef sig ⟨S16x65536x8x3, .i32⟩) maxsi,
    StableHlo.TRef.unary (.of main_v20 : StableHlo.TRef sig ⟨S16x1x1x1, .i32⟩) (.of main_call0_v3 : StableHlo.TRef sig ⟨S16x65536x8x3, .i32⟩) (broadcastInDim S16x65536x8x3 ![0, 1, 2, 3] bcast_S16x1x1x1_S16x65536x8x3_0_1_2_3),
    StableHlo.TRef.binary (.of main_call0_v3 : StableHlo.TRef sig ⟨S16x65536x8x3, .i32⟩) (.of main_call0_v2 : StableHlo.TRef sig ⟨S16x65536x8x3, .i32⟩) (.of main_v21 : StableHlo.TRef sig ⟨S16x65536x8x3, .i32⟩) minsi ]

/-- 30 operations: window 0, item 2. -/
abbrev main_part0_ops2 : List (HloOp τ sig (Elt F)) :=
  [ StableHlo.unary main_v21 main_v22 ((extractStridedSlice S16x65536x1x3 ![0, 0, 0, 0] · slices_S16x65536x8x3_S16x65536x1x3_0_0_0_0) : (⟨S16x65536x8x3, .i32⟩ : BufTy).Contents (Elt F) → (⟨S16x65536x1x3, .i32⟩ : BufTy).Contents (Elt F)),
    StableHlo.reshape main_v22 main_v23 rfl shapeCasts_S16x65536x1x3_S16x65536x3,
    StableHlo.unary main_v23 main_v24 (sitofp .f32 : (⟨S16x65536x3, .i32⟩ : BufTy).Contents (Elt F) → (⟨S16x65536x3, .f32⟩ : BufTy).Contents (Elt F)),
    StableHlo.binary main_v11 main_v24 main_v25 (subf : (⟨S16x65536x3, .f32⟩ : BufTy).Contents (Elt F) → (⟨S16x65536x3, .f32⟩ : BufTy).Contents (Elt F) → (⟨S16x65536x3, .f32⟩ : BufTy).Contents (Elt F)),
    StableHlo.unary main_c main_v26 ((extractStridedSlice S6 ![0] · slices_S16_S6_0) : (⟨S16, .i32⟩ : BufTy).Contents (Elt F) → (⟨S6, .i32⟩ : BufTy).Contents (Elt F)),
    StableHlo.unary main_v26 main_v27 (broadcastInDim S6x1x1 ![0] bcast_S6_S6x1x1_0 : (⟨S6, .i32⟩ : BufTy).Contents (Elt F) → (⟨S6x1x1, .i32⟩ : BufTy).Contents (Elt F)),
    StableHlo.unary main_v21 main_v28 ((extractStridedSlice S6x65536x8x1 ![0, 0, 0, 0] · slices_S16x65536x8x3_S6x65536x8x1_0_0_0_0) : (⟨S16x65536x8x3, .i32⟩ : BufTy).Contents (Elt F) → (⟨S6x65536x8x1, .i32⟩ : BufTy).Contents (Elt F)),
    StableHlo.reshape main_v28 main_v29 rfl shapeCasts_S6x65536x8x1_S6x65536x8,
    StableHlo.unary main_v27 main_v30 (broadcastInDim S6x65536x8 ![0, 1, 2] bcast_S6x1x1_S6x65536x8_0_1_2 : (⟨S6x1x1, .i32⟩ : BufTy).Contents (Elt F) → (⟨S6x65536x8, .i32⟩ : BufTy).Contents (Elt F)),
    StableHlo.binary main_v29 main_v30 main_v31 (muli : (⟨S6x65536x8, .i32⟩ : BufTy).Contents (Elt F) → (⟨S6x65536x8, .i32⟩ : BufTy).Contents (Elt F) → (⟨S6x65536x8, .i32⟩ : BufTy).Contents (Elt F)),
    StableHlo.unary main_v27 main_v32 (broadcastInDim S6x65536x8 ![0, 1, 2] bcast_S6x1x1_S6x65536x8_0_1_2 : (⟨S6x1x1, .i32⟩ : BufTy).Contents (Elt F) → (⟨S6x65536x8, .i32⟩ : BufTy).Contents (Elt F)),
    StableHlo.binary main_v31 main_v32 main_v33 (muli : (⟨S6x65536x8, .i32⟩ : BufTy).Contents (Elt F) → (⟨S6x65536x8, .i32⟩ : BufTy).Contents (Elt F) → (⟨S6x65536x8, .i32⟩ : BufTy).Contents (Elt F)),
    StableHlo.unary main_v21 main_v34 ((extractStridedSlice S6x65536x8x1 ![0, 0, 0, 1] · slices_S16x65536x8x3_S6x65536x8x1_0_0_0_1) : (⟨S16x65536x8x3, .i32⟩ : BufTy).Contents (Elt F) → (⟨S6x65536x8x1, .i32⟩ : BufTy).Contents (Elt F)),
    StableHlo.reshape main_v34 main_v35 rfl shapeCasts_S6x65536x8x1_S6x65536x8,
    StableHlo.unary main_v27 main_v36 (broadcastInDim S6x65536x8 ![0, 1, 2] bcast_S6x1x1_S6x65536x8_0_1_2 : (⟨S6x1x1, .i32⟩ : BufTy).Contents (Elt F) → (⟨S6x65536x8, .i32⟩ : BufTy).Contents (Elt F)),
    StableHlo.binary main_v35 main_v36 main_v37 (muli : (⟨S6x65536x8, .i32⟩ : BufTy).Contents (Elt F) → (⟨S6x65536x8, .i32⟩ : BufTy).Contents (Elt F) → (⟨S6x65536x8, .i32⟩ : BufTy).Contents (Elt F)),
    StableHlo.binary main_v33 main_v37 main_v38 (addi : (⟨S6x65536x8, .i32⟩ : BufTy).Contents (Elt F) → (⟨S6x65536x8, .i32⟩ : BufTy).Contents (Elt F) → (⟨S6x65536x8, .i32⟩ : BufTy).Contents (Elt F)),
    StableHlo.unary main_v21 main_v39 ((extractStridedSlice S6x65536x8x1 ![0, 0, 0, 2] · slices_S16x65536x8x3_S6x65536x8x1_0_0_0_2) : (⟨S16x65536x8x3, .i32⟩ : BufTy).Contents (Elt F) → (⟨S6x65536x8x1, .i32⟩ : BufTy).Contents (Elt F)),
    StableHlo.reshape main_v39 main_v40 rfl shapeCasts_S6x65536x8x1_S6x65536x8,
    StableHlo.binary main_v38 main_v40 main_v41 (addi : (⟨S6x65536x8, .i32⟩ : BufTy).Contents (Elt F) → (⟨S6x65536x8, .i32⟩ : BufTy).Contents (Elt F) → (⟨S6x65536x8, .i32⟩ : BufTy).Contents (Elt F)),
    StableHlo.nullary main_c_6 (constantI S_ 32 0#32),
    StableHlo.unary main_c_6 main_v42 (broadcastInDim S1 ![] bcast_S_S1 : (⟨S_, .i32⟩ : BufTy).Contents (Elt F) → (⟨S1, .i32⟩ : BufTy).Contents (Elt F)),
    StableHlo.binary main_v42 main_c_3 main_v43 ((fun a b => concatenate S6 0 [⟨S1, a⟩, ⟨S5, b⟩] concatenates_S1_S5_S6_d0) : (⟨S1, .i32⟩ : BufTy).Contents (Elt F) → (⟨S5, .i32⟩ : BufTy).Contents (Elt F) → (⟨S6, .i32⟩ : BufTy).Contents (Elt F)),
    StableHlo.unary main_v43 main_v44 (broadcastInDim S6x1x1 ![0] bcast_S6_S6x1x1_0 : (⟨S6, .i32⟩ : BufTy).Contents (Elt F) → (⟨S6x1x1, .i32⟩ : BufTy).Contents (Elt F)),
    StableHlo.unary main_v44 main_v45 (broadcastInDim S6x65536x8 ![0, 1, 2] bcast_S6x1x1_S6x65536x8_0_1_2 : (⟨S6x1x1, .i32⟩ : BufTy).Contents (Elt F) → (⟨S6x65536x8, .i32⟩ : BufTy).Contents (Elt F)),
    StableHlo.binary main_v41 main_v45 main_v46 (addi : (⟨S6x65536x8, .i32⟩ : BufTy).Contents (Elt F) → (⟨S6x65536x8, .i32⟩ : BufTy).Contents (Elt F) → (⟨S6x65536x8, .i32⟩ : BufTy).Contents (Elt F)),
    StableHlo.unary main_v21 main_v47 ((extractStridedSlice S10x65536x8x3 ![6, 0, 0, 0] · slices_S16x65536x8x3_S10x65536x8x3_6_0_0_0) : (⟨S16x65536x8x3, .i32⟩ : BufTy).Contents (Elt F) → (⟨S10x65536x8x3, .i32⟩ : BufTy).Contents (Elt F)),
    StableHlo.unary main_v47 main_v48 ((extractStridedSlice S10x65536x8x1 ![0, 0, 0, 0] · slices_S10x65536x8x3_S10x65536x8x1_0_0_0_0) : (⟨S10x65536x8x3, .i32⟩ : BufTy).Contents (Elt F) → (⟨S10x65536x8x1, .i32⟩ : BufTy).Contents (Elt F)),
    StableHlo.reshape main_v48 main_v49 rfl shapeCasts_S10x65536x8x1_S10x65536x8,
    StableHlo.nullary main_c_7 (constantI S_ 32 1#32) ]

/-- 15 operations: window 1, item 0. -/
abbrev main_part1_ops0 : List (HloOp τ sig (Elt F)) :=
  [ StableHlo.unary main_c_7 main_v50 (broadcastInDim S10x65536x8 ![] bcast_S_S10x65536x8 : (⟨S_, .i32⟩ : BufTy).Contents (Elt F) → (⟨S10x65536x8, .i32⟩ : BufTy).Contents (Elt F)),
    StableHlo.binary main_v49 main_v50 main_v51 (muli : (⟨S10x65536x8, .i32⟩ : BufTy).Contents (Elt F) → (⟨S10x65536x8, .i32⟩ : BufTy).Contents (Elt F) → (⟨S10x65536x8, .i32⟩ : BufTy).Contents (Elt F)),
    StableHlo.unary main_v47 main_v52 ((extractStridedSlice S10x65536x8x1 ![0, 0, 0, 1] · slices_S10x65536x8x3_S10x65536x8x1_0_0_0_1) : (⟨S10x65536x8x3, .i32⟩ : BufTy).Contents (Elt F) → (⟨S10x65536x8x1, .i32⟩ : BufTy).Contents (Elt F)),
    StableHlo.reshape main_v52 main_v53 rfl shapeCasts_S10x65536x8x1_S10x65536x8,
    StableHlo.nullary main_c_8 (constantI S_ 32 19349663#32),
    StableHlo.unary main_c_8 main_v54 (broadcastInDim S10x65536x8 ![] bcast_S_S10x65536x8 : (⟨S_, .i32⟩ : BufTy).Contents (Elt F) → (⟨S10x65536x8, .i32⟩ : BufTy).Contents (Elt F)),
    StableHlo.binary main_v53 main_v54 main_v55 (muli : (⟨S10x65536x8, .i32⟩ : BufTy).Contents (Elt F) → (⟨S10x65536x8, .i32⟩ : BufTy).Contents (Elt F) → (⟨S10x65536x8, .i32⟩ : BufTy).Contents (Elt F)),
    StableHlo.binary main_v51 main_v55 main_v56 (xori : (⟨S10x65536x8, .i32⟩ : BufTy).Contents (Elt F) → (⟨S10x65536x8, .i32⟩ : BufTy).Contents (Elt F) → (⟨S10x65536x8, .i32⟩ : BufTy).Contents (Elt F)),
    StableHlo.unary main_v47 main_v57 ((extractStridedSlice S10x65536x8x1 ![0, 0, 0, 2] · slices_S10x65536x8x3_S10x65536x8x1_0_0_0_2) : (⟨S10x65536x8x3, .i32⟩ : BufTy).Contents (Elt F) → (⟨S10x65536x8x1, .i32⟩ : BufTy).Contents (Elt F)),
    StableHlo.reshape main_v57 main_v58 rfl shapeCasts_S10x65536x8x1_S10x65536x8,
    StableHlo.nullary main_c_9 (constantI S_ 32 83492791#32),
    StableHlo.unary main_c_9 main_v59 (broadcastInDim S10x65536x8 ![] bcast_S_S10x65536x8 : (⟨S_, .i32⟩ : BufTy).Contents (Elt F) → (⟨S10x65536x8, .i32⟩ : BufTy).Contents (Elt F)),
    StableHlo.binary main_v58 main_v59 main_v60 (muli : (⟨S10x65536x8, .i32⟩ : BufTy).Contents (Elt F) → (⟨S10x65536x8, .i32⟩ : BufTy).Contents (Elt F) → (⟨S10x65536x8, .i32⟩ : BufTy).Contents (Elt F)),
    StableHlo.binary main_v56 main_v60 main_v61 (xori : (⟨S10x65536x8, .i32⟩ : BufTy).Contents (Elt F) → (⟨S10x65536x8, .i32⟩ : BufTy).Contents (Elt F) → (⟨S10x65536x8, .i32⟩ : BufTy).Contents (Elt F)),
    StableHlo.nullary main_c_10 (constantI S_ 32 1048583#32) ]

/-- 21 operations: window 1, item 1 (the operations of one call of @remainder). -/
abbrev main_part1_ops1 : List (HloOp τ sig (Elt F)) :=
  [ StableHlo.TRef.unary (.of main_c_10 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S10x65536x8, .i32⟩) (broadcastInDim S10x65536x8 ![] bcast_S_S10x65536x8),
    StableHlo.TRef.binary (.of main_v61 : StableHlo.TRef sig ⟨S10x65536x8, .i32⟩) (.of main_call1_v3 : StableHlo.TRef sig ⟨S10x65536x8, .i32⟩) (.of main_call1_v4 : StableHlo.TRef sig ⟨S10x65536x8, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S10x65536x8, .i32⟩) (broadcastInDim S10x65536x8 ![] bcast_S_S10x65536x8),
    StableHlo.TRef.binary (.of main_call1_v4 : StableHlo.TRef sig ⟨S10x65536x8, .i32⟩) (.of main_call1_v5 : StableHlo.TRef sig ⟨S10x65536x8, .i32⟩) (.of main_call1_v6 : StableHlo.TRef sig ⟨S10x65536x8, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S10x65536x8, .i32⟩) (broadcastInDim S10x65536x8 ![] bcast_S_S10x65536x8),
    StableHlo.TRef.binary (.of main_call1_v4 : StableHlo.TRef sig ⟨S10x65536x8, .i32⟩) (.of main_call1_v7 : StableHlo.TRef sig ⟨S10x65536x8, .i32⟩) (.of main_call1_v8 : StableHlo.TRef sig ⟨S10x65536x8, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S10x65536x8, .i1⟩) (broadcastInDim S10x65536x8 ![] bcast_S_S10x65536x8),
    StableHlo.TRef.binary (.of main_call1_v8 : StableHlo.TRef sig ⟨S10x65536x8, .i1⟩) (.of main_call1_v10 : StableHlo.TRef sig ⟨S10x65536x8, .i1⟩) (.of main_call1_v11 : StableHlo.TRef sig ⟨S10x65536x8, .i1⟩) (cmpi .ne),
    StableHlo.TRef.binary (.of main_call1_v11 : StableHlo.TRef sig ⟨S10x65536x8, .i1⟩) (.of main_call1_v6 : StableHlo.TRef sig ⟨S10x65536x8, .i1⟩) (.of main_call1_v12 : StableHlo.TRef sig ⟨S10x65536x8, .i1⟩) andi,
    StableHlo.TRef.unary main_call1_call0.v0 (.of main_call1_v13 : StableHlo.TRef sig ⟨S10x65536x8, .i32⟩) (broadcastInDim S10x65536x8 ![] bcast_S_S10x65536x8),
    StableHlo.TRef.binary (.of main_call1_v4 : StableHlo.TRef sig ⟨S10x65536x8, .i32⟩) (.of main_call1_v13 : StableHlo.TRef sig ⟨S10x65536x8, .i32⟩) (.of main_call1_v14 : StableHlo.TRef sig ⟨S10x65536x8, .i32⟩) addi,
    StableHlo.TRef.ternary (.of main_call1_v12 : StableHlo.TRef sig ⟨S10x65536x8, .i1⟩) (.of main_call1_v14 : StableHlo.TRef sig ⟨S10x65536x8, .i32⟩) (.of main_call1_v4 : StableHlo.TRef sig ⟨S10x65536x8, .i32⟩) (.of main_v62 : StableHlo.TRef sig ⟨S10x65536x8, .i32⟩) select ]

/-- 44 operations: window 1, item 2. -/
abbrev main_part1_ops2 : List (HloOp τ sig (Elt F)) :=
  ( StableHlo.nullary main_c_11 (constantI S_ 32 0#32)
  :: StableHlo.unary main_c_11 main_v63 (broadcastInDim S6x65536x8 ![] bcast_S_S6x65536x8 : (⟨S_, .i32⟩ : BufTy).Contents (Elt F) → (⟨S6x65536x8, .i32⟩ : BufTy).Contents (Elt F))
  :: StableHlo.binary main_v46 main_v63 main_v64 (cmpi .slt : (⟨S6x65536x8, .i32⟩ : BufTy).Contents (Elt F) → (⟨S6x65536x8, .i32⟩ : BufTy).Contents (Elt F) → (⟨S6x65536x8, .i1⟩ : BufTy).Contents (Elt F))
  :: StableHlo.nullary main_c_12 (constantI S_ 32 822944#32)
  :: StableHlo.unary main_c_12 main_v65 (broadcastInDim S6x65536x8 ![] bcast_S_S6x65536x8 : (⟨S_, .i32⟩ : BufTy).Contents (Elt F) → (⟨S6x65536x8, .i32⟩ : BufTy).Contents (Elt F))
  :: StableHlo.binary main_v46 main_v65 main_v66 (addi : (⟨S6x65536x8, .i32⟩ : BufTy).Contents (Elt F) → (⟨S6x65536x8, .i32⟩ : BufTy).Contents (Elt F) → (⟨S6x65536x8, .i32⟩ : BufTy).Contents (Elt F))
  :: StableHlo.ternary main_v64 main_v66 main_v46 main_v67 (select : (⟨S6x65536x8, .i1⟩ : BufTy).Contents (Elt F) → (⟨S6x65536x8, .i32⟩ : BufTy).Contents (Elt F) → (⟨S6x65536x8, .i32⟩ : BufTy).Contents (Elt F) → (⟨S6x65536x8, .i32⟩ : BufTy).Contents (Elt F))
  :: StableHlo.unary main_v67 main_v68 (broadcastInDim S6x65536x8x1 ![0, 1, 2] bcast_S6x65536x8_S6x65536x8x1_0_1_2 : (⟨S6x65536x8, .i32⟩ : BufTy).Contents (Elt F) → (⟨S6x65536x8x1, .i32⟩ : BufTy).Contents (Elt F))
  :: StableHlo.binary main_arg1 main_v68 main_v69 ((fun x i => Host.gather gather_S822944x16_S6x65536x8x1_S6x65536x8x16_3_0_n_n_0_3_116 x i) : (⟨S822944x16, .f32⟩ : BufTy).Contents (Elt F) → (⟨S6x65536x8x1, .i32⟩ : BufTy).Contents (Elt F) → (⟨S6x65536x8x16, .f32⟩ : BufTy).Contents (Elt F))
  :: StableHlo.nullary main_v70 (iotaInDim S10 32 0)
  :: StableHlo.unary main_v70 main_v71 (broadcastInDim S10x1x1 ![0] bcast_S10_S10x1x1_0 : (⟨S10, .i32⟩ : BufTy).Contents (Elt F) → (⟨S10x1x1, .i32⟩ : BufTy).Contents (Elt F))
  :: StableHlo.nullary main_c_13 (constantI S_ 32 0#32)
  :: StableHlo.unary main_c_13 main_v72 (broadcastInDim S10x1x1 ![] bcast_S_S10x1x1 : (⟨S_, .i32⟩ : BufTy).Contents (Elt F) → (⟨S10x1x1, .i32⟩ : BufTy).Contents (Elt F))
  :: StableHlo.binary main_v71 main_v72 main_v73 (cmpi .slt : (⟨S10x1x1, .i32⟩ : BufTy).Contents (Elt F) → (⟨S10x1x1, .i32⟩ : BufTy).Contents (Elt F) → (⟨S10x1x1, .i1⟩ : BufTy).Contents (Elt F))
  :: StableHlo.nullary main_c_14 (constantI S_ 32 10#32)
  :: StableHlo.unary main_c_14 main_v74 (broadcastInDim S10x1x1 ![] bcast_S_S10x1x1 : (⟨S_, .i32⟩ : BufTy).Contents (Elt F) → (⟨S10x1x1, .i32⟩ : BufTy).Contents (Elt F))
  :: StableHlo.binary main_v71 main_v74 main_v75 (addi : (⟨S10x1x1, .i32⟩ : BufTy).Contents (Elt F) → (⟨S10x1x1, .i32⟩ : BufTy).Contents (Elt F) → (⟨S10x1x1, .i32⟩ : BufTy).Contents (Elt F))
  :: StableHlo.ternary main_v73 main_v75 main_v71 main_v76 (select : (⟨S10x1x1, .i1⟩ : BufTy).Contents (Elt F) → (⟨S10x1x1, .i32⟩ : BufTy).Contents (Elt F) → (⟨S10x1x1, .i32⟩ : BufTy).Contents (Elt F) → (⟨S10x1x1, .i32⟩ : BufTy).Contents (Elt F))
  :: StableHlo.nullary main_c_15 (constantI S_ 32 0#32)
  :: StableHlo.unary main_c_15 main_v77 (broadcastInDim S10x65536x8 ![] bcast_S_S10x65536x8 : (⟨S_, .i32⟩ : BufTy).Contents (Elt F) → (⟨S10x65536x8, .i32⟩ : BufTy).Contents (Elt F))
  :: StableHlo.binary main_v62 main_v77 main_v78 (cmpi .slt : (⟨S10x65536x8, .i32⟩ : BufTy).Contents (Elt F) → (⟨S10x65536x8, .i32⟩ : BufTy).Contents (Elt F) → (⟨S10x65536x8, .i1⟩ : BufTy).Contents (Elt F))
  :: StableHlo.nullary main_c_16 (constantI S_ 32 1048583#32)
  :: StableHlo.unary main_c_16 main_v79 (broadcastInDim S10x65536x8 ![] bcast_S_S10x65536x8 : (⟨S_, .i32⟩ : BufTy).Contents (Elt F) → (⟨S10x65536x8, .i32⟩ : BufTy).Contents (Elt F))
  :: StableHlo.binary main_v62 main_v79 main_v80 (addi : (⟨S10x65536x8, .i32⟩ : BufTy).Contents (Elt F) → (⟨S10x65536x8, .i32⟩ : BufTy).Contents (Elt F) → (⟨S10x65536x8, .i32⟩ : BufTy).Contents (Elt F))
  :: StableHlo.ternary main_v78 main_v80 main_v62 main_v81 (select : (⟨S10x65536x8, .i1⟩ : BufTy).Contents (Elt F) → (⟨S10x65536x8, .i32⟩ : BufTy).Contents (Elt F) → (⟨S10x65536x8, .i32⟩ : BufTy).Contents (Elt F) → (⟨S10x65536x8, .i32⟩ : BufTy).Contents (Elt F))
  :: StableHlo.unary main_v76 main_v82 (broadcastInDim S10x65536x8 ![0, 1, 2] bcast_S10x1x1_S10x65536x8_0_1_2 : (⟨S10x1x1, .i32⟩ : BufTy).Contents (Elt F) → (⟨S10x65536x8, .i32⟩ : BufTy).Contents (Elt F))
  :: StableHlo.unary main_v82 main_v83 (broadcastInDim S10x65536x8x1 ![0, 1, 2] bcast_S10x65536x8_S10x65536x8x1_0_1_2 : (⟨S10x65536x8, .i32⟩ : BufTy).Contents (Elt F) → (⟨S10x65536x8x1, .i32⟩ : BufTy).Contents (Elt F))
  :: StableHlo.unary main_v81 main_v84 (broadcastInDim S10x65536x8x1 ![0, 1, 2] bcast_S10x65536x8_S10x65536x8x1_0_1_2 : (⟨S10x65536x8, .i32⟩ : BufTy).Contents (Elt F) → (⟨S10x65536x8x1, .i32⟩ : BufTy).Contents (Elt F))
  :: StableHlo.binary main_v83 main_v84 main_v85 ((fun a b => concatenate S10x65536x8x2 3 [⟨S10x65536x8x1, a⟩, ⟨S10x65536x8x1, b⟩] concatenates_S10x65536x8x1_S10x65536x8x1_S10x65536x8x2_d3) : (⟨S10x65536x8x1, .i32⟩ : BufTy).Contents (Elt F) → (⟨S10x65536x8x1, .i32⟩ : BufTy).Contents (Elt F) → (⟨S10x65536x8x2, .i32⟩ : BufTy).Contents (Elt F))
  :: StableHlo.binary main_arg2 main_v85 main_v86 ((fun x i => Host.gather gather_S10x1048583x16_S10x65536x8x2_S10x65536x8x16_3_01_n_n_01_3_1116 x i) : (⟨S10x1048583x16, .f32⟩ : BufTy).Contents (Elt F) → (⟨S10x65536x8x2, .i32⟩ : BufTy).Contents (Elt F) → (⟨S10x65536x8x16, .f32⟩ : BufTy).Contents (Elt F))
  :: StableHlo.binary main_v69 main_v86 main_v87 ((fun a b => concatenate S16x65536x8x16 0 [⟨S6x65536x8x16, a⟩, ⟨S10x65536x8x16, b⟩] concatenates_S6x65536x8x16_S10x65536x8x16_S16x65536x8x16_d0) : (⟨S6x65536x8x16, .f32⟩ : BufTy).Contents (Elt F) → (⟨S10x65536x8x16, .f32⟩ : BufTy).Contents (Elt F) → (⟨S16x65536x8x16, .f32⟩ : BufTy).Contents (Elt F))
  :: StableHlo.unary main_cst_2 main_v88 (broadcastInDim S1x1x8x3 ![2, 3] bcast_S8x3_S1x1x8x3_2_3 : (⟨S8x3, .f32⟩ : BufTy).Contents (Elt F) → (⟨S1x1x8x3, .f32⟩ : BufTy).Contents (Elt F))
  :: StableHlo.nullary main_cst_17 (constant S_ .f32 0x3F800000#32)
  :: StableHlo.unary main_cst_17 main_v89 (broadcastInDim S1x1x8x3 ![] bcast_S_S1x1x8x3 : (⟨S_, .f32⟩ : BufTy).Contents (Elt F) → (⟨S1x1x8x3, .f32⟩ : BufTy).Contents (Elt F))
  :: StableHlo.binary main_v89 main_v88 main_v90 (subf : (⟨S1x1x8x3, .f32⟩ : BufTy).Contents (Elt F) → (⟨S1x1x8x3, .f32⟩ : BufTy).Contents (Elt F) → (⟨S1x1x8x3, .f32⟩ : BufTy).Contents (Elt F))
  :: StableHlo.unary main_cst_2 main_v91 (broadcastInDim S1x1x8x3 ![2, 3] bcast_S8x3_S1x1x8x3_2_3 : (⟨S8x3, .f32⟩ : BufTy).Contents (Elt F) → (⟨S1x1x8x3, .f32⟩ : BufTy).Contents (Elt F))
  :: StableHlo.nullary main_cst_18 (constant S_ .f32 0x40000000#32)
  :: StableHlo.unary main_cst_18 main_v92 (broadcastInDim S1x1x8x3 ![] bcast_S_S1x1x8x3 : (⟨S_, .f32⟩ : BufTy).Contents (Elt F) → (⟨S1x1x8x3, .f32⟩ : BufTy).Contents (Elt F))
  :: StableHlo.binary main_v92 main_v91 main_v93 (mulf : (⟨S1x1x8x3, .f32⟩ : BufTy).Contents (Elt F) → (⟨S1x1x8x3, .f32⟩ : BufTy).Contents (Elt F) → (⟨S1x1x8x3, .f32⟩ : BufTy).Contents (Elt F))
  :: StableHlo.nullary main_cst_19 (constant S_ .f32 0x3F800000#32)
  :: StableHlo.unary main_cst_19 main_v94 (broadcastInDim S1x1x8x3 ![] bcast_S_S1x1x8x3 : (⟨S_, .f32⟩ : BufTy).Contents (Elt F) → (⟨S1x1x8x3, .f32⟩ : BufTy).Contents (Elt F))
  :: StableHlo.binary main_v93 main_v94 main_v95 (subf : (⟨S1x1x8x3, .f32⟩ : BufTy).Contents (Elt F) → (⟨S1x1x8x3, .f32⟩ : BufTy).Contents (Elt F) → (⟨S1x1x8x3, .f32⟩ : BufTy).Contents (Elt F))
  :: StableHlo.unary main_v25 main_v96 (broadcastInDim S16x65536x1x3 ![0, 1, 3] bcast_S16x65536x3_S16x65536x1x3_0_1_3 : (⟨S16x65536x3, .f32⟩ : BufTy).Contents (Elt F) → (⟨S16x65536x1x3, .f32⟩ : BufTy).Contents (Elt F))
  :: StableHlo.unary main_v95 main_v97 (broadcastInDim S16x65536x8x3 ![0, 1, 2, 3] bcast_S1x1x8x3_S16x65536x8x3_0_1_2_3 : (⟨S1x1x8x3, .f32⟩ : BufTy).Contents (Elt F) → (⟨S16x65536x8x3, .f32⟩ : BufTy).Contents (Elt F))
  :: [] )

/-- 18 operations: window 2, item 0. -/
abbrev main_part2_ops0 : List (HloOp τ sig (Elt F)) :=
  [ StableHlo.unary main_v96 main_v98 (broadcastInDim S16x65536x8x3 ![0, 1, 2, 3] bcast_S16x65536x1x3_S16x65536x8x3_0_1_2_3 : (⟨S16x65536x1x3, .f32⟩ : BufTy).Contents (Elt F) → (⟨S16x65536x8x3, .f32⟩ : BufTy).Contents (Elt F)),
    StableHlo.binary main_v97 main_v98 main_v99 (mulf : (⟨S16x65536x8x3, .f32⟩ : BufTy).Contents (Elt F) → (⟨S16x65536x8x3, .f32⟩ : BufTy).Contents (Elt F) → (⟨S16x65536x8x3, .f32⟩ : BufTy).Contents (Elt F)),
    StableHlo.unary main_v90 main_v100 (broadcastInDim S16x65536x8x3 ![0, 1, 2, 3] bcast_S1x1x8x3_S16x65536x8x3_0_1_2_3 : (⟨S1x1x8x3, .f32⟩ : BufTy).Contents (Elt F) → (⟨S16x65536x8x3, .f32⟩ : BufTy).Contents (Elt F)),
    StableHlo.binary main_v100 main_v99 main_v101 (addf : (⟨S16x65536x8x3, .f32⟩ : BufTy).Contents (Elt F) → (⟨S16x65536x8x3, .f32⟩ : BufTy).Contents (Elt F) → (⟨S16x65536x8x3, .f32⟩ : BufTy).Contents (Elt F)),
    StableHlo.unary main_v101 main_v102 ((extractStridedSlice S16x65536x8x1 ![0, 0, 0, 0] · slices_S16x65536x8x3_S16x65536x8x1_0_0_0_0) : (⟨S16x65536x8x3, .f32⟩ : BufTy).Contents (Elt F) → (⟨S16x65536x8x1, .f32⟩ : BufTy).Contents (Elt F)),
    StableHlo.reshape main_v102 main_v103 rfl shapeCasts_S16x65536x8x1_S16x65536x8,
    StableHlo.unary main_v101 main_v104 ((extractStridedSlice S16x65536x8x1 ![0, 0, 0, 1] · slices_S16x65536x8x3_S16x65536x8x1_0_0_0_1) : (⟨S16x65536x8x3, .f32⟩ : BufTy).Contents (Elt F) → (⟨S16x65536x8x1, .f32⟩ : BufTy).Contents (Elt F)),
    StableHlo.reshape main_v104 main_v105 rfl shapeCasts_S16x65536x8x1_S16x65536x8,
    StableHlo.binary main_v103 main_v105 main_v106 (mulf : (⟨S16x65536x8, .f32⟩ : BufTy).Contents (Elt F) → (⟨S16x65536x8, .f32⟩ : BufTy).Contents (Elt F) → (⟨S16x65536x8, .f32⟩ : BufTy).Contents (Elt F)),
    StableHlo.unary main_v106 main_v107 (broadcastInDim S16x65536x8x1 ![0, 1, 2] bcast_S16x65536x8_S16x65536x8x1_0_1_2 : (⟨S16x65536x8, .f32⟩ : BufTy).Contents (Elt F) → (⟨S16x65536x8x1, .f32⟩ : BufTy).Contents (Elt F)),
    StableHlo.unary main_v107 main_v108 (broadcastInDim S16x65536x8x16 ![0, 1, 2, 3] bcast_S16x65536x8x1_S16x65536x8x16_0_1_2_3 : (⟨S16x65536x8x1, .f32⟩ : BufTy).Contents (Elt F) → (⟨S16x65536x8x16, .f32⟩ : BufTy).Contents (Elt F)),
    StableHlo.binary main_v108 main_v87 main_v109 (mulf : (⟨S16x65536x8x16, .f32⟩ : BufTy).Contents (Elt F) → (⟨S16x65536x8x16, .f32⟩ : BufTy).Contents (Elt F) → (⟨S16x65536x8x16, .f32⟩ : BufTy).Contents (Elt F)),
    StableHlo.nullary main_cst_20 (constant S_ .f32 0x00000000#32),
    StableHlo.binary main_v109 main_cst_20 main_v110 ((fun x v => Host.reduceAdd x v reducesTo_S16x65536x8x16_S16x65536x16_d2 h_S_) : (⟨S16x65536x8x16, .f32⟩ : BufTy).Contents (Elt F) → (⟨S_, .f32⟩ : BufTy).Contents (Elt F) → (⟨S16x65536x16, .f32⟩ : BufTy).Contents (Elt F)),
    StableHlo.unary main_v110 main_v111 ((transpose S65536x16x16 [1, 0, 2] · transposes_S16x65536x16_S65536x16x16_1_0_2) : (⟨S16x65536x16, .f32⟩ : BufTy).Contents (Elt F) → (⟨S65536x16x16, .f32⟩ : BufTy).Contents (Elt F)),
    StableHlo.nullary main_cst_21 (constant S_ .f32 0x00000000#32),
    StableHlo.binary main_v111 main_cst_21 main_v112 ((fun x v => Host.reduceAdd x v reducesTo_S65536x16x16_S65536x16_d2 h_S_) : (⟨S65536x16x16, .f32⟩ : BufTy).Contents (Elt F) → (⟨S_, .f32⟩ : BufTy).Contents (Elt F) → (⟨S65536x16, .f32⟩ : BufTy).Contents (Elt F)),
    StableHlo.binary main_v6 main_v112 main_v113 ((fun a b => concatenate S65536x19 1 [⟨S65536x3, a⟩, ⟨S65536x16, b⟩] concatenates_S65536x3_S65536x16_S65536x19_d1) : (⟨S65536x3, .f32⟩ : BufTy).Contents (Elt F) → (⟨S65536x16, .f32⟩ : BufTy).Contents (Elt F) → (⟨S65536x19, .f32⟩ : BufTy).Contents (Elt F)) ]

/-- 29 operations: stretch 0. -/
abbrev refOps0 : List (HloOp τ sig (Elt F)) :=
  [ StableHlo.nullary main_cst (constant S3 .f32 0xC0000000#32),
    StableHlo.nullary main_cst_0 (constant S3 .f32 0x40000000#32),
    StableHlo.nullary main_cst_1 (fun i => FloatOps.ofBits .f32 (lit0 (S16.rowMajor i))),
    StableHlo.nullary main_c (fun i => lit1 (S16.rowMajor i)),
    StableHlo.nullary main_cst_2 (fun i => FloatOps.ofBits .f32 (lit2 (S8x3.rowMajor i))),
    StableHlo.nullary main_c_3 (fun i => lit3 (S5.rowMajor i)),
    StableHlo.unary main_cst main_v0 (broadcastInDim S1x3 ![1] bcast_S3_S1x3_1 : (⟨S3, .f32⟩ : BufTy).Contents (Elt F) → (⟨S1x3, .f32⟩ : BufTy).Contents (Elt F)),
    StableHlo.unary main_v0 main_v1 (broadcastInDim S65536x3 ![0, 1] bcast_S1x3_S65536x3_0_1 : (⟨S1x3, .f32⟩ : BufTy).Contents (Elt F) → (⟨S65536x3, .f32⟩ : BufTy).Contents (Elt F)),
    StableHlo.binary main_arg0 main_v1 main_v2 (subf : (⟨S65536x3, .f32⟩ : BufTy).Contents (Elt F) → (⟨S65536x3, .f32⟩ : BufTy).Contents (Elt F) → (⟨S65536x3, .f32⟩ : BufTy).Contents (Elt F)),
    StableHlo.binary main_cst_0 main_cst main_v3 (subf : (⟨S3, .f32⟩ : BufTy).Contents (Elt F) → (⟨S3, .f32⟩ : BufTy).Contents (Elt F) → (⟨S3, .f32⟩ : BufTy).Contents (Elt F)),
    StableHlo.unary main_v3 main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S65536x3 ![0, 1] bcast_S1x3_S65536x3_0_1 : (⟨S1x3, .f32⟩ : BufTy).Contents (Elt F) → (⟨S65536x3, .f32⟩ : BufTy).Contents (Elt F)),
    StableHlo.binary main_v2 main_v5 main_v6 (Host.divf : (⟨S65536x3, .f32⟩ : BufTy).Contents (Elt F) → (⟨S65536x3, .f32⟩ : BufTy).Contents (Elt F) → (⟨S65536x3, .f32⟩ : BufTy).Contents (Elt F)),
    StableHlo.unary main_v6 main_v7 (broadcastInDim S1x65536x3 ![1, 2] bcast_S65536x3_S1x65536x3_1_2 : (⟨S65536x3, .f32⟩ : BufTy).Contents (Elt F) → (⟨S1x65536x3, .f32⟩ : BufTy).Contents (Elt F)),
    StableHlo.unary main_cst_1 main_v8 (broadcastInDim S16x1x1 ![0] bcast_S16_S16x1x1_0 : (⟨S16, .f32⟩ : BufTy).Contents (Elt F) → (⟨S16x1x1, .f32⟩ : BufTy).Contents (Elt F)),
    StableHlo.unary main_v7 main_v9 (broadcastInDim S16x65536x3 ![0, 1, 2] bcast_S1x65536x3_S16x65536x3_0_1_2 : (⟨S1x65536x3, .f32⟩ : BufTy).Contents (Elt F) → (⟨S16x65536x3, .f32⟩ : BufTy).Contents (Elt F)),
    StableHlo.unary main_v8 main_v10 (broadcastInDim S16x65536x3 ![0, 1, 2] bcast_S16x1x1_S16x65536x3_0_1_2 : (⟨S16x1x1, .f32⟩ : BufTy).Contents (Elt F) → (⟨S16x65536x3, .f32⟩ : BufTy).Contents (Elt F)),
    StableHlo.binary main_v9 main_v10 main_v11 (Host.divf : (⟨S16x65536x3, .f32⟩ : BufTy).Contents (Elt F) → (⟨S16x65536x3, .f32⟩ : BufTy).Contents (Elt F) → (⟨S16x65536x3, .f32⟩ : BufTy).Contents (Elt F)),
    StableHlo.unary main_v11 main_v12 (broadcastInDim S16x65536x1x3 ![0, 1, 3] bcast_S16x65536x3_S16x65536x1x3_0_1_3 : (⟨S16x65536x3, .f32⟩ : BufTy).Contents (Elt F) → (⟨S16x65536x1x3, .f32⟩ : BufTy).Contents (Elt F)),
    StableHlo.unary main_cst_2 main_v13 (broadcastInDim S1x1x8x3 ![2, 3] bcast_S8x3_S1x1x8x3_2_3 : (⟨S8x3, .f32⟩ : BufTy).Contents (Elt F) → (⟨S1x1x8x3, .f32⟩ : BufTy).Contents (Elt F)),
    StableHlo.unary main_v12 main_v14 (broadcastInDim S16x65536x8x3 ![0, 1, 2, 3] bcast_S16x65536x1x3_S16x65536x8x3_0_1_2_3 : (⟨S16x65536x1x3, .f32⟩ : BufTy).Contents (Elt F) → (⟨S16x65536x8x3, .f32⟩ : BufTy).Contents (Elt F)),
    StableHlo.unary main_v13 main_v15 (broadcastInDim S16x65536x8x3 ![0, 1, 2, 3] bcast_S1x1x8x3_S16x65536x8x3_0_1_2_3 : (⟨S1x1x8x3, .f32⟩ : BufTy).Contents (Elt F) → (⟨S16x65536x8x3, .f32⟩ : BufTy).Contents (Elt F)),
    StableHlo.binary main_v14 main_v15 main_v16 (addf : (⟨S16x65536x8x3, .f32⟩ : BufTy).Contents (Elt F) → (⟨S16x65536x8x3, .f32⟩ : BufTy).Contents (Elt F) → (⟨S16x65536x8x3, .f32⟩ : BufTy).Contents (Elt F)),
    StableHlo.unary main_v16 main_v17 (fptosi 32 : (⟨S16x65536x8x3, .f32⟩ : BufTy).Contents (Elt F) → (⟨S16x65536x8x3, .i32⟩ : BufTy).Contents (Elt F)),
    StableHlo.nullary main_c_4 (constantI S_ 32 1#32),
    StableHlo.unary main_c_4 main_v18 (broadcastInDim S16 ![] bcast_S_S16 : (⟨S_, .i32⟩ : BufTy).Contents (Elt F) → (⟨S16, .i32⟩ : BufTy).Contents (Elt F)),
    StableHlo.binary main_c main_v18 main_v19 (subi : (⟨S16, .i32⟩ : BufTy).Contents (Elt F) → (⟨S16, .i32⟩ : BufTy).Contents (Elt F) → (⟨S16, .i32⟩ : BufTy).Contents (Elt F)),
    StableHlo.unary main_v19 main_v20 (broadcastInDim S16x1x1x1 ![0] bcast_S16_S16x1x1x1_0 : (⟨S16, .i32⟩ : BufTy).Contents (Elt F) → (⟨S16x1x1x1, .i32⟩ : BufTy).Contents (Elt F)),
    StableHlo.nullary main_c_5 (constantI S_ 32 0#32) ]

/-- 5 operations: stretch 1 (the operations of one call of @clip). -/
abbrev refOps1 : List (HloOp τ sig (Elt F)) :=
  [ StableHlo.TRef.unary (.of main_c_5 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S16x65536x8x3, .i32⟩) (broadcastInDim S16x65536x8x3 ![] bcast_S_S16x65536x8x3),
    StableHlo.TRef.binary (.of main_call0_v1 : StableHlo.TRef sig ⟨S16x65536x8x3, .i32⟩) (.of main_v17 : StableHlo.TRef sig ⟨S16x65536x8x3, .i32⟩) (.of main_call0_v2 : StableHlo.TRef sig ⟨S16x65536x8x3, .i32⟩) maxsi,
    StableHlo.TRef.unary (.of main_v20 : StableHlo.TRef sig ⟨S16x1x1x1, .i32⟩) (.of main_call0_v3 : StableHlo.TRef sig ⟨S16x65536x8x3, .i32⟩) (broadcastInDim S16x65536x8x3 ![0, 1, 2, 3] bcast_S16x1x1x1_S16x65536x8x3_0_1_2_3),
    StableHlo.TRef.binary (.of main_call0_v3 : StableHlo.TRef sig ⟨S16x65536x8x3, .i32⟩) (.of main_call0_v2 : StableHlo.TRef sig ⟨S16x65536x8x3, .i32⟩) (.of main_v21 : StableHlo.TRef sig ⟨S16x65536x8x3, .i32⟩) minsi ]

/-- 45 operations: stretch 2. -/
abbrev refOps2 : List (HloOp τ sig (Elt F)) :=
  ( StableHlo.unary main_v21 main_v22 ((extractStridedSlice S16x65536x1x3 ![0, 0, 0, 0] · slices_S16x65536x8x3_S16x65536x1x3_0_0_0_0) : (⟨S16x65536x8x3, .i32⟩ : BufTy).Contents (Elt F) → (⟨S16x65536x1x3, .i32⟩ : BufTy).Contents (Elt F))
  :: StableHlo.reshape main_v22 main_v23 rfl shapeCasts_S16x65536x1x3_S16x65536x3
  :: StableHlo.unary main_v23 main_v24 (sitofp .f32 : (⟨S16x65536x3, .i32⟩ : BufTy).Contents (Elt F) → (⟨S16x65536x3, .f32⟩ : BufTy).Contents (Elt F))
  :: StableHlo.binary main_v11 main_v24 main_v25 (subf : (⟨S16x65536x3, .f32⟩ : BufTy).Contents (Elt F) → (⟨S16x65536x3, .f32⟩ : BufTy).Contents (Elt F) → (⟨S16x65536x3, .f32⟩ : BufTy).Contents (Elt F))
  :: StableHlo.unary main_c main_v26 ((extractStridedSlice S6 ![0] · slices_S16_S6_0) : (⟨S16, .i32⟩ : BufTy).Contents (Elt F) → (⟨S6, .i32⟩ : BufTy).Contents (Elt F))
  :: StableHlo.unary main_v26 main_v27 (broadcastInDim S6x1x1 ![0] bcast_S6_S6x1x1_0 : (⟨S6, .i32⟩ : BufTy).Contents (Elt F) → (⟨S6x1x1, .i32⟩ : BufTy).Contents (Elt F))
  :: StableHlo.unary main_v21 main_v28 ((extractStridedSlice S6x65536x8x1 ![0, 0, 0, 0] · slices_S16x65536x8x3_S6x65536x8x1_0_0_0_0) : (⟨S16x65536x8x3, .i32⟩ : BufTy).Contents (Elt F) → (⟨S6x65536x8x1, .i32⟩ : BufTy).Contents (Elt F))
  :: StableHlo.reshape main_v28 main_v29 rfl shapeCasts_S6x65536x8x1_S6x65536x8
  :: StableHlo.unary main_v27 main_v30 (broadcastInDim S6x65536x8 ![0, 1, 2] bcast_S6x1x1_S6x65536x8_0_1_2 : (⟨S6x1x1, .i32⟩ : BufTy).Contents (Elt F) → (⟨S6x65536x8, .i32⟩ : BufTy).Contents (Elt F))
  :: StableHlo.binary main_v29 main_v30 main_v31 (muli : (⟨S6x65536x8, .i32⟩ : BufTy).Contents (Elt F) → (⟨S6x65536x8, .i32⟩ : BufTy).Contents (Elt F) → (⟨S6x65536x8, .i32⟩ : BufTy).Contents (Elt F))
  :: StableHlo.unary main_v27 main_v32 (broadcastInDim S6x65536x8 ![0, 1, 2] bcast_S6x1x1_S6x65536x8_0_1_2 : (⟨S6x1x1, .i32⟩ : BufTy).Contents (Elt F) → (⟨S6x65536x8, .i32⟩ : BufTy).Contents (Elt F))
  :: StableHlo.binary main_v31 main_v32 main_v33 (muli : (⟨S6x65536x8, .i32⟩ : BufTy).Contents (Elt F) → (⟨S6x65536x8, .i32⟩ : BufTy).Contents (Elt F) → (⟨S6x65536x8, .i32⟩ : BufTy).Contents (Elt F))
  :: StableHlo.unary main_v21 main_v34 ((extractStridedSlice S6x65536x8x1 ![0, 0, 0, 1] · slices_S16x65536x8x3_S6x65536x8x1_0_0_0_1) : (⟨S16x65536x8x3, .i32⟩ : BufTy).Contents (Elt F) → (⟨S6x65536x8x1, .i32⟩ : BufTy).Contents (Elt F))
  :: StableHlo.reshape main_v34 main_v35 rfl shapeCasts_S6x65536x8x1_S6x65536x8
  :: StableHlo.unary main_v27 main_v36 (broadcastInDim S6x65536x8 ![0, 1, 2] bcast_S6x1x1_S6x65536x8_0_1_2 : (⟨S6x1x1, .i32⟩ : BufTy).Contents (Elt F) → (⟨S6x65536x8, .i32⟩ : BufTy).Contents (Elt F))
  :: StableHlo.binary main_v35 main_v36 main_v37 (muli : (⟨S6x65536x8, .i32⟩ : BufTy).Contents (Elt F) → (⟨S6x65536x8, .i32⟩ : BufTy).Contents (Elt F) → (⟨S6x65536x8, .i32⟩ : BufTy).Contents (Elt F))
  :: StableHlo.binary main_v33 main_v37 main_v38 (addi : (⟨S6x65536x8, .i32⟩ : BufTy).Contents (Elt F) → (⟨S6x65536x8, .i32⟩ : BufTy).Contents (Elt F) → (⟨S6x65536x8, .i32⟩ : BufTy).Contents (Elt F))
  :: StableHlo.unary main_v21 main_v39 ((extractStridedSlice S6x65536x8x1 ![0, 0, 0, 2] · slices_S16x65536x8x3_S6x65536x8x1_0_0_0_2) : (⟨S16x65536x8x3, .i32⟩ : BufTy).Contents (Elt F) → (⟨S6x65536x8x1, .i32⟩ : BufTy).Contents (Elt F))
  :: StableHlo.reshape main_v39 main_v40 rfl shapeCasts_S6x65536x8x1_S6x65536x8
  :: StableHlo.binary main_v38 main_v40 main_v41 (addi : (⟨S6x65536x8, .i32⟩ : BufTy).Contents (Elt F) → (⟨S6x65536x8, .i32⟩ : BufTy).Contents (Elt F) → (⟨S6x65536x8, .i32⟩ : BufTy).Contents (Elt F))
  :: StableHlo.nullary main_c_6 (constantI S_ 32 0#32)
  :: StableHlo.unary main_c_6 main_v42 (broadcastInDim S1 ![] bcast_S_S1 : (⟨S_, .i32⟩ : BufTy).Contents (Elt F) → (⟨S1, .i32⟩ : BufTy).Contents (Elt F))
  :: StableHlo.binary main_v42 main_c_3 main_v43 ((fun a b => concatenate S6 0 [⟨S1, a⟩, ⟨S5, b⟩] concatenates_S1_S5_S6_d0) : (⟨S1, .i32⟩ : BufTy).Contents (Elt F) → (⟨S5, .i32⟩ : BufTy).Contents (Elt F) → (⟨S6, .i32⟩ : BufTy).Contents (Elt F))
  :: StableHlo.unary main_v43 main_v44 (broadcastInDim S6x1x1 ![0] bcast_S6_S6x1x1_0 : (⟨S6, .i32⟩ : BufTy).Contents (Elt F) → (⟨S6x1x1, .i32⟩ : BufTy).Contents (Elt F))
  :: StableHlo.unary main_v44 main_v45 (broadcastInDim S6x65536x8 ![0, 1, 2] bcast_S6x1x1_S6x65536x8_0_1_2 : (⟨S6x1x1, .i32⟩ : BufTy).Contents (Elt F) → (⟨S6x65536x8, .i32⟩ : BufTy).Contents (Elt F))
  :: StableHlo.binary main_v41 main_v45 main_v46 (addi : (⟨S6x65536x8, .i32⟩ : BufTy).Contents (Elt F) → (⟨S6x65536x8, .i32⟩ : BufTy).Contents (Elt F) → (⟨S6x65536x8, .i32⟩ : BufTy).Contents (Elt F))
  :: StableHlo.unary main_v21 main_v47 ((extractStridedSlice S10x65536x8x3 ![6, 0, 0, 0] · slices_S16x65536x8x3_S10x65536x8x3_6_0_0_0) : (⟨S16x65536x8x3, .i32⟩ : BufTy).Contents (Elt F) → (⟨S10x65536x8x3, .i32⟩ : BufTy).Contents (Elt F))
  :: StableHlo.unary main_v47 main_v48 ((extractStridedSlice S10x65536x8x1 ![0, 0, 0, 0] · slices_S10x65536x8x3_S10x65536x8x1_0_0_0_0) : (⟨S10x65536x8x3, .i32⟩ : BufTy).Contents (Elt F) → (⟨S10x65536x8x1, .i32⟩ : BufTy).Contents (Elt F))
  :: StableHlo.reshape main_v48 main_v49 rfl shapeCasts_S10x65536x8x1_S10x65536x8
  :: StableHlo.nullary main_c_7 (constantI S_ 32 1#32)
  :: StableHlo.unary main_c_7 main_v50 (broadcastInDim S10x65536x8 ![] bcast_S_S10x65536x8 : (⟨S_, .i32⟩ : BufTy).Contents (Elt F) → (⟨S10x65536x8, .i32⟩ : BufTy).Contents (Elt F))
  :: StableHlo.binary main_v49 main_v50 main_v51 (muli : (⟨S10x65536x8, .i32⟩ : BufTy).Contents (Elt F) → (⟨S10x65536x8, .i32⟩ : BufTy).Contents (Elt F) → (⟨S10x65536x8, .i32⟩ : BufTy).Contents (Elt F))
  :: StableHlo.unary main_v47 main_v52 ((extractStridedSlice S10x65536x8x1 ![0, 0, 0, 1] · slices_S10x65536x8x3_S10x65536x8x1_0_0_0_1) : (⟨S10x65536x8x3, .i32⟩ : BufTy).Contents (Elt F) → (⟨S10x65536x8x1, .i32⟩ : BufTy).Contents (Elt F))
  :: StableHlo.reshape main_v52 main_v53 rfl shapeCasts_S10x65536x8x1_S10x65536x8
  :: StableHlo.nullary main_c_8 (constantI S_ 32 19349663#32)
  :: StableHlo.unary main_c_8 main_v54 (broadcastInDim S10x65536x8 ![] bcast_S_S10x65536x8 : (⟨S_, .i32⟩ : BufTy).Contents (Elt F) → (⟨S10x65536x8, .i32⟩ : BufTy).Contents (Elt F))
  :: StableHlo.binary main_v53 main_v54 main_v55 (muli : (⟨S10x65536x8, .i32⟩ : BufTy).Contents (Elt F) → (⟨S10x65536x8, .i32⟩ : BufTy).Contents (Elt F) → (⟨S10x65536x8, .i32⟩ : BufTy).Contents (Elt F))
  :: StableHlo.binary main_v51 main_v55 main_v56 (xori : (⟨S10x65536x8, .i32⟩ : BufTy).Contents (Elt F) → (⟨S10x65536x8, .i32⟩ : BufTy).Contents (Elt F) → (⟨S10x65536x8, .i32⟩ : BufTy).Contents (Elt F))
  :: StableHlo.unary main_v47 main_v57 ((extractStridedSlice S10x65536x8x1 ![0, 0, 0, 2] · slices_S10x65536x8x3_S10x65536x8x1_0_0_0_2) : (⟨S10x65536x8x3, .i32⟩ : BufTy).Contents (Elt F) → (⟨S10x65536x8x1, .i32⟩ : BufTy).Contents (Elt F))
  :: StableHlo.reshape main_v57 main_v58 rfl shapeCasts_S10x65536x8x1_S10x65536x8
  :: StableHlo.nullary main_c_9 (constantI S_ 32 83492791#32)
  :: StableHlo.unary main_c_9 main_v59 (broadcastInDim S10x65536x8 ![] bcast_S_S10x65536x8 : (⟨S_, .i32⟩ : BufTy).Contents (Elt F) → (⟨S10x65536x8, .i32⟩ : BufTy).Contents (Elt F))
  :: StableHlo.binary main_v58 main_v59 main_v60 (muli : (⟨S10x65536x8, .i32⟩ : BufTy).Contents (Elt F) → (⟨S10x65536x8, .i32⟩ : BufTy).Contents (Elt F) → (⟨S10x65536x8, .i32⟩ : BufTy).Contents (Elt F))
  :: StableHlo.binary main_v56 main_v60 main_v61 (xori : (⟨S10x65536x8, .i32⟩ : BufTy).Contents (Elt F) → (⟨S10x65536x8, .i32⟩ : BufTy).Contents (Elt F) → (⟨S10x65536x8, .i32⟩ : BufTy).Contents (Elt F))
  :: StableHlo.nullary main_c_10 (constantI S_ 32 1048583#32)
  :: [] )

/-- 21 operations: stretch 3 (the operations of one call of @remainder). -/
abbrev refOps3 : List (HloOp τ sig (Elt F)) :=
  [ StableHlo.TRef.unary (.of main_c_10 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S10x65536x8, .i32⟩) (broadcastInDim S10x65536x8 ![] bcast_S_S10x65536x8),
    StableHlo.TRef.binary (.of main_v61 : StableHlo.TRef sig ⟨S10x65536x8, .i32⟩) (.of main_call1_v3 : StableHlo.TRef sig ⟨S10x65536x8, .i32⟩) (.of main_call1_v4 : StableHlo.TRef sig ⟨S10x65536x8, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S10x65536x8, .i32⟩) (broadcastInDim S10x65536x8 ![] bcast_S_S10x65536x8),
    StableHlo.TRef.binary (.of main_call1_v4 : StableHlo.TRef sig ⟨S10x65536x8, .i32⟩) (.of main_call1_v5 : StableHlo.TRef sig ⟨S10x65536x8, .i32⟩) (.of main_call1_v6 : StableHlo.TRef sig ⟨S10x65536x8, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S10x65536x8, .i32⟩) (broadcastInDim S10x65536x8 ![] bcast_S_S10x65536x8),
    StableHlo.TRef.binary (.of main_call1_v4 : StableHlo.TRef sig ⟨S10x65536x8, .i32⟩) (.of main_call1_v7 : StableHlo.TRef sig ⟨S10x65536x8, .i32⟩) (.of main_call1_v8 : StableHlo.TRef sig ⟨S10x65536x8, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S10x65536x8, .i1⟩) (broadcastInDim S10x65536x8 ![] bcast_S_S10x65536x8),
    StableHlo.TRef.binary (.of main_call1_v8 : StableHlo.TRef sig ⟨S10x65536x8, .i1⟩) (.of main_call1_v10 : StableHlo.TRef sig ⟨S10x65536x8, .i1⟩) (.of main_call1_v11 : StableHlo.TRef sig ⟨S10x65536x8, .i1⟩) (cmpi .ne),
    StableHlo.TRef.binary (.of main_call1_v11 : StableHlo.TRef sig ⟨S10x65536x8, .i1⟩) (.of main_call1_v6 : StableHlo.TRef sig ⟨S10x65536x8, .i1⟩) (.of main_call1_v12 : StableHlo.TRef sig ⟨S10x65536x8, .i1⟩) andi,
    StableHlo.TRef.unary main_call1_call0.v0 (.of main_call1_v13 : StableHlo.TRef sig ⟨S10x65536x8, .i32⟩) (broadcastInDim S10x65536x8 ![] bcast_S_S10x65536x8),
    StableHlo.TRef.binary (.of main_call1_v4 : StableHlo.TRef sig ⟨S10x65536x8, .i32⟩) (.of main_call1_v13 : StableHlo.TRef sig ⟨S10x65536x8, .i32⟩) (.of main_call1_v14 : StableHlo.TRef sig ⟨S10x65536x8, .i32⟩) addi,
    StableHlo.TRef.ternary (.of main_call1_v12 : StableHlo.TRef sig ⟨S10x65536x8, .i1⟩) (.of main_call1_v14 : StableHlo.TRef sig ⟨S10x65536x8, .i32⟩) (.of main_call1_v4 : StableHlo.TRef sig ⟨S10x65536x8, .i32⟩) (.of main_v62 : StableHlo.TRef sig ⟨S10x65536x8, .i32⟩) select ]

/-- 62 operations: stretch 4. -/
abbrev refOps4 : List (HloOp τ sig (Elt F)) :=
  ( StableHlo.nullary main_c_11 (constantI S_ 32 0#32)
  :: StableHlo.unary main_c_11 main_v63 (broadcastInDim S6x65536x8 ![] bcast_S_S6x65536x8 : (⟨S_, .i32⟩ : BufTy).Contents (Elt F) → (⟨S6x65536x8, .i32⟩ : BufTy).Contents (Elt F))
  :: StableHlo.binary main_v46 main_v63 main_v64 (cmpi .slt : (⟨S6x65536x8, .i32⟩ : BufTy).Contents (Elt F) → (⟨S6x65536x8, .i32⟩ : BufTy).Contents (Elt F) → (⟨S6x65536x8, .i1⟩ : BufTy).Contents (Elt F))
  :: StableHlo.nullary main_c_12 (constantI S_ 32 822944#32)
  :: StableHlo.unary main_c_12 main_v65 (broadcastInDim S6x65536x8 ![] bcast_S_S6x65536x8 : (⟨S_, .i32⟩ : BufTy).Contents (Elt F) → (⟨S6x65536x8, .i32⟩ : BufTy).Contents (Elt F))
  :: StableHlo.binary main_v46 main_v65 main_v66 (addi : (⟨S6x65536x8, .i32⟩ : BufTy).Contents (Elt F) → (⟨S6x65536x8, .i32⟩ : BufTy).Contents (Elt F) → (⟨S6x65536x8, .i32⟩ : BufTy).Contents (Elt F))
  :: StableHlo.ternary main_v64 main_v66 main_v46 main_v67 (select : (⟨S6x65536x8, .i1⟩ : BufTy).Contents (Elt F) → (⟨S6x65536x8, .i32⟩ : BufTy).Contents (Elt F) → (⟨S6x65536x8, .i32⟩ : BufTy).Contents (Elt F) → (⟨S6x65536x8, .i32⟩ : BufTy).Contents (Elt F))
  :: StableHlo.unary main_v67 main_v68 (broadcastInDim S6x65536x8x1 ![0, 1, 2] bcast_S6x65536x8_S6x65536x8x1_0_1_2 : (⟨S6x65536x8, .i32⟩ : BufTy).Contents (Elt F) → (⟨S6x65536x8x1, .i32⟩ : BufTy).Contents (Elt F))
  :: StableHlo.binary main_arg1 main_v68 main_v69 ((fun x i => Host.gather gather_S822944x16_S6x65536x8x1_S6x65536x8x16_3_0_n_n_0_3_116 x i) : (⟨S822944x16, .f32⟩ : BufTy).Contents (Elt F) → (⟨S6x65536x8x1, .i32⟩ : BufTy).Contents (Elt F) → (⟨S6x65536x8x16, .f32⟩ : BufTy).Contents (Elt F))
  :: StableHlo.nullary main_v70 (iotaInDim S10 32 0)
  :: StableHlo.unary main_v70 main_v71 (broadcastInDim S10x1x1 ![0] bcast_S10_S10x1x1_0 : (⟨S10, .i32⟩ : BufTy).Contents (Elt F) → (⟨S10x1x1, .i32⟩ : BufTy).Contents (Elt F))
  :: StableHlo.nullary main_c_13 (constantI S_ 32 0#32)
  :: StableHlo.unary main_c_13 main_v72 (broadcastInDim S10x1x1 ![] bcast_S_S10x1x1 : (⟨S_, .i32⟩ : BufTy).Contents (Elt F) → (⟨S10x1x1, .i32⟩ : BufTy).Contents (Elt F))
  :: StableHlo.binary main_v71 main_v72 main_v73 (cmpi .slt : (⟨S10x1x1, .i32⟩ : BufTy).Contents (Elt F) → (⟨S10x1x1, .i32⟩ : BufTy).Contents (Elt F) → (⟨S10x1x1, .i1⟩ : BufTy).Contents (Elt F))
  :: StableHlo.nullary main_c_14 (constantI S_ 32 10#32)
  :: StableHlo.unary main_c_14 main_v74 (broadcastInDim S10x1x1 ![] bcast_S_S10x1x1 : (⟨S_, .i32⟩ : BufTy).Contents (Elt F) → (⟨S10x1x1, .i32⟩ : BufTy).Contents (Elt F))
  :: StableHlo.binary main_v71 main_v74 main_v75 (addi : (⟨S10x1x1, .i32⟩ : BufTy).Contents (Elt F) → (⟨S10x1x1, .i32⟩ : BufTy).Contents (Elt F) → (⟨S10x1x1, .i32⟩ : BufTy).Contents (Elt F))
  :: StableHlo.ternary main_v73 main_v75 main_v71 main_v76 (select : (⟨S10x1x1, .i1⟩ : BufTy).Contents (Elt F) → (⟨S10x1x1, .i32⟩ : BufTy).Contents (Elt F) → (⟨S10x1x1, .i32⟩ : BufTy).Contents (Elt F) → (⟨S10x1x1, .i32⟩ : BufTy).Contents (Elt F))
  :: StableHlo.nullary main_c_15 (constantI S_ 32 0#32)
  :: StableHlo.unary main_c_15 main_v77 (broadcastInDim S10x65536x8 ![] bcast_S_S10x65536x8 : (⟨S_, .i32⟩ : BufTy).Contents (Elt F) → (⟨S10x65536x8, .i32⟩ : BufTy).Contents (Elt F))
  :: StableHlo.binary main_v62 main_v77 main_v78 (cmpi .slt : (⟨S10x65536x8, .i32⟩ : BufTy).Contents (Elt F) → (⟨S10x65536x8, .i32⟩ : BufTy).Contents (Elt F) → (⟨S10x65536x8, .i1⟩ : BufTy).Contents (Elt F))
  :: StableHlo.nullary main_c_16 (constantI S_ 32 1048583#32)
  :: StableHlo.unary main_c_16 main_v79 (broadcastInDim S10x65536x8 ![] bcast_S_S10x65536x8 : (⟨S_, .i32⟩ : BufTy).Contents (Elt F) → (⟨S10x65536x8, .i32⟩ : BufTy).Contents (Elt F))
  :: StableHlo.binary main_v62 main_v79 main_v80 (addi : (⟨S10x65536x8, .i32⟩ : BufTy).Contents (Elt F) → (⟨S10x65536x8, .i32⟩ : BufTy).Contents (Elt F) → (⟨S10x65536x8, .i32⟩ : BufTy).Contents (Elt F))
  :: StableHlo.ternary main_v78 main_v80 main_v62 main_v81 (select : (⟨S10x65536x8, .i1⟩ : BufTy).Contents (Elt F) → (⟨S10x65536x8, .i32⟩ : BufTy).Contents (Elt F) → (⟨S10x65536x8, .i32⟩ : BufTy).Contents (Elt F) → (⟨S10x65536x8, .i32⟩ : BufTy).Contents (Elt F))
  :: StableHlo.unary main_v76 main_v82 (broadcastInDim S10x65536x8 ![0, 1, 2] bcast_S10x1x1_S10x65536x8_0_1_2 : (⟨S10x1x1, .i32⟩ : BufTy).Contents (Elt F) → (⟨S10x65536x8, .i32⟩ : BufTy).Contents (Elt F))
  :: StableHlo.unary main_v82 main_v83 (broadcastInDim S10x65536x8x1 ![0, 1, 2] bcast_S10x65536x8_S10x65536x8x1_0_1_2 : (⟨S10x65536x8, .i32⟩ : BufTy).Contents (Elt F) → (⟨S10x65536x8x1, .i32⟩ : BufTy).Contents (Elt F))
  :: StableHlo.unary main_v81 main_v84 (broadcastInDim S10x65536x8x1 ![0, 1, 2] bcast_S10x65536x8_S10x65536x8x1_0_1_2 : (⟨S10x65536x8, .i32⟩ : BufTy).Contents (Elt F) → (⟨S10x65536x8x1, .i32⟩ : BufTy).Contents (Elt F))
  :: StableHlo.binary main_v83 main_v84 main_v85 ((fun a b => concatenate S10x65536x8x2 3 [⟨S10x65536x8x1, a⟩, ⟨S10x65536x8x1, b⟩] concatenates_S10x65536x8x1_S10x65536x8x1_S10x65536x8x2_d3) : (⟨S10x65536x8x1, .i32⟩ : BufTy).Contents (Elt F) → (⟨S10x65536x8x1, .i32⟩ : BufTy).Contents (Elt F) → (⟨S10x65536x8x2, .i32⟩ : BufTy).Contents (Elt F))
  :: StableHlo.binary main_arg2 main_v85 main_v86 ((fun x i => Host.gather gather_S10x1048583x16_S10x65536x8x2_S10x65536x8x16_3_01_n_n_01_3_1116 x i) : (⟨S10x1048583x16, .f32⟩ : BufTy).Contents (Elt F) → (⟨S10x65536x8x2, .i32⟩ : BufTy).Contents (Elt F) → (⟨S10x65536x8x16, .f32⟩ : BufTy).Contents (Elt F))
  :: StableHlo.binary main_v69 main_v86 main_v87 ((fun a b => concatenate S16x65536x8x16 0 [⟨S6x65536x8x16, a⟩, ⟨S10x65536x8x16, b⟩] concatenates_S6x65536x8x16_S10x65536x8x16_S16x65536x8x16_d0) : (⟨S6x65536x8x16, .f32⟩ : BufTy).Contents (Elt F) → (⟨S10x65536x8x16, .f32⟩ : BufTy).Contents (Elt F) → (⟨S16x65536x8x16, .f32⟩ : BufTy).Contents (Elt F))
  :: StableHlo.unary main_cst_2 main_v88 (broadcastInDim S1x1x8x3 ![2, 3] bcast_S8x3_S1x1x8x3_2_3 : (⟨S8x3, .f32⟩ : BufTy).Contents (Elt F) → (⟨S1x1x8x3, .f32⟩ : BufTy).Contents (Elt F))
  :: StableHlo.nullary main_cst_17 (constant S_ .f32 0x3F800000#32)
  :: StableHlo.unary main_cst_17 main_v89 (broadcastInDim S1x1x8x3 ![] bcast_S_S1x1x8x3 : (⟨S_, .f32⟩ : BufTy).Contents (Elt F) → (⟨S1x1x8x3, .f32⟩ : BufTy).Contents (Elt F))
  :: StableHlo.binary main_v89 main_v88 main_v90 (subf : (⟨S1x1x8x3, .f32⟩ : BufTy).Contents (Elt F) → (⟨S1x1x8x3, .f32⟩ : BufTy).Contents (Elt F) → (⟨S1x1x8x3, .f32⟩ : BufTy).Contents (Elt F))
  :: StableHlo.unary main_cst_2 main_v91 (broadcastInDim S1x1x8x3 ![2, 3] bcast_S8x3_S1x1x8x3_2_3 : (⟨S8x3, .f32⟩ : BufTy).Contents (Elt F) → (⟨S1x1x8x3, .f32⟩ : BufTy).Contents (Elt F))
  :: StableHlo.nullary main_cst_18 (constant S_ .f32 0x40000000#32)
  :: StableHlo.unary main_cst_18 main_v92 (broadcastInDim S1x1x8x3 ![] bcast_S_S1x1x8x3 : (⟨S_, .f32⟩ : BufTy).Contents (Elt F) → (⟨S1x1x8x3, .f32⟩ : BufTy).Contents (Elt F))
  :: StableHlo.binary main_v92 main_v91 main_v93 (mulf : (⟨S1x1x8x3, .f32⟩ : BufTy).Contents (Elt F) → (⟨S1x1x8x3, .f32⟩ : BufTy).Contents (Elt F) → (⟨S1x1x8x3, .f32⟩ : BufTy).Contents (Elt F))
  :: StableHlo.nullary main_cst_19 (constant S_ .f32 0x3F800000#32)
  :: StableHlo.unary main_cst_19 main_v94 (broadcastInDim S1x1x8x3 ![] bcast_S_S1x1x8x3 : (⟨S_, .f32⟩ : BufTy).Contents (Elt F) → (⟨S1x1x8x3, .f32⟩ : BufTy).Contents (Elt F))
  :: StableHlo.binary main_v93 main_v94 main_v95 (subf : (⟨S1x1x8x3, .f32⟩ : BufTy).Contents (Elt F) → (⟨S1x1x8x3, .f32⟩ : BufTy).Contents (Elt F) → (⟨S1x1x8x3, .f32⟩ : BufTy).Contents (Elt F))
  :: StableHlo.unary main_v25 main_v96 (broadcastInDim S16x65536x1x3 ![0, 1, 3] bcast_S16x65536x3_S16x65536x1x3_0_1_3 : (⟨S16x65536x3, .f32⟩ : BufTy).Contents (Elt F) → (⟨S16x65536x1x3, .f32⟩ : BufTy).Contents (Elt F))
  :: StableHlo.unary main_v95 main_v97 (broadcastInDim S16x65536x8x3 ![0, 1, 2, 3] bcast_S1x1x8x3_S16x65536x8x3_0_1_2_3 : (⟨S1x1x8x3, .f32⟩ : BufTy).Contents (Elt F) → (⟨S16x65536x8x3, .f32⟩ : BufTy).Contents (Elt F))
  :: StableHlo.unary main_v96 main_v98 (broadcastInDim S16x65536x8x3 ![0, 1, 2, 3] bcast_S16x65536x1x3_S16x65536x8x3_0_1_2_3 : (⟨S16x65536x1x3, .f32⟩ : BufTy).Contents (Elt F) → (⟨S16x65536x8x3, .f32⟩ : BufTy).Contents (Elt F))
  :: StableHlo.binary main_v97 main_v98 main_v99 (mulf : (⟨S16x65536x8x3, .f32⟩ : BufTy).Contents (Elt F) → (⟨S16x65536x8x3, .f32⟩ : BufTy).Contents (Elt F) → (⟨S16x65536x8x3, .f32⟩ : BufTy).Contents (Elt F))
  :: StableHlo.unary main_v90 main_v100 (broadcastInDim S16x65536x8x3 ![0, 1, 2, 3] bcast_S1x1x8x3_S16x65536x8x3_0_1_2_3 : (⟨S1x1x8x3, .f32⟩ : BufTy).Contents (Elt F) → (⟨S16x65536x8x3, .f32⟩ : BufTy).Contents (Elt F))
  :: StableHlo.binary main_v100 main_v99 main_v101 (addf : (⟨S16x65536x8x3, .f32⟩ : BufTy).Contents (Elt F) → (⟨S16x65536x8x3, .f32⟩ : BufTy).Contents (Elt F) → (⟨S16x65536x8x3, .f32⟩ : BufTy).Contents (Elt F))
  :: StableHlo.unary main_v101 main_v102 ((extractStridedSlice S16x65536x8x1 ![0, 0, 0, 0] · slices_S16x65536x8x3_S16x65536x8x1_0_0_0_0) : (⟨S16x65536x8x3, .f32⟩ : BufTy).Contents (Elt F) → (⟨S16x65536x8x1, .f32⟩ : BufTy).Contents (Elt F))
  :: StableHlo.reshape main_v102 main_v103 rfl shapeCasts_S16x65536x8x1_S16x65536x8
  :: StableHlo.unary main_v101 main_v104 ((extractStridedSlice S16x65536x8x1 ![0, 0, 0, 1] · slices_S16x65536x8x3_S16x65536x8x1_0_0_0_1) : (⟨S16x65536x8x3, .f32⟩ : BufTy).Contents (Elt F) → (⟨S16x65536x8x1, .f32⟩ : BufTy).Contents (Elt F))
  :: StableHlo.reshape main_v104 main_v105 rfl shapeCasts_S16x65536x8x1_S16x65536x8
  :: StableHlo.binary main_v103 main_v105 main_v106 (mulf : (⟨S16x65536x8, .f32⟩ : BufTy).Contents (Elt F) → (⟨S16x65536x8, .f32⟩ : BufTy).Contents (Elt F) → (⟨S16x65536x8, .f32⟩ : BufTy).Contents (Elt F))
  :: StableHlo.unary main_v106 main_v107 (broadcastInDim S16x65536x8x1 ![0, 1, 2] bcast_S16x65536x8_S16x65536x8x1_0_1_2 : (⟨S16x65536x8, .f32⟩ : BufTy).Contents (Elt F) → (⟨S16x65536x8x1, .f32⟩ : BufTy).Contents (Elt F))
  :: StableHlo.unary main_v107 main_v108 (broadcastInDim S16x65536x8x16 ![0, 1, 2, 3] bcast_S16x65536x8x1_S16x65536x8x16_0_1_2_3 : (⟨S16x65536x8x1, .f32⟩ : BufTy).Contents (Elt F) → (⟨S16x65536x8x16, .f32⟩ : BufTy).Contents (Elt F))
  :: StableHlo.binary main_v108 main_v87 main_v109 (mulf : (⟨S16x65536x8x16, .f32⟩ : BufTy).Contents (Elt F) → (⟨S16x65536x8x16, .f32⟩ : BufTy).Contents (Elt F) → (⟨S16x65536x8x16, .f32⟩ : BufTy).Contents (Elt F))
  :: StableHlo.nullary main_cst_20 (constant S_ .f32 0x00000000#32)
  :: StableHlo.binary main_v109 main_cst_20 main_v110 ((fun x v => Host.reduceAdd x v reducesTo_S16x65536x8x16_S16x65536x16_d2 h_S_) : (⟨S16x65536x8x16, .f32⟩ : BufTy).Contents (Elt F) → (⟨S_, .f32⟩ : BufTy).Contents (Elt F) → (⟨S16x65536x16, .f32⟩ : BufTy).Contents (Elt F))
  :: StableHlo.unary main_v110 main_v111 ((transpose S65536x16x16 [1, 0, 2] · transposes_S16x65536x16_S65536x16x16_1_0_2) : (⟨S16x65536x16, .f32⟩ : BufTy).Contents (Elt F) → (⟨S65536x16x16, .f32⟩ : BufTy).Contents (Elt F))
  :: StableHlo.nullary main_cst_21 (constant S_ .f32 0x00000000#32)
  :: StableHlo.binary main_v111 main_cst_21 main_v112 ((fun x v => Host.reduceAdd x v reducesTo_S65536x16x16_S65536x16_d2 h_S_) : (⟨S65536x16x16, .f32⟩ : BufTy).Contents (Elt F) → (⟨S_, .f32⟩ : BufTy).Contents (Elt F) → (⟨S65536x16, .f32⟩ : BufTy).Contents (Elt F))
  :: StableHlo.binary main_v6 main_v112 main_v113 ((fun a b => concatenate S65536x19 1 [⟨S65536x3, a⟩, ⟨S65536x16, b⟩] concatenates_S65536x3_S65536x16_S65536x19_d1) : (⟨S65536x3, .f32⟩ : BufTy).Contents (Elt F) → (⟨S65536x16, .f32⟩ : BufTy).Contents (Elt F) → (⟨S65536x19, .f32⟩ : BufTy).Contents (Elt F))
  :: [] )

end Cert.ReferenceIdeal.Hand

end
-- ==== Proof.RefRun.lean ====
/-
  The reference program's run, read back as the fold of its operations.

  The reference is a straight line of tensor operations: each of its three printed windows is, by unfolding, the
  sequence of that window's operation lists (a call of an outlined function being the sequence of the function's own
  operations over the call's buffers), the whole program is therefore the sequence of all 162 operations in order, and
  every weakly fair execution ends with each buffer holding the fold of the operations' results over what the launch
  put there. No operation writes an argument, so the three arguments end as they began.
-/
import proofs.«118521_j721554506107_2_alg».proof.Proof.RefOps
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The programs' type: a TensorCore program over the reference's (empty) table of kernel regions. -/
abbrev RefProg (F : FTy → Type) [FloatOps F] : Type 1 :=
  Prog (TpuEff nD τ sig (Elt F) (Pipeline.Sig Λ₀ (Fin 0) fun p => (pcfgs (F := F) p).Adm) .tc) PUnit

/-- The last window (statements 121 … 139) is the sequence of its 18 operations: the printed block unfolds to the
    recursion of `seq`, statement by statement, down to the closing return. -/
theorem main_part2_chain (c : Dev nD) : main_part2 (F := F) c = (Pipeline.chain
    [ StableHlo.seq main_part2_ops0 ] : RefProg F) := by
  chain_rfl

/-- Window 0 (statements 1 … 60): 29 operations, the clamp's 5 over its call's buffers, and 30 more, the last statement
    in tail position. A call of an outlined function unfolds to the sequence of that function's operations. -/
theorem main_part0_chain (c : Dev nD) : main_part0 (F := F) c = (Pipeline.chainK
    [ StableHlo.seq main_part0_ops0,
      StableHlo.seq main_part0_ops1 ]
    (StableHlo.seq main_part0_ops2) : RefProg F) := by
  chain_rfl

/-- Window 1 (statements 61 … 120): 15 operations, the floored remainder's 21 (its select among them) over its call's
    buffers, and 44 more, the last statement in tail position. -/
theorem main_part1_chain (c : Dev nD) : main_part1 (F := F) c = (Pipeline.chainK
    [ StableHlo.seq main_part1_ops0,
      StableHlo.seq main_part1_ops1 ]
    (StableHlo.seq main_part1_ops2) : RefProg F) := by
  chain_rfl

/-- The program is its three windows in order, hence the sequence of its five stretches: before the clamp, the clamp,
    up to the remainder, the remainder, the rest (a stretch that a window boundary cuts is one stretch here). -/
theorem main_chain (c : Dev nD) : main (F := F) c = (Pipeline.chain
    [ StableHlo.seq refOps0,
      StableHlo.seq refOps1,
      StableHlo.seq refOps2,
      StableHlo.seq refOps3,
      StableHlo.seq refOps4 ] : RefProg F) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- Five lines run one after the other are their concatenation run as one. -/
theorem chain_seq5 {nD : Nat} {τ : Topo} {sig : RefSig} {Val : EltTy → Type} {Λ : Labels}
    (a b c d e : List (HloOp τ sig Val)) :
    (Pipeline.chain [StableHlo.seq a, StableHlo.seq b, StableHlo.seq c, StableHlo.seq d, StableHlo.seq e] :
        Prog (TpuEff nD τ sig Val Λ .tc) PUnit)
      = StableHlo.seq (a ++ (b ++ (c ++ (d ++ e)))) := by
  simp only [Pipeline.chain_cons, Pipeline.chain_nil, seq_append, bind_pure_unit]

/-- The reference's 162 operations, in order. -/
abbrev refOps : List (HloOp τ sig (Elt F)) := refOps0 ++ (refOps1 ++ (refOps2 ++ (refOps3 ++ refOps4)))

/-- The reference program is the sequence of its operations. -/
theorem main_eq (c : Dev nD) : main (F := F) c = StableHlo.seq refOps :=
  (main_chain c).trans (chain_seq5 refOps0 refOps1 refOps2 refOps3 refOps4)

/-! ## The side conditions of the run, stretch by stretch

Each operation touches TensorCore references only, determines its result (none allocates), and writes one reference,
its result's, which is never one of the three arguments. Stated per stretch over the literal list, then joined over
the concatenation. -/

/-- The operation writes none of the three arguments. -/
abbrev KeepsArgs (op : HloOp τ sig (Elt F)) : Prop :=
  Proc.devRef (τ := τ) .tc main_arg0 ∉ op.writes ∧ Proc.devRef (τ := τ) .tc main_arg1 ∉ op.writes
    ∧ Proc.devRef (τ := τ) .tc main_arg2 ∉ op.writes

/-- Each operation writes the one reference of its result; that reference differs from each argument, which is
    decided on the references. -/
local macro "keeps_args" : tactic => `(tactic| (
  simp only [List.Forall, KeepsArgs, nullary_writes, unary_writes, binary_writes, ternary_writes, reshape_writes,
    Finset.mem_singleton]
  repeat' apply And.intro
  all_goals exact devRef_ne_of_ne (by decide)))

theorem refOps0_sub : (refOps0 : List (HloOp τ sig (Elt F))).Forall fun op => op.bufs ⊆ tcRefs τ sig := by
  simp only [List.Forall, nullary_bufs_sub, unary_bufs_sub, binary_bufs_sub, ternary_bufs_sub, reshape_bufs_sub, and_self]
theorem refOps0_fresh : (refOps0 : List (HloOp τ sig (Elt F))).Forall fun op => op.fresh = ∅ := by
  simp only [List.Forall]; repeat' constructor
theorem refOps0_keeps : (refOps0 : List (HloOp τ sig (Elt F))).Forall fun op => KeepsArgs op := by
  keeps_args

theorem refOps1_sub : (refOps1 : List (HloOp τ sig (Elt F))).Forall fun op => op.bufs ⊆ tcRefs τ sig := by
  simp only [List.Forall, nullary_bufs_sub, unary_bufs_sub, binary_bufs_sub, ternary_bufs_sub, reshape_bufs_sub, and_self]
theorem refOps1_fresh : (refOps1 : List (HloOp τ sig (Elt F))).Forall fun op => op.fresh = ∅ := by
  simp only [List.Forall]; repeat' constructor
theorem refOps1_keeps : (refOps1 : List (HloOp τ sig (Elt F))).Forall fun op => KeepsArgs op := by
  keeps_args

theorem refOps2_sub : (refOps2 : List (HloOp τ sig (Elt F))).Forall fun op => op.bufs ⊆ tcRefs τ sig := by
  simp only [List.Forall, nullary_bufs_sub, unary_bufs_sub, binary_bufs_sub, ternary_bufs_sub, reshape_bufs_sub, and_self]
theorem refOps2_fresh : (refOps2 : List (HloOp τ sig (Elt F))).Forall fun op => op.fresh = ∅ := by
  simp only [List.Forall]; repeat' constructor
theorem refOps2_keeps : (refOps2 : List (HloOp τ sig (Elt F))).Forall fun op => KeepsArgs op := by
  keeps_args

theorem refOps3_sub : (refOps3 : List (HloOp τ sig (Elt F))).Forall fun op => op.bufs ⊆ tcRefs τ sig := by
  simp only [List.Forall, nullary_bufs_sub, unary_bufs_sub, binary_bufs_sub, ternary_bufs_sub, reshape_bufs_sub, and_self]
theorem refOps3_fresh : (refOps3 : List (HloOp τ sig (Elt F))).Forall fun op => op.fresh = ∅ := by
  simp only [List.Forall]; repeat' constructor
theorem refOps3_keeps : (refOps3 : List (HloOp τ sig (Elt F))).Forall fun op => KeepsArgs op := by
  keeps_args

theorem refOps4_sub : (refOps4 : List (HloOp τ sig (Elt F))).Forall fun op => op.bufs ⊆ tcRefs τ sig := by
  simp only [List.Forall, nullary_bufs_sub, unary_bufs_sub, binary_bufs_sub, ternary_bufs_sub, reshape_bufs_sub, and_self]
theorem refOps4_fresh : (refOps4 : List (HloOp τ sig (Elt F))).Forall fun op => op.fresh = ∅ := by
  simp only [List.Forall]; repeat' constructor
theorem refOps4_keeps : (refOps4 : List (HloOp τ sig (Elt F))).Forall fun op => KeepsArgs op := by
  keeps_args

theorem refOps_sub : (refOps : List (HloOp τ sig (Elt F))).Forall fun op => op.bufs ⊆ tcRefs τ sig :=
  List.forall_append.2 ⟨refOps0_sub, List.forall_append.2 ⟨refOps1_sub, List.forall_append.2 ⟨refOps2_sub,
    List.forall_append.2 ⟨refOps3_sub, refOps4_sub⟩⟩⟩⟩

theorem refOps_fresh : (refOps : List (HloOp τ sig (Elt F))).Forall fun op => op.fresh = ∅ :=
  List.forall_append.2 ⟨refOps0_fresh, List.forall_append.2 ⟨refOps1_fresh, List.forall_append.2 ⟨refOps2_fresh,
    List.forall_append.2 ⟨refOps3_fresh, refOps4_fresh⟩⟩⟩⟩

theorem refOps_keeps : (refOps : List (HloOp τ sig (Elt F))).Forall fun op => KeepsArgs op :=
  List.forall_append.2 ⟨refOps0_keeps, List.forall_append.2 ⟨refOps1_keeps, List.forall_append.2 ⟨refOps2_keeps,
    List.forall_append.2 ⟨refOps3_keeps, refOps4_keeps⟩⟩⟩⟩

/-! ## The run -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    reference program terminates, and every final state has each TensorCore buffer at the fold of the 162 operations'
    results over what the launch put on that device. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (refOps (F := F)) (launchContents m d) (Proc.devRef .tc b) :=
  run_seq scopedRefs_eq scopedSems_eq defs main (fun _ => refOps) main_eq (fun _ => refOps_sub) m ρ
    (fun _ => List.forall_iff_forall_mem.1 refOps_fresh)

/-! ## The arguments are kept: no operation writes one -/

theorem kept_arg0 (m : (ℓ : Loc nD τ sig) → Buf (Elt F) ℓ) (d : Dev nD) :
    StableHlo.after (refOps (F := F)) (launchContents m d) (Proc.devRef .tc main_arg0)
      = m ((d.tc : Thread nD τ).loc main_arg0) :=
  after_of_forall_not_mem _ _ fun op h => (List.forall_iff_forall_mem.1 refOps_keeps op h).1

theorem kept_arg1 (m : (ℓ : Loc nD τ sig) → Buf (Elt F) ℓ) (d : Dev nD) :
    StableHlo.after (refOps (F := F)) (launchContents m d) (Proc.devRef .tc main_arg1)
      = m ((d.tc : Thread nD τ).loc main_arg1) :=
  after_of_forall_not_mem _ _ fun op h => (List.forall_iff_forall_mem.1 refOps_keeps op h).2.1

theorem kept_arg2 (m : (ℓ : Loc nD τ sig) → Buf (Elt F) ℓ) (d : Dev nD) :
    StableHlo.after (refOps (F := F)) (launchContents m d) (Proc.devRef .tc main_arg2)
      = m ((d.tc : Thread nD τ).loc main_arg2) :=
  after_of_forall_not_mem _ _ fun op h => (List.forall_iff_forall_mem.1 refOps_keeps op h).2.2

end Cert.ReferenceIdeal.Hand

end
-- ==== Proof.RegionRows.lean ====
/-
  Each of the two row-sum regions leaves in its output array the row sums of its input array.

  A region walks its input array [R, 16] in blocks of 16384 rows, one block per grid point t, and writes the
  column of row sums of the block it fetched to the same rows of its output array [R, 1].  R is not a multiple of
  16384: the last block overhangs the array, its fetch brings in only the rows inside the array (the rest of the
  staging block is filled with some word) and its write-back writes only those rows.  Since entry (p, 0) of the
  stored column depends on row p of the fetched block alone, the rows written back never read the filling word.

  The argument, for each region: the block index maps and the cuts are decided once over the grid (both windows
  sit at block (t, 0); both are cut to the same number of rows; the output block at t ends at
  min ((t + 1) * 16384, R)); what point t writes back is block t of the row-sum array, read through the cut
  block; every row r lies in the block of the point r / 16384; hence the output array ends holding the row sums.
  Stated for any proof data whose output staging block after the body is the kernel's stored column of the fetched
  block filled out with the zero word.
-/
import proofs.«118521_j721554506107_2_alg».proof.Proof.RowSums
import proofs.«118521_j721554506107_2_alg».proof.Proof.Gen.KernelIdeal.Skeleton
import proofs.«118521_j721554506107_2_alg».proof.Proof.Gen.KernelIdeal.Launch
import proofs.«118521_j721554506107_2_alg».proof.Proof.Gen.KernelIdeal.Points
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Pipeline.Kit

noncomputable section

namespace Cert.KernelIdeal.Hand

open Cert.KernelIdeal Cert.KernelIdeal.Gen Idealize.ShloMosaic Idealize.ShloMosaic.ValueIdx
open Idealize.ShloMosaic.TcCoe Idealize.SL.Sem

variable {Ix : Type} [DecidableEq Ix] {Name : Type} [DecidableEq Name] {U : Type} [Idealize.SL.RA.URA U] {Lvl : Type}

/-! ## The first region: [822944, 16] to [822944, 1], 51 points, the last block cut to 3744 rows -/

/-- The array of row sums of a [822944, 16] array: entry (r, 0) is the sum of row r. -/
def rowSums0 (A : S822944x16.Idx → EReal) : S822944x1.Idx → EReal :=
  fun j => ∑ f : Fin 16, A (ix2 (⟨(j 0).val, idx2_lt0 j⟩ : Fin 822944) f)

/-- The two windows' index maps and cuts over the grid: both blocks sit at block row t, block column 0; the input
    block is cut to as many rows as the output block, and to all 16 (resp. the 1) columns; the output block's rows
    end at the array's end or at the next block's start, whichever comes first. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_0.xsize (grid0.coords t) (0 : Fin 2) = win0_1.xsize (grid0.coords t) (0 : Fin 2)
    ∧ win0_0.xsize (grid0.coords t) (1 : Fin 2) = 16
    ∧ win0_1.xsize (grid0.coords t) (1 : Fin 2) = 1
    ∧ t.val * 16384 + win0_1.xsize (grid0.coords t) (0 : Fin 2) = min ((t.val + 1) * 16384) 822944 :=
  (by decide +kernel : ∀ t : Fin grid0.N, _)

/-- An index of the output array is in point t's block iff each coordinate is in the block's cut range. -/
theorem mem_blk0 (t : Fin cfg0.N) (i : S822944x1.Idx) :
    i ∈ ((cfg0.win 1).blk t).view.set ↔ ∀ a : Fin 2, win0_1.index t a * S16384x1.size a ≤ (i a).val
      ∧ (i a).val < win0_1.index t a * S16384x1.size a + win0_1.xsize (grid0.coords t) a := by
  show i ∈ ((View.whole main_v69).slice (win0_1.rect t)).set ↔ _
  rw [View.set_slice_whole, Rect.mem_set_unit]
  exact Iff.rfl

/-- Row r lies in the block of rows starting at (r / 16384) * 16384 and cut at the array's end. -/
theorem rows_arith0 (r k x : ℕ) (hr : r < 822944) (hk : k = r / 16384)
    (hx : k * 16384 + x = min ((k + 1) * 16384) 822944) : k * 16384 ≤ r ∧ r < k * 16384 + x := by
  subst hk; omega

/-- Every row of the output array is in the block of the point r / 16384. -/
theorem cover0 (i : S822944x1.Idx) :
    ∃ t : Fin cfg0.N, (cfg0.win 1).flush t = true ∧ i ∈ ((cfg0.win 1).blk t).view.set := by
  have hN : grid0.N = 51 := Gen.N_0
  have hi0 : (i 0).val < 822944 := idx2_lt0 i
  have hi1 : (i 1).val < 1 := idx2_lt1 i
  have ht : (i 0).val / 16384 < grid0.N := by rw [hN]; omega
  refine ⟨⟨(i 0).val / 16384, ht⟩, flush0_1 _, ?_⟩
  rw [mem_blk0]
  obtain ⟨e00, e01, e10, e11, ex0, ex1, ey1, eend⟩ := idx_facts0 ⟨(i 0).val / 16384, ht⟩
  intro a
  match a with
  | ⟨0, _⟩ =>
    show win0_1.index ⟨(i 0).val / 16384, ht⟩ (0 : Fin 2) * 16384 ≤ (i 0).val
      ∧ (i 0).val < win0_1.index ⟨(i 0).val / 16384, ht⟩ (0 : Fin 2) * 16384 + win0_1.xsize (grid0.coords ⟨(i 0).val / 16384, ht⟩) (0 : Fin 2)
    rw [e10]
    exact rows_arith0 (i 0).val ((i 0).val / 16384) _ hi0 rfl eend
  | ⟨1, _⟩ =>
    show win0_1.index ⟨(i 0).val / 16384, ht⟩ (1 : Fin 2) * 1 ≤ (i 1).val
      ∧ (i 1).val < win0_1.index ⟨(i 0).val / 16384, ht⟩ (1 : Fin 2) * 1 + win0_1.xsize (grid0.coords ⟨(i 0).val / 16384, ht⟩) (1 : Fin 2)
    rw [e11, ey1]; omega

/-- What point t writes back is block t of the row sums of the input array: row p of the cut output block is the sum
    of row p of the fetched input block (a row inside the array, so the filling word is never read), which is row
    t * 16384 + p of the input array. -/
theorem flushed0_eq {c : Dev nD} (dat : Pipeline.Dat τ (Elt Ideal) Ix Name U Lvl cfg0 c)
    (hafter : ∀ t : Fin cfg0.N, dat.after 1 t = k0_pay1 (F := Ideal) (win0_0.fill (grid0.coords t) (fun _ => Scalar.ofBits (F := Ideal) .f32 0#32) (dat.blockOf 0 t)))
    (A0 : S822944x16.Idx → EReal) (hA : dat.A 0 = A0) (t : Fin cfg0.N) :
    dat.flushed 1 t = ((cfg0.win 1).blk t).view.read (Elt Ideal) (rowSums0 A0) := by
  obtain ⟨e00, e01, e10, e11, ex0, ex1, ey1, eend⟩ := idx_facts0 t
  funext j
  have hj0 : (j 0).val < win0_1.xsize (grid0.coords t) (0 : Fin 2) := (j 0).isLt
  have hj1 : (j 1).val < win0_1.xsize (grid0.coords t) (1 : Fin 2) := (j 1).isLt
  have hp : (j 0).val < 16384 := Nat.lt_of_lt_of_le hj0 (win0_1.xsize_le (grid0.coords t) (0 : Fin 2))
  have hx : win0_1.xinj (grid0.coords t) j = ix2 (⟨(j 0).val, hp⟩ : Fin 16384) (0 : Fin 1) := by
    funext a; apply Fin.ext
    match a with
    | ⟨0, _⟩ => rfl
    | ⟨1, _⟩ => show (j 1).val = 0; rw [ey1] at hj1; omega
  show dat.after 1 t (win0_1.xinj (grid0.coords t) j) = rowSums0 A0 (((cfg0.win 1).blk t).view.emb j)
  rw [hafter t, hx]
  refine (k0_pay1_apply _ (⟨(j 0).val, hp⟩ : Fin 16384)).trans ?_
  unfold rowSums0
  refine Finset.sum_congr rfl fun f _ => ?_
  have h0 : (j 0).val < win0_0.xsize (grid0.coords t) (0 : Fin 2) := by rw [ex0]; exact hj0
  have h1 : f.val < win0_0.xsize (grid0.coords t) (1 : Fin 2) := by rw [ex1]; exact f.isLt
  let j' : (win0_0.xblock (grid0.coords t)).Idx := fun a => match a with
    | ⟨0, _⟩ => ⟨(j 0).val, h0⟩
    | ⟨1, _⟩ => ⟨f.val, h1⟩
  have hy : ix2 (⟨(j 0).val, hp⟩ : Fin 16384) f = win0_0.xinj (grid0.coords t) j' := by
    funext a; apply Fin.ext
    match a with
    | ⟨0, _⟩ => rfl
    | ⟨1, _⟩ => rfl
  refine (congrArg _ hy).trans ((win0_0.fill_xinj (grid0.coords t) _ _ j').trans ?_)
  show ((cfg0.win 0).blk t).view.read (Elt Ideal) (dat.A 0) j' = _
  rw [hA]
  show A0 (((cfg0.win 0).blk t).view.emb j') = _
  refine congrArg A0 ?_
  funext a; apply Fin.ext
  match a with
  | ⟨0, _⟩ =>
    show win0_0.index t (0 : Fin 2) * 16384 + 1 * (j 0).val = win0_1.index t (0 : Fin 2) * 16384 + 1 * (j 0).val
    rw [e00, e10]
  | ⟨1, _⟩ =>
    show win0_0.index t (1 : Fin 2) * 16 + 1 * f.val = f.val
    rw [e01]; omega

/-- After all write-backs the first region's output array holds the row sums of its input array. -/
theorem arrAt_rows0 {c : Dev nD} (dat : Pipeline.Dat τ (Elt Ideal) Ix Name U Lvl cfg0 c)
    (hafter : ∀ t : Fin cfg0.N, dat.after 1 t = k0_pay1 (F := Ideal) (win0_0.fill (grid0.coords t) (fun _ => Scalar.ofBits (F := Ideal) .f32 0#32) (dat.blockOf 0 t)))
    (A0 : S822944x16.Idx → EReal) (hA : dat.A 0 = A0) (r : Fin 822944) :
    dat.arrAt 1 cfg0.N (ix2 r (0 : Fin 1)) = ∑ f : Fin 16, A0 (ix2 r f) :=
  congrFun (dat.arrAt_eq_of_cover 1 (rowSums0 A0) (fun t _ => flushed0_eq dat hafter A0 hA t) cover0) (ix2 r (0 : Fin 1))

/-! ## The second region: [10485830, 16] to [10485830, 1], 641 points, the last block cut to 70 rows -/

/-- The array of row sums of a [10485830, 16] array: entry (r, 0) is the sum of row r. -/
def rowSums1 (A : S10485830x16.Idx → EReal) : S10485830x1.Idx → EReal :=
  fun j => ∑ f : Fin 16, A (ix2 (⟨(j 0).val, idx2_lt0 j⟩ : Fin 10485830) f)

/-- The two windows' index maps and cuts over the grid: both blocks sit at block row t, block column 0; the input
    block is cut to as many rows as the output block, and to all 16 (resp. the 1) columns; the output block's rows
    end at the array's end or at the next block's start, whichever comes first. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_0.xsize (grid1.coords t) (0 : Fin 2) = win1_1.xsize (grid1.coords t) (0 : Fin 2)
    ∧ win1_0.xsize (grid1.coords t) (1 : Fin 2) = 16
    ∧ win1_1.xsize (grid1.coords t) (1 : Fin 2) = 1
    ∧ t.val * 16384 + win1_1.xsize (grid1.coords t) (0 : Fin 2) = min ((t.val + 1) * 16384) 10485830 :=
  (by decide +kernel : ∀ t : Fin grid1.N, _)

/-- An index of the output array is in point t's block iff each coordinate is in the block's cut range. -/
theorem mem_blk1 (t : Fin cfg1.N) (i : S10485830x1.Idx) :
    i ∈ ((cfg1.win 1).blk t).view.set ↔ ∀ a : Fin 2, win1_1.index t a * S16384x1.size a ≤ (i a).val
      ∧ (i a).val < win1_1.index t a * S16384x1.size a + win1_1.xsize (grid1.coords t) a := by
  show i ∈ ((View.whole main_v72).slice (win1_1.rect t)).set ↔ _
  rw [View.set_slice_whole, Rect.mem_set_unit]
  exact Iff.rfl

/-- Row r lies in the block of rows starting at (r / 16384) * 16384 and cut at the array's end. -/
theorem rows_arith1 (r k x : ℕ) (hr : r < 10485830) (hk : k = r / 16384)
    (hx : k * 16384 + x = min ((k + 1) * 16384) 10485830) : k * 16384 ≤ r ∧ r < k * 16384 + x := by
  subst hk; omega

/-- Every row of the output array is in the block of the point r / 16384. -/
theorem cover1 (i : S10485830x1.Idx) :
    ∃ t : Fin cfg1.N, (cfg1.win 1).flush t = true ∧ i ∈ ((cfg1.win 1).blk t).view.set := by
  have hN : grid1.N = 641 := Gen.N_1
  have hi0 : (i 0).val < 10485830 := idx2_lt0 i
  have hi1 : (i 1).val < 1 := idx2_lt1 i
  have ht : (i 0).val / 16384 < grid1.N := by rw [hN]; omega
  refine ⟨⟨(i 0).val / 16384, ht⟩, flush1_1 _, ?_⟩
  rw [mem_blk1]
  obtain ⟨e00, e01, e10, e11, ex0, ex1, ey1, eend⟩ := idx_facts1 ⟨(i 0).val / 16384, ht⟩
  intro a
  match a with
  | ⟨0, _⟩ =>
    show win1_1.index ⟨(i 0).val / 16384, ht⟩ (0 : Fin 2) * 16384 ≤ (i 0).val
      ∧ (i 0).val < win1_1.index ⟨(i 0).val / 16384, ht⟩ (0 : Fin 2) * 16384 + win1_1.xsize (grid1.coords ⟨(i 0).val / 16384, ht⟩) (0 : Fin 2)
    rw [e10]
    exact rows_arith1 (i 0).val ((i 0).val / 16384) _ hi0 rfl eend
  | ⟨1, _⟩ =>
    show win1_1.index ⟨(i 0).val / 16384, ht⟩ (1 : Fin 2) * 1 ≤ (i 1).val
      ∧ (i 1).val < win1_1.index ⟨(i 0).val / 16384, ht⟩ (1 : Fin 2) * 1 + win1_1.xsize (grid1.coords ⟨(i 0).val / 16384, ht⟩) (1 : Fin 2)
    rw [e11, ey1]; omega

/-- What point t writes back is block t of the row sums of the input array: row p of the cut output block is the sum
    of row p of the fetched input block (a row inside the array, so the filling word is never read), which is row
    t * 16384 + p of the input array. -/
theorem flushed1_eq {c : Dev nD} (dat : Pipeline.Dat τ (Elt Ideal) Ix Name U Lvl cfg1 c)
    (hafter : ∀ t : Fin cfg1.N, dat.after 1 t = k1_pay1 (F := Ideal) (win1_0.fill (grid1.coords t) (fun _ => Scalar.ofBits (F := Ideal) .f32 0#32) (dat.blockOf 0 t)))
    (A1 : S10485830x16.Idx → EReal) (hA : dat.A 0 = A1) (t : Fin cfg1.N) :
    dat.flushed 1 t = ((cfg1.win 1).blk t).view.read (Elt Ideal) (rowSums1 A1) := by
  obtain ⟨e00, e01, e10, e11, ex0, ex1, ey1, eend⟩ := idx_facts1 t
  funext j
  have hj0 : (j 0).val < win1_1.xsize (grid1.coords t) (0 : Fin 2) := (j 0).isLt
  have hj1 : (j 1).val < win1_1.xsize (grid1.coords t) (1 : Fin 2) := (j 1).isLt
  have hp : (j 0).val < 16384 := Nat.lt_of_lt_of_le hj0 (win1_1.xsize_le (grid1.coords t) (0 : Fin 2))
  have hx : win1_1.xinj (grid1.coords t) j = ix2 (⟨(j 0).val, hp⟩ : Fin 16384) (0 : Fin 1) := by
    funext a; apply Fin.ext
    match a with
    | ⟨0, _⟩ => rfl
    | ⟨1, _⟩ => show (j 1).val = 0; rw [ey1] at hj1; omega
  show dat.after 1 t (win1_1.xinj (grid1.coords t) j) = rowSums1 A1 (((cfg1.win 1).blk t).view.emb j)
  rw [hafter t, hx]
  refine (k1_pay1_apply _ (⟨(j 0).val, hp⟩ : Fin 16384)).trans ?_
  unfold rowSums1
  refine Finset.sum_congr rfl fun f _ => ?_
  have h0 : (j 0).val < win1_0.xsize (grid1.coords t) (0 : Fin 2) := by rw [ex0]; exact hj0
  have h1 : f.val < win1_0.xsize (grid1.coords t) (1 : Fin 2) := by rw [ex1]; exact f.isLt
  let j' : (win1_0.xblock (grid1.coords t)).Idx := fun a => match a with
    | ⟨0, _⟩ => ⟨(j 0).val, h0⟩
    | ⟨1, _⟩ => ⟨f.val, h1⟩
  have hy : ix2 (⟨(j 0).val, hp⟩ : Fin 16384) f = win1_0.xinj (grid1.coords t) j' := by
    funext a; apply Fin.ext
    match a with
    | ⟨0, _⟩ => rfl
    | ⟨1, _⟩ => rfl
  refine (congrArg _ hy).trans ((win1_0.fill_xinj (grid1.coords t) _ _ j').trans ?_)
  show ((cfg1.win 0).blk t).view.read (Elt Ideal) (dat.A 0) j' = _
  rw [hA]
  show A1 (((cfg1.win 0).blk t).view.emb j') = _
  refine congrArg A1 ?_
  funext a; apply Fin.ext
  match a with
  | ⟨0, _⟩ =>
    show win1_0.index t (0 : Fin 2) * 16384 + 1 * (j 0).val = win1_1.index t (0 : Fin 2) * 16384 + 1 * (j 0).val
    rw [e00, e10]
  | ⟨1, _⟩ =>
    show win1_0.index t (1 : Fin 2) * 16 + 1 * f.val = f.val
    rw [e01]; omega

/-- After all write-backs the second region's output array holds the row sums of its input array. -/
theorem arrAt_rows1 {c : Dev nD} (dat : Pipeline.Dat τ (Elt Ideal) Ix Name U Lvl cfg1 c)
    (hafter : ∀ t : Fin cfg1.N, dat.after 1 t = k1_pay1 (F := Ideal) (win1_0.fill (grid1.coords t) (fun _ => Scalar.ofBits (F := Ideal) .f32 0#32) (dat.blockOf 0 t)))
    (A1 : S10485830x16.Idx → EReal) (hA : dat.A 0 = A1) (r : Fin 10485830) :
    dat.arrAt 1 cfg1.N (ix2 r (0 : Fin 1)) = ∑ f : Fin 16, A1 (ix2 r f) :=
  congrFun (dat.arrAt_eq_of_cover 1 (rowSums1 A1) (fun t _ => flushed1_eq dat hafter A1 hA t) cover1) (ix2 r (0 : Fin 1))

end Cert.KernelIdeal.Hand

end
-- ==== Proof.Kept.lean ====
/-
  What the program's later buffer contents hold at the buffers the comparison with the reference reads.

  The contents after the second row-sum call keep, at every buffer that neither call's windows nor the stretch
  between the calls write, what the first call was entered with.  The stretch between the calls only reshapes:
  the first call's column of row sums to a vector, and the hash table [10, 1048583, 16] to its rows
  [10485830, 16], which is the array the second call reads.  No stretch before the first call writes an argument.
  Hence the first call's output column holds the row sums of the dense table as launched, and the second call's
  output column holds the row sums of the hash table's rows as launched.
-/
import proofs.«118521_j721554506107_2_alg».proof.Proof.IdealRun
import proofs.«118521_j721554506107_2_alg».proof.Proof.RegionRows

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## Buffers nothing between the first call's entry and the second call's exit writes -/

/-- A buffer that is no array of either call and that the stretch between the calls does not write holds after the
    second call what it held when the first call was entered. -/
theorem W7_keeps (c : Dev nD) (b : Ref sig .tc) (h0 : ∀ w, Pipeline.arrRef spec0 w ≠ b) (h1 : ∀ w, Pipeline.arrRef spec1 w ≠ b)
    (hW : b ∉ hostOps1_W) : W7 m c (Proc.devRef .tc b) = W4 m c (Proc.devRef .tc b) :=
  (W7_of_ne m c b h1).trans <|
    (StableHlo.after_of_writes_sub (hostOps1 (F := Ideal)) _ hostOps1_writes hW).trans (W5_of_ne m c b h0)

theorem W7_v6 (c : Dev nD) : W7 m c (Proc.devRef .tc main_v6) = W4 m c (Proc.devRef .tc main_v6) :=
  W7_keeps m c main_v6 (by decide) (by decide) (by decide)
theorem W7_v25 (c : Dev nD) : W7 m c (Proc.devRef .tc main_v25) = W4 m c (Proc.devRef .tc main_v25) :=
  W7_keeps m c main_v25 (by decide) (by decide) (by decide)
theorem W7_cst2 (c : Dev nD) : W7 m c (Proc.devRef .tc main_cst_2) = W4 m c (Proc.devRef .tc main_cst_2) :=
  W7_keeps m c main_cst_2 (by decide) (by decide) (by decide)
theorem W7_v46 (c : Dev nD) : W7 m c (Proc.devRef .tc main_v46) = W4 m c (Proc.devRef .tc main_v46) :=
  W7_keeps m c main_v46 (by decide) (by decide) (by decide)
theorem W7_v68 (c : Dev nD) : W7 m c (Proc.devRef .tc main_v68) = W4 m c (Proc.devRef .tc main_v68) :=
  W7_keeps m c main_v68 (by decide) (by decide) (by decide)

/-! ## The stretch between the calls: two reshapes -/

/-- The first call's column of row sums, reshaped to a vector, is still there after the second call. -/
theorem W7_v70 (c : Dev nD) : W7 m c (Proc.devRef .tc main_v70)
    = shapeCast S822944 (W5 m c (Proc.devRef .tc main_v69) : S822944x1.Idx → EReal) shapeCasts_S822944x1_S822944 := by
  rw [W7_of_ne m c main_v70 (by decide)]
  show StableHlo.after (hostOps1 (F := Ideal)) (W5 m c) (Proc.devRef .tc main_v70) = _
  dsimp only [hostOps1]
  after_results
  rfl

/-- The first dense-table argument is as launched when the first call is entered: no stretch before it writes it. -/
theorem W4_arg1 (c : Dev nD) : W4 m c (Proc.devRef .tc main_arg1) = m ((c : Thread nD τ).loc main_arg1) :=
  W4_of_launch m c main_arg1 (by decide) (by decide) (by decide) (by decide)

/-- The dense table as launched, as a function of its index. -/
abbrev denseTab (c : Dev nD) : S822944x16.Idx → EReal := m ((c : Thread nD τ).loc main_arg1)
/-- The hash table as launched, read as its 10485830 rows of 16. -/
abbrev hashRows (c : Dev nD) : S10485830x16.Idx → EReal :=
  shapeCast S10485830x16 (m ((c : Thread nD τ).loc main_arg2) : S10x1048583x16.Idx → EReal) shapeCasts_S10x1048583x16_S10485830x16

/-- The array the second call reads is the hash table as launched, reshaped to its rows. -/
theorem V6_v71 (c : Dev nD) : (V6 m c main_v71 : S10485830x16.Idx → EReal)
    = shapeCast S10485830x16 (m ((c : Thread nD τ).loc main_arg2) : S10x1048583x16.Idx → EReal) shapeCasts_S10x1048583x16_S10485830x16 := by
  show StableHlo.after (hostOps1 (F := Ideal)) (W5 m c) (Proc.devRef .tc main_v71) = _
  dsimp only [hostOps1]
  after_results
  rw [W5_of_ne m c main_arg2 (by decide), W4_of_launch m c main_arg2 (by decide) (by decide) (by decide) (by decide)]
  rfl

/-! ## The two output columns -/

/-- The first call's proof data leave in the output staging block the stored column of the fetched block. -/
theorem hafter0 (c : Dev nD) (t : Fin cfg0.N) : (dat0 (V4 m) c).after 1 t
    = k0_pay1 (F := Ideal) (win0_0.fill (grid0.coords t) (fun _ => Scalar.ofBits (F := Ideal) .f32 0#32) ((dat0 (V4 m) c).blockOf 0 t)) := by
  rw [after0_1]; unfold fetched0 iblk0 Dat.blockOf; rw [A_eq0]
theorem hafter1 (c : Dev nD) (t : Fin cfg1.N) : (dat1 (V6 m) c).after 1 t
    = k1_pay1 (F := Ideal) (win1_0.fill (grid1.coords t) (fun _ => Scalar.ofBits (F := Ideal) .f32 0#32) ((dat1 (V6 m) c).blockOf 0 t)) := by
  rw [after1_1]; unfold fetched1 iblk1 Dat.blockOf; rw [A_eq1]

/-- After the first call its output column holds the row sums of the dense table as launched. -/
theorem rows0 (c : Dev nD) (r : Fin 822944) :
    (W5 m c (Proc.devRef .tc main_v69) : S822944x1.Idx → EReal) (ix2 r (0 : Fin 1)) = ∑ f : Fin 16, denseTab m c (ix2 r f) :=
  (congrFun (W5_arr m c 1) (ix2 r (0 : Fin 1))).trans
    (arrAt_rows0 (dat0 (V4 m) c) (hafter0 m c) (denseTab m c) ((A_eq0 (V4 m) c 0).trans (W4_arg1 m c)) r)

/-- After the second call its output column holds the row sums of the hash table's rows as launched. -/
theorem rows1 (c : Dev nD) (r : Fin 10485830) :
    (W7 m c (Proc.devRef .tc main_v72) : S10485830x1.Idx → EReal) (ix2 r (0 : Fin 1)) = ∑ f : Fin 16, hashRows m c (ix2 r f) :=
  (congrFun (W7_arr m c 1) (ix2 r (0 : Fin 1))).trans
    (arrAt_rows1 (dat1 (V6 m) c) (hafter1 m c) (hashRows m c) ((A_eq1 (V6 m) c 0).trans (V6_v71 m c)) r)

end Cert.KernelIdeal.Hand

end
-- ==== Proof.Tails.lean ====
import proofs.«118521_j721554506107_2_alg».proof.KernelIdeal
import proofs.«118521_j721554506107_2_alg».proof.ReferenceIdeal
import proofs.«118521_j721554506107_2_alg».proof.Proof.Gen.KernelIdeal
import proofs.«118521_j721554506107_2_alg».proof.Proof.Gen.ReferenceIdeal
import Idealize.ShloMosaic.PureOps.Ideal

/-!
  The last host operations of the two programs, as functions of the arrays they share.

  Both programs end by turning the normalised points `xn`, the corner weights `w` and the two index arrays
  `iD` (rows of the dense table) and `iH` (level and row of the hashed tables) into the output
  `[65536, 19]`: columns 0..2 are `xn`, column `3 + l` is the weighted sum over the eight corners of level `l`.

  * `kTail` takes the two columns of ROW SUMS `rs0 : [822944, 1]`, `rs1 : [10485830, 1]`, gathers one scalar per
    corner, multiplies by the weight and sums over the corners.
  * `rTail` takes the tables `d : [822944, 16]`, `h : [10, 1048583, 16]`, gathers one 16-wide row per corner,
    multiplies by the weight, sums over the corners and then over the 16 features.

  Each is the composition of the operations' own functions, in program order.
-/

noncomputable section

namespace Cert.Hand.Tails

open Idealize.ShloMosaic

section Kernel
open Cert.KernelIdeal Cert.KernelIdeal.Gen

/-- The kernel's tail: reshape the row-sum columns, gather a scalar per (level, point, corner), stack the six dense
    and ten hashed levels, weight, sum over the corners, transpose to point-major and append to the points. -/
def kTail (xn : FVec Ideal S65536x3 .f32) (w : FVec Ideal S16x65536x8 .f32)
    (iD : (⟨S6x65536x8x1, .i32⟩ : BufTy).Contents (Elt Ideal))
    (iH : (⟨S10x65536x8x2, .i32⟩ : BufTy).Contents (Elt Ideal))
    (rs0 : FVec Ideal S822944x1 .f32) (rs1 : FVec Ideal S10485830x1 .f32) : FVec Ideal S65536x19 .f32 :=
  concatenate S65536x19 1
    [⟨S65536x3, xn⟩,
     ⟨S65536x16,
      transpose S65536x16 [1, 0]
        (Host.reduceAdd (F := Ideal)
          (mulf (F := Ideal) w
            (concatenate S16x65536x8 0
              [⟨S6x65536x8,
                Host.gather gather_S822944_S6x65536x8x1_S6x65536x8_n_0_n_n_0_3_1
                  (shapeCast S822944 rs0 shapeCasts_S822944x1_S822944) iD⟩,
               ⟨S10x65536x8,
                Host.gather gather_S10x1048583_S10x65536x8x2_S10x65536x8_n_01_n_n_01_3_11
                  (shapeCast S10x1048583 (shapeCast S10485830 rs1 shapeCasts_S10485830x1_S10485830)
                    shapeCasts_S10485830_S10x1048583) iH⟩]
              concatenates_S6x65536x8_S10x65536x8_S16x65536x8_d0))
          (constant (F := Ideal) S_ .f32 0x00000000#32)
          reducesTo_S16x65536x8_S16x65536_d2 h_S_)
        transposes_S16x65536_S65536x16_1_0⟩]
    concatenates_S65536x3_S65536x16_S65536x19_d1

end Kernel

section Reference
open Cert.ReferenceIdeal Cert.ReferenceIdeal.Gen

/-- The reference's tail: gather a 16-wide row per (level, point, corner), stack the six dense and ten hashed levels,
    spread the weight over the 16 features, multiply, sum over the corners, transpose to point-major, sum over the
    features and append to the points. -/
def rTail (xn : FVec Ideal S65536x3 .f32) (w : FVec Ideal S16x65536x8 .f32)
    (iD : (⟨S6x65536x8x1, .i32⟩ : BufTy).Contents (Elt Ideal))
    (iH : (⟨S10x65536x8x2, .i32⟩ : BufTy).Contents (Elt Ideal))
    (d : FVec Ideal S822944x16 .f32) (h : FVec Ideal S10x1048583x16 .f32) : FVec Ideal S65536x19 .f32 :=
  concatenate S65536x19 1
    [⟨S65536x3, xn⟩,
     ⟨S65536x16,
      Host.reduceAdd (F := Ideal)
        (transpose S65536x16x16 [1, 0, 2]
          (Host.reduceAdd (F := Ideal)
            (mulf (F := Ideal)
              (broadcastInDim S16x65536x8x16 ![0, 1, 2, 3] bcast_S16x65536x8x1_S16x65536x8x16_0_1_2_3
                (broadcastInDim S16x65536x8x1 ![0, 1, 2] bcast_S16x65536x8_S16x65536x8x1_0_1_2 w))
              (concatenate S16x65536x8x16 0
                [⟨S6x65536x8x16,
                  Host.gather gather_S822944x16_S6x65536x8x1_S6x65536x8x16_3_0_n_n_0_3_116 d iD⟩,
                 ⟨S10x65536x8x16,
                  Host.gather gather_S10x1048583x16_S10x65536x8x2_S10x65536x8x16_3_01_n_n_01_3_1116 h iH⟩]
                concatenates_S6x65536x8x16_S10x65536x8x16_S16x65536x8x16_d0))
            (constant (F := Ideal) S_ .f32 0x00000000#32)
            reducesTo_S16x65536x8x16_S16x65536x16_d2 h_S_)
          transposes_S16x65536x16_S65536x16x16_1_0_2)
        (constant (F := Ideal) S_ .f32 0x00000000#32)
        reducesTo_S65536x16x16_S65536x16_d2 h_S_⟩]
    concatenates_S65536x3_S65536x16_S65536x19_d1

end Reference

end Cert.Hand.Tails
-- ==== Proof.ReadOff.lean ====
/-
  The last host stretch of each program read off as a closed term.

  `after` is a fold, so the fold over a concatenation is the fold over the second list started from the fold over
  the first; the reference's 162 operations thus run stretch after stretch. Each program's last stretch only
  reads the buffers written before it, so its result buffer is the composition of the stretch's own functions applied
  to what those buffers hold when the stretch starts: for the reference, the tail of the tables' rows gathered, weighted
  and summed over corners and features; for the kernel program, the tail of the row sums gathered, weighted and summed
  over corners. The four shared intermediates (normalised points, corner weights, the two index arrays) are named by
  what the stretch itself leaves in their buffers.
-/
import proofs.«118521_j721554506107_2_alg».proof.Proof.RefRun
import proofs.«118521_j721554506107_2_alg».proof.Proof.Gen.KernelIdeal.Launch
import proofs.«118521_j721554506107_2_alg».proof.Proof.Tails
import Idealize.ShloMosaic.PureOps.Ideal

noncomputable section

namespace Cert.Hand.ReadOff

open Idealize.ShloMosaic Idealize.ShloMosaic.TcCoe Idealize.SL.Sem Idealize.ShloMosaic.StableHlo

/-- The fold over a concatenation: the second list's fold, started from the first's. -/
theorem after_append {τ : Topo} {sig : RefSig} {Val : EltTy → Type} :
    ∀ (l₁ l₂ : List (HloOp τ sig Val)) (V : Valuation τ sig Val),
      StableHlo.after (l₁ ++ l₂) V = StableHlo.after l₂ (StableHlo.after l₁ V)
  | [], _, _ => rfl
  | op :: l₁, l₂, V => by rw [List.cons_append, after_cons, after_cons, after_append l₁ l₂]

section Reference
open Cert.ReferenceIdeal Cert.ReferenceIdeal.Gen Cert.ReferenceIdeal.Hand

/-- The reference's operations run stretch after stretch. -/
theorem refOps_after (V : Valuation τ sig (Elt Ideal)) :
    StableHlo.after (refOps (F := Ideal)) V
      = StableHlo.after refOps4 (StableHlo.after refOps3 (StableHlo.after refOps2 (StableHlo.after refOps1
          (StableHlo.after refOps0 V)))) := by
  show StableHlo.after (refOps0 ++ (refOps1 ++ (refOps2 ++ (refOps3 ++ refOps4)))) V = _
  rw [after_append, after_append, after_append, after_append]

set_option maxHeartbeats 20000000 in
/-- The reference's result after its last stretch, from any contents the stretch starts from: the tail applied to the
    normalised points, the corner weights and the two index arrays as the stretch leaves them, and to the two tables.
    The fold is unrolled; each operation's result decides whether the buffer read is the one it writes, so each buffer
    read resolves to the last operation that wrote it, or to what the stretch started from; both sides are then the
    same composition, by computation. -/
theorem ref_tail (VR : Valuation τ sig (Elt Ideal)) :
    StableHlo.after (refOps4 (F := Ideal)) VR (Proc.devRef .tc main_v113)
      = Cert.Hand.Tails.rTail
          (StableHlo.after (refOps4 (F := Ideal)) VR (Proc.devRef .tc main_v6))
          (StableHlo.after (refOps4 (F := Ideal)) VR (Proc.devRef .tc main_v106))
          (StableHlo.after (refOps4 (F := Ideal)) VR (Proc.devRef .tc main_v68))
          (StableHlo.after (refOps4 (F := Ideal)) VR (Proc.devRef .tc main_v85))
          (VR (Proc.devRef .tc main_arg1)) (VR (Proc.devRef .tc main_arg2)) := by
  unfold Cert.Hand.Tails.rTail
  simp only [after_cons, after_nil]
  rfl

end Reference

section Kernel
open Cert.KernelIdeal Cert.KernelIdeal.Gen

/-- The kernel's tail from the dense row sums already reshaped to a vector (as the last stretch reads them). -/
def kTailR (xn : FVec Ideal S65536x3 .f32) (w : FVec Ideal S16x65536x8 .f32)
    (iD : (⟨S6x65536x8x1, .i32⟩ : BufTy).Contents (Elt Ideal))
    (iH : (⟨S10x65536x8x2, .i32⟩ : BufTy).Contents (Elt Ideal))
    (r0 : FVec Ideal S822944 .f32) (rs1 : FVec Ideal S10485830x1 .f32) : FVec Ideal S65536x19 .f32 :=
  concatenate S65536x19 1
    [⟨S65536x3, xn⟩,
     ⟨S65536x16,
      transpose S65536x16 [1, 0]
        (Host.reduceAdd (F := Ideal)
          (mulf (F := Ideal) w
            (concatenate S16x65536x8 0
              [⟨S6x65536x8,
                Host.gather gather_S822944_S6x65536x8x1_S6x65536x8_n_0_n_n_0_3_1 r0 iD⟩,
               ⟨S10x65536x8,
                Host.gather gather_S10x1048583_S10x65536x8x2_S10x65536x8_n_01_n_n_01_3_11
                  (shapeCast S10x1048583 (shapeCast S10485830 rs1 shapeCasts_S10485830x1_S10485830)
                    shapeCasts_S10485830_S10x1048583) iH⟩]
              concatenates_S6x65536x8_S10x65536x8_S16x65536x8_d0))
          (constant (F := Ideal) S_ .f32 0x00000000#32)
          reducesTo_S16x65536x8_S16x65536_d2 h_S_)
        transposes_S16x65536_S65536x16_1_0⟩]
    concatenates_S65536x3_S65536x16_S65536x19_d1

/-- The tail reshapes the dense column itself. -/
theorem kTail_eq_kTailR (xn : FVec Ideal S65536x3 .f32) (w : FVec Ideal S16x65536x8 .f32)
    (iD : (⟨S6x65536x8x1, .i32⟩ : BufTy).Contents (Elt Ideal))
    (iH : (⟨S10x65536x8x2, .i32⟩ : BufTy).Contents (Elt Ideal))
    (rs0 : FVec Ideal S822944x1 .f32) (rs1 : FVec Ideal S10485830x1 .f32) :
    Cert.Hand.Tails.kTail xn w iD iH rs0 rs1
      = kTailR xn w iD iH (shapeCast S822944 rs0 shapeCasts_S822944x1_S822944) rs1 := rfl

set_option maxHeartbeats 20000000 in
/-- The kernel program's result after its last stretch, in terms of what the stretch finds in the buffer of the
    reshaped dense row sums: the fold unrolled, each buffer read resolved to the last operation that wrote it or to
    what the stretch started from, both sides the same composition by computation. -/
theorem kernel_tailR (VK : Valuation τ sig (Elt Ideal)) :
    StableHlo.after (hostOps2 (F := Ideal)) VK (Proc.devRef .tc main_v122)
      = kTailR
          (StableHlo.after (hostOps2 (F := Ideal)) VK (Proc.devRef .tc main_v6))
          (StableHlo.after (hostOps2 (F := Ideal)) VK (Proc.devRef .tc main_v118))
          (StableHlo.after (hostOps2 (F := Ideal)) VK (Proc.devRef .tc main_v80))
          (StableHlo.after (hostOps2 (F := Ideal)) VK (Proc.devRef .tc main_v97))
          (VK (Proc.devRef .tc main_v70)) (VK (Proc.devRef .tc main_v72)) := by
  unfold kTailR
  simp only [after_cons, after_nil]
  rfl

/-- The kernel program's result after its last stretch, from any contents the stretch starts from in which the
    reshaped dense row sums are the reshape of the column `rs0`: the tail applied to the normalised points, the corner
    weights and the two index arrays as the stretch leaves them, to `rs0` and to the column of hashed row sums. -/
theorem kernel_tail (VK : Valuation τ sig (Elt Ideal)) (rs0 : FVec Ideal S822944x1 .f32)
    (h70 : VK (Proc.devRef .tc main_v70) = shapeCast S822944 rs0 shapeCasts_S822944x1_S822944) :
    StableHlo.after (hostOps2 (F := Ideal)) VK (Proc.devRef .tc main_v122)
      = Cert.Hand.Tails.kTail
          (StableHlo.after (hostOps2 (F := Ideal)) VK (Proc.devRef .tc main_v6))
          (StableHlo.after (hostOps2 (F := Ideal)) VK (Proc.devRef .tc main_v118))
          (StableHlo.after (hostOps2 (F := Ideal)) VK (Proc.devRef .tc main_v80))
          (StableHlo.after (hostOps2 (F := Ideal)) VK (Proc.devRef .tc main_v97))
          rs0 (VK (Proc.devRef .tc main_v72)) :=
  (kernel_tailR VK).trans ((congrArg (fun r0 => kTailR _ _ _ _ r0 _) h70).trans (kTail_eq_kTailR _ _ _ _ rs0 _).symm)

end Kernel

end Cert.Hand.ReadOff

end
-- ==== Proof.LeafA.lean ====
/-
  The two programs' first stretches of host operations are the same operations of the points array: the normalisation
  to the unit cube, the division by each level's cell size, the eight corner offsets, the conversion to integers and the
  clamp to the level's grid. So the buffers they leave — read as functions of the points array alone — coincide:
  here, the normalised points and the table of corner offsets.
-/
import proofs.«118521_j721554506107_2_alg».proof.Proof.Gen.KernelIdeal.Launch
import proofs.«118521_j721554506107_2_alg».proof.Proof.RefOps
import Idealize.ShloMosaic.Lib.StableHlo.Run
import Idealize.ShloMosaic.PureOps.Ideal

noncomputable section

namespace Cert.Hand.LeafA

open Idealize.ShloMosaic Idealize.ShloMosaic.TcCoe Idealize.SL.Sem Idealize.ShloMosaic.StableHlo

/-- The buffers of the kernel program's device after its four host stretches before the first region. -/
abbrev afterK (VK : Valuation Cert.KernelIdeal.τ Cert.KernelIdeal.sig (Elt Ideal)) : Valuation Cert.KernelIdeal.τ Cert.KernelIdeal.sig (Elt Ideal) :=
  StableHlo.after (Cert.KernelIdeal.Gen.hostOps0_3 (F := Ideal)) (StableHlo.after (Cert.KernelIdeal.Gen.hostOps0_2 (F := Ideal))
    (StableHlo.after (Cert.KernelIdeal.Gen.hostOps0_1 (F := Ideal)) (StableHlo.after (Cert.KernelIdeal.Gen.hostOps0 (F := Ideal)) VK)))

/-- The buffers of the reference's device after its first four stretches (through the floored remainder). -/
abbrev afterR (VR : Valuation Cert.ReferenceIdeal.τ Cert.ReferenceIdeal.sig (Elt Ideal)) : Valuation Cert.ReferenceIdeal.τ Cert.ReferenceIdeal.sig (Elt Ideal) :=
  StableHlo.after (Cert.ReferenceIdeal.Hand.refOps3 (F := Ideal)) (StableHlo.after (Cert.ReferenceIdeal.Hand.refOps2 (F := Ideal))
    (StableHlo.after (Cert.ReferenceIdeal.Hand.refOps1 (F := Ideal)) (StableHlo.after (Cert.ReferenceIdeal.Hand.refOps0 (F := Ideal)) VR)))

set_option maxHeartbeats 20000000 in
/-- The normalised points (x − lo) / (hi − lo). -/
theorem pre_v6 (VK : Valuation Cert.KernelIdeal.τ Cert.KernelIdeal.sig (Elt Ideal))
    (VR : Valuation Cert.ReferenceIdeal.τ Cert.ReferenceIdeal.sig (Elt Ideal))
    (h : VR (Proc.devRef .tc Cert.ReferenceIdeal.main_arg0) = VK (Proc.devRef .tc Cert.KernelIdeal.main_arg0)) :
    afterR VR (Proc.devRef .tc Cert.ReferenceIdeal.main_v6) = afterK VK (Proc.devRef .tc Cert.KernelIdeal.main_v6) := by
  after_results_simp
  first
    | (rw [h]; done)
    | (rw [h]; rfl)

/-- The two programs print the same table of the eight corners' offsets (twenty-four words, 0.0 or 1.0). -/
theorem lit2_eq : Cert.ReferenceIdeal.lit2 = Cert.KernelIdeal.lit2 := by
  funext k
  fin_cases k <;> rfl

set_option maxHeartbeats 20000000 in
/-- The table of the eight corners' offsets: a constant of the program, whatever the buffers held. -/
theorem pre_cst2 (VK : Valuation Cert.KernelIdeal.τ Cert.KernelIdeal.sig (Elt Ideal))
    (VR : Valuation Cert.ReferenceIdeal.τ Cert.ReferenceIdeal.sig (Elt Ideal)) :
    afterR VR (Proc.devRef .tc Cert.ReferenceIdeal.main_cst_2) = afterK VK (Proc.devRef .tc Cert.KernelIdeal.main_cst_2) := by
  after_results_simp
  exact funext fun i => congrArg (FloatOps.ofBits (F := Ideal) .f32) (congrFun lit2_eq _)

end Cert.Hand.LeafA

end
-- ==== Proof.LeafB.lean ====
/-
  The two programs' first stretches of host operations are the same operations of the points array: the normalisation
  to the unit cube, the division by each level's cell size, the eight corner offsets, the conversion to integers and the
  clamp to the level's grid. So the buffers they leave — read as functions of the points array alone — coincide:
  here, the fractional offsets inside the cell and the dense levels' flat row numbers.
-/
import proofs.«118521_j721554506107_2_alg».proof.Proof.Gen.KernelIdeal.Launch
import proofs.«118521_j721554506107_2_alg».proof.Proof.RefOps
import Idealize.ShloMosaic.Lib.StableHlo.Run
import Idealize.ShloMosaic.PureOps.Ideal

noncomputable section

namespace Cert.Hand.LeafB

open Idealize.ShloMosaic Idealize.ShloMosaic.TcCoe Idealize.SL.Sem Idealize.ShloMosaic.StableHlo

/-- The buffers of the kernel program's device after its four host stretches before the first region. -/
abbrev afterK (VK : Valuation Cert.KernelIdeal.τ Cert.KernelIdeal.sig (Elt Ideal)) : Valuation Cert.KernelIdeal.τ Cert.KernelIdeal.sig (Elt Ideal) :=
  StableHlo.after (Cert.KernelIdeal.Gen.hostOps0_3 (F := Ideal)) (StableHlo.after (Cert.KernelIdeal.Gen.hostOps0_2 (F := Ideal))
    (StableHlo.after (Cert.KernelIdeal.Gen.hostOps0_1 (F := Ideal)) (StableHlo.after (Cert.KernelIdeal.Gen.hostOps0 (F := Ideal)) VK)))

/-- The buffers of the reference's device after its first four stretches (through the floored remainder). -/
abbrev afterR (VR : Valuation Cert.ReferenceIdeal.τ Cert.ReferenceIdeal.sig (Elt Ideal)) : Valuation Cert.ReferenceIdeal.τ Cert.ReferenceIdeal.sig (Elt Ideal) :=
  StableHlo.after (Cert.ReferenceIdeal.Hand.refOps3 (F := Ideal)) (StableHlo.after (Cert.ReferenceIdeal.Hand.refOps2 (F := Ideal))
    (StableHlo.after (Cert.ReferenceIdeal.Hand.refOps1 (F := Ideal)) (StableHlo.after (Cert.ReferenceIdeal.Hand.refOps0 (F := Ideal)) VR)))

set_option maxHeartbeats 20000000 in
/-- The position inside the cell: the scaled point minus the clamped lower corner, converted back to a float. -/
theorem pre_v25 (VK : Valuation Cert.KernelIdeal.τ Cert.KernelIdeal.sig (Elt Ideal))
    (VR : Valuation Cert.ReferenceIdeal.τ Cert.ReferenceIdeal.sig (Elt Ideal))
    (h : VR (Proc.devRef .tc Cert.ReferenceIdeal.main_arg0) = VK (Proc.devRef .tc Cert.KernelIdeal.main_arg0)) :
    afterR VR (Proc.devRef .tc Cert.ReferenceIdeal.main_v25) = afterK VK (Proc.devRef .tc Cert.KernelIdeal.main_v25) := by
  after_results_simp
  rw [h]
  rfl

set_option maxHeartbeats 20000000 in
/-- The dense levels' flat row numbers (x·n + y)·n + z plus the level's offset in the table. -/
theorem pre_v46 (VK : Valuation Cert.KernelIdeal.τ Cert.KernelIdeal.sig (Elt Ideal))
    (VR : Valuation Cert.ReferenceIdeal.τ Cert.ReferenceIdeal.sig (Elt Ideal))
    (h : VR (Proc.devRef .tc Cert.ReferenceIdeal.main_arg0) = VK (Proc.devRef .tc Cert.KernelIdeal.main_arg0)) :
    afterR VR (Proc.devRef .tc Cert.ReferenceIdeal.main_v46) = afterK VK (Proc.devRef .tc Cert.KernelIdeal.main_v46) := by
  after_results_simp
  rw [h]
  rfl

end Cert.Hand.LeafB

end
-- ==== Proof.LeafH.lean ====
/-
  The two programs' first stretches of host operations are the same operations of the points array: the normalisation
  to the unit cube, the division by each level's cell size, the eight corner offsets, the conversion to integers and the
  clamp to the level's grid. So the buffers they leave, read as functions of the points array alone, coincide: here,
  the hashed levels' table rows ((x·1) xor (y·19349663) xor (z·83492791)) mod 1048583. One program takes the three
  multipliers of the hash from a three-word table (one word sliced out, reshaped to a scalar and broadcast), the other
  broadcasts the same three words as scalar constants: the same arrays, read at an index. The proof cuts at the floored
  remainder: the hash and the modulus agree after three stretches, and the remainder is the same operations of both.
-/
import proofs.«118521_j721554506107_2_alg».proof.Proof.Gen.KernelIdeal.Launch
import proofs.«118521_j721554506107_2_alg».proof.Proof.RefOps
import Idealize.ShloMosaic.Lib.StableHlo.Run
import Idealize.ShloMosaic.Lib.Pipeline.Value
import Idealize.ShloMosaic.Lib.ValueIdx
import Idealize.ShloMosaic.PureOps.Ideal

noncomputable section

namespace Cert.Hand.LeafH

open Idealize.ShloMosaic Idealize.ShloMosaic.TcCoe Idealize.SL.Sem Idealize.ShloMosaic.StableHlo

/-- The buffers of the kernel program's device after its four host stretches before the first region. -/
abbrev afterK (VK : Valuation Cert.KernelIdeal.τ Cert.KernelIdeal.sig (Elt Ideal)) : Valuation Cert.KernelIdeal.τ Cert.KernelIdeal.sig (Elt Ideal) :=
  StableHlo.after (Cert.KernelIdeal.Gen.hostOps0_3 (F := Ideal)) (StableHlo.after (Cert.KernelIdeal.Gen.hostOps0_2 (F := Ideal))
    (StableHlo.after (Cert.KernelIdeal.Gen.hostOps0_1 (F := Ideal)) (StableHlo.after (Cert.KernelIdeal.Gen.hostOps0 (F := Ideal)) VK)))

/-- The buffers of the reference's device after its first four stretches (through the floored remainder). -/
abbrev afterR (VR : Valuation Cert.ReferenceIdeal.τ Cert.ReferenceIdeal.sig (Elt Ideal)) : Valuation Cert.ReferenceIdeal.τ Cert.ReferenceIdeal.sig (Elt Ideal) :=
  StableHlo.after (Cert.ReferenceIdeal.Hand.refOps3 (F := Ideal)) (StableHlo.after (Cert.ReferenceIdeal.Hand.refOps2 (F := Ideal))
    (StableHlo.after (Cert.ReferenceIdeal.Hand.refOps1 (F := Ideal)) (StableHlo.after (Cert.ReferenceIdeal.Hand.refOps0 (F := Ideal)) VR)))

/-- The buffers after the first three stretches (up to the floored remainder). -/
abbrev before3K (VK : Valuation Cert.KernelIdeal.τ Cert.KernelIdeal.sig (Elt Ideal)) : Valuation Cert.KernelIdeal.τ Cert.KernelIdeal.sig (Elt Ideal) :=
  StableHlo.after (Cert.KernelIdeal.Gen.hostOps0_2 (F := Ideal)) (StableHlo.after (Cert.KernelIdeal.Gen.hostOps0_1 (F := Ideal)) (StableHlo.after (Cert.KernelIdeal.Gen.hostOps0 (F := Ideal)) VK))
/-- The reference's buffers after its first three stretches (up to the floored remainder). -/
abbrev before3R (VR : Valuation Cert.ReferenceIdeal.τ Cert.ReferenceIdeal.sig (Elt Ideal)) : Valuation Cert.ReferenceIdeal.τ Cert.ReferenceIdeal.sig (Elt Ideal) :=
  StableHlo.after (Cert.ReferenceIdeal.Hand.refOps2 (F := Ideal)) (StableHlo.after (Cert.ReferenceIdeal.Hand.refOps1 (F := Ideal)) (StableHlo.after (Cert.ReferenceIdeal.Hand.refOps0 (F := Ideal)) VR))

/-- Word 0 of the three-word table of multipliers, sliced out, reshaped to a scalar and broadcast, is the constant
    array of that word; likewise words 1 and 2 below. Each layout operation reads its operand at one index: the
    broadcast from the empty shape at the empty index, the reshape [1] → [] at position 0, the slice at offset k at
    position k of the table. -/
theorem mult0 : (broadcastInDim Cert.KernelIdeal.S10x65536x8 ![] Cert.KernelIdeal.Gen.bcast_S_S10x65536x8
      (shapeCast Cert.KernelIdeal.S_ (extractStridedSlice Cert.KernelIdeal.S1 ![0] (fun i => Cert.KernelIdeal.lit4 (Cert.KernelIdeal.S3.rowMajor i)) Cert.KernelIdeal.Gen.slices_S3_S1_0) Cert.KernelIdeal.Gen.shapeCasts_S1_S_) : IVec Cert.KernelIdeal.S10x65536x8 32)
    = broadcastInDim Cert.KernelIdeal.S10x65536x8 ![] Cert.KernelIdeal.Gen.bcast_S_S10x65536x8 (constantI Cert.KernelIdeal.S_ 32 1#32) := by
  refine congrArg (broadcastInDim (s := Cert.KernelIdeal.S_) (α := BitVec 32) Cert.KernelIdeal.S10x65536x8
    (![] : Fin 0 → Fin Cert.KernelIdeal.S10x65536x8.rank) Cert.KernelIdeal.Gen.bcast_S_S10x65536x8) ?_
  funext j
  refine (shapeCast_apply _ _ j (ValueIdx.ix1 (0 : Fin 1)) ?_).trans ?_
  · have h1 : (Cert.KernelIdeal.S_.rowMajor j).val < 1 := (Cert.KernelIdeal.S_.rowMajor j).isLt
    rw [Shape.rowMajor_val_one]
    show (0 : Nat) = _
    omega
  refine (extractStridedSlice_apply _ _ _ (ValueIdx.ix1 (0 : Fin 1)) (ValueIdx.ix1 (0 : Fin 3)) ?_).trans ?_
  · intro a
    obtain rfl : a = 0 := Subsingleton.elim _ _
    rfl
  have hr : Cert.KernelIdeal.S3.rowMajor (ValueIdx.ix1 (0 : Fin 3)) = (0 : Fin 3) :=
    Fin.ext (by rw [Shape.rowMajor_val_one])
  show Cert.KernelIdeal.lit4 (Cert.KernelIdeal.S3.rowMajor (ValueIdx.ix1 (0 : Fin 3))) = _
  rw [hr]
  rfl

theorem mult1 : (broadcastInDim Cert.KernelIdeal.S10x65536x8 ![] Cert.KernelIdeal.Gen.bcast_S_S10x65536x8
      (shapeCast Cert.KernelIdeal.S_ (extractStridedSlice Cert.KernelIdeal.S1 ![1] (fun i => Cert.KernelIdeal.lit4 (Cert.KernelIdeal.S3.rowMajor i)) Cert.KernelIdeal.Gen.slices_S3_S1_1) Cert.KernelIdeal.Gen.shapeCasts_S1_S_) : IVec Cert.KernelIdeal.S10x65536x8 32)
    = broadcastInDim Cert.KernelIdeal.S10x65536x8 ![] Cert.KernelIdeal.Gen.bcast_S_S10x65536x8 (constantI Cert.KernelIdeal.S_ 32 19349663#32) := by
  refine congrArg (broadcastInDim (s := Cert.KernelIdeal.S_) (α := BitVec 32) Cert.KernelIdeal.S10x65536x8
    (![] : Fin 0 → Fin Cert.KernelIdeal.S10x65536x8.rank) Cert.KernelIdeal.Gen.bcast_S_S10x65536x8) ?_
  funext j
  refine (shapeCast_apply _ _ j (ValueIdx.ix1 (0 : Fin 1)) ?_).trans ?_
  · have h1 : (Cert.KernelIdeal.S_.rowMajor j).val < 1 := (Cert.KernelIdeal.S_.rowMajor j).isLt
    rw [Shape.rowMajor_val_one]
    show (0 : Nat) = _
    omega
  refine (extractStridedSlice_apply _ _ _ (ValueIdx.ix1 (0 : Fin 1)) (ValueIdx.ix1 (1 : Fin 3)) ?_).trans ?_
  · intro a
    obtain rfl : a = 0 := Subsingleton.elim _ _
    rfl
  have hr : Cert.KernelIdeal.S3.rowMajor (ValueIdx.ix1 (1 : Fin 3)) = (1 : Fin 3) :=
    Fin.ext (by rw [Shape.rowMajor_val_one])
  show Cert.KernelIdeal.lit4 (Cert.KernelIdeal.S3.rowMajor (ValueIdx.ix1 (1 : Fin 3))) = _
  rw [hr]
  rfl

theorem mult2 : (broadcastInDim Cert.KernelIdeal.S10x65536x8 ![] Cert.KernelIdeal.Gen.bcast_S_S10x65536x8
      (shapeCast Cert.KernelIdeal.S_ (extractStridedSlice Cert.KernelIdeal.S1 ![2] (fun i => Cert.KernelIdeal.lit4 (Cert.KernelIdeal.S3.rowMajor i)) Cert.KernelIdeal.Gen.slices_S3_S1_2) Cert.KernelIdeal.Gen.shapeCasts_S1_S_) : IVec Cert.KernelIdeal.S10x65536x8 32)
    = broadcastInDim Cert.KernelIdeal.S10x65536x8 ![] Cert.KernelIdeal.Gen.bcast_S_S10x65536x8 (constantI Cert.KernelIdeal.S_ 32 83492791#32) := by
  refine congrArg (broadcastInDim (s := Cert.KernelIdeal.S_) (α := BitVec 32) Cert.KernelIdeal.S10x65536x8
    (![] : Fin 0 → Fin Cert.KernelIdeal.S10x65536x8.rank) Cert.KernelIdeal.Gen.bcast_S_S10x65536x8) ?_
  funext j
  refine (shapeCast_apply _ _ j (ValueIdx.ix1 (0 : Fin 1)) ?_).trans ?_
  · have h1 : (Cert.KernelIdeal.S_.rowMajor j).val < 1 := (Cert.KernelIdeal.S_.rowMajor j).isLt
    rw [Shape.rowMajor_val_one]
    show (0 : Nat) = _
    omega
  refine (extractStridedSlice_apply _ _ _ (ValueIdx.ix1 (0 : Fin 1)) (ValueIdx.ix1 (2 : Fin 3)) ?_).trans ?_
  · intro a
    obtain rfl : a = 0 := Subsingleton.elim _ _
    rfl
  have hr : Cert.KernelIdeal.S3.rowMajor (ValueIdx.ix1 (2 : Fin 3)) = (2 : Fin 3) :=
    Fin.ext (by rw [Shape.rowMajor_val_one])
  show Cert.KernelIdeal.lit4 (Cert.KernelIdeal.S3.rowMajor (ValueIdx.ix1 (2 : Fin 3))) = _
  rw [hr]
  rfl

set_option maxHeartbeats 20000000 in
/-- The hash before the remainder, (x·1) xor (y·19349663) xor (z·83492791) on the clamped integer coordinates: the
    coordinates are the same operations of the points array in both programs, the multipliers the same constant
    arrays. -/
theorem hash_eq (VK : Valuation Cert.KernelIdeal.τ Cert.KernelIdeal.sig (Elt Ideal))
    (VR : Valuation Cert.ReferenceIdeal.τ Cert.ReferenceIdeal.sig (Elt Ideal))
    (h : VR (Proc.devRef .tc Cert.ReferenceIdeal.main_arg0) = VK (Proc.devRef .tc Cert.KernelIdeal.main_arg0)) :
    before3R VR (Proc.devRef .tc Cert.ReferenceIdeal.main_v61) = before3K VK (Proc.devRef .tc Cert.KernelIdeal.main_v67) := by
  after_results_simp
  rw [h]
  refine congrArg₂ xori (congrArg₂ xori (congrArg₂ muli ?_ ?_) (congrArg₂ muli ?_ ?_)) (congrArg₂ muli ?_ ?_)
  · rfl
  · exact mult0.symm
  · rfl
  · exact mult1.symm
  · rfl
  · exact mult2.symm

set_option maxHeartbeats 20000000 in
/-- The modulus: the constant 1048583 in both programs. -/
theorem mod_eq (VK : Valuation Cert.KernelIdeal.τ Cert.KernelIdeal.sig (Elt Ideal))
    (VR : Valuation Cert.ReferenceIdeal.τ Cert.ReferenceIdeal.sig (Elt Ideal)) :
    before3R VR (Proc.devRef .tc Cert.ReferenceIdeal.main_c_10) = before3K VK (Proc.devRef .tc Cert.KernelIdeal.main_c_8) := by
  after_results_simp
  first
    | done
    | rfl

set_option maxHeartbeats 20000000 in
/-- The floored remainder is the same operations of the hash and the modulus in both programs. -/
theorem rem_eq (VK3 : Valuation Cert.KernelIdeal.τ Cert.KernelIdeal.sig (Elt Ideal))
    (VR3 : Valuation Cert.ReferenceIdeal.τ Cert.ReferenceIdeal.sig (Elt Ideal))
    (h61 : VR3 (Proc.devRef .tc Cert.ReferenceIdeal.main_v61) = VK3 (Proc.devRef .tc Cert.KernelIdeal.main_v67))
    (hc : VR3 (Proc.devRef .tc Cert.ReferenceIdeal.main_c_10) = VK3 (Proc.devRef .tc Cert.KernelIdeal.main_c_8)) :
    StableHlo.after (Cert.ReferenceIdeal.Hand.refOps3 (F := Ideal)) VR3 (Proc.devRef .tc Cert.ReferenceIdeal.main_v62)
      = StableHlo.after (Cert.KernelIdeal.Gen.hostOps0_3 (F := Ideal)) VK3 (Proc.devRef .tc Cert.KernelIdeal.main_v68) := by
  after_results_simp
  first
    | (rw [h61, hc]; done)
    | (rw [h61, hc]; rfl)

/-- The hashed levels' rows ((x·1) xor (y·19349663) xor (z·83492791)) mod 1048583, the remainder floored. -/
theorem pre_hash (VK : Valuation Cert.KernelIdeal.τ Cert.KernelIdeal.sig (Elt Ideal))
    (VR : Valuation Cert.ReferenceIdeal.τ Cert.ReferenceIdeal.sig (Elt Ideal))
    (h : VR (Proc.devRef .tc Cert.ReferenceIdeal.main_arg0) = VK (Proc.devRef .tc Cert.KernelIdeal.main_arg0)) :
    afterR VR (Proc.devRef .tc Cert.ReferenceIdeal.main_v62) = afterK VK (Proc.devRef .tc Cert.KernelIdeal.main_v68) :=
  rem_eq (before3K VK) (before3R VR) (hash_eq VK VR h) (mod_eq VK VR)

end Cert.Hand.LeafH

end
-- ==== Proof.LeafTail.lean ====
/-
  The two programs' last stretches compute four arrays by the same operations of buffers the earlier stretches left:
  the normalised points are passed through; the corner weights are w = m₀·m₁ with m = (1 − o) + (2o − 1)·t, o the
  corner's offset and t the position inside the cell; the dense levels' rows and the hashed levels' (level, row) pairs
  are made non-negative by adding the table size to a negative row. So from valuations that agree on the buffers read,
  each of the four is the same array in both programs.
-/
import proofs.«118521_j721554506107_2_alg».proof.Proof.Gen.KernelIdeal.Launch
import proofs.«118521_j721554506107_2_alg».proof.Proof.RefOps
import Idealize.ShloMosaic.Lib.StableHlo.Run
import Idealize.ShloMosaic.PureOps.Ideal

noncomputable section

namespace Cert.Hand.LeafTail

open Idealize.ShloMosaic Idealize.ShloMosaic.TcCoe Idealize.SL.Sem Idealize.ShloMosaic.StableHlo

variable (VK : Valuation Cert.KernelIdeal.τ Cert.KernelIdeal.sig (Elt Ideal))
  (VR : Valuation Cert.ReferenceIdeal.τ Cert.ReferenceIdeal.sig (Elt Ideal))

set_option maxHeartbeats 20000000 in
/-- The normalised points pass through the last stretch unchanged. -/
theorem tail_xn
    (h6 : VR (Proc.devRef .tc Cert.ReferenceIdeal.main_v6) = VK (Proc.devRef .tc Cert.KernelIdeal.main_v6)) :
    StableHlo.after (Cert.ReferenceIdeal.Hand.refOps4 (F := Ideal)) VR (Proc.devRef .tc Cert.ReferenceIdeal.main_v6)
      = StableHlo.after (Cert.KernelIdeal.Gen.hostOps2 (F := Ideal)) VK (Proc.devRef .tc Cert.KernelIdeal.main_v6) := by
  after_results_simp
  first
    | (rw [h6]; done)
    | (rw [h6]; rfl)

set_option maxHeartbeats 20000000 in
/-- The corner weights, from the position inside the cell and the table of corner offsets. -/
theorem tail_w
    (h25 : VR (Proc.devRef .tc Cert.ReferenceIdeal.main_v25) = VK (Proc.devRef .tc Cert.KernelIdeal.main_v25))
    (hc : VR (Proc.devRef .tc Cert.ReferenceIdeal.main_cst_2) = VK (Proc.devRef .tc Cert.KernelIdeal.main_cst_2)) :
    StableHlo.after (Cert.ReferenceIdeal.Hand.refOps4 (F := Ideal)) VR (Proc.devRef .tc Cert.ReferenceIdeal.main_v106)
      = StableHlo.after (Cert.KernelIdeal.Gen.hostOps2 (F := Ideal)) VK (Proc.devRef .tc Cert.KernelIdeal.main_v118) := by
  after_results_simp
  first
    | (rw [h25, hc]; done)
    | (rw [h25, hc]; rfl)

set_option maxHeartbeats 20000000 in
/-- The dense levels' rows, a negative row shifted by the table size, as index words. -/
theorem tail_iD
    (h46 : VR (Proc.devRef .tc Cert.ReferenceIdeal.main_v46) = VK (Proc.devRef .tc Cert.KernelIdeal.main_v46)) :
    StableHlo.after (Cert.ReferenceIdeal.Hand.refOps4 (F := Ideal)) VR (Proc.devRef .tc Cert.ReferenceIdeal.main_v68)
      = StableHlo.after (Cert.KernelIdeal.Gen.hostOps2 (F := Ideal)) VK (Proc.devRef .tc Cert.KernelIdeal.main_v80) := by
  after_results_simp
  first
    | (rw [h46]; done)
    | (rw [h46]; rfl)

end Cert.Hand.LeafTail

end
-- ==== Proof.LeafTailH.lean ====
/-
  The two programs' last stretches compute the hashed levels' (level, row) index pairs by the same operations: the level
  numbers 0 … 9 (an iota, a negative one shifted by 10), the rows the earlier stretches left (a negative one shifted by
  the table size 1048583), each broadcast to [10, 65536, 8, 1], and the two joined along the last axis. A join of two
  arrays is a function of the two arrays alone, so it is enough that the two programs' operands agree one by one: the
  level numbers always, the rows when the valuations agree on the buffer the rows are read from.
-/
import proofs.«118521_j721554506107_2_alg».proof.Proof.Gen.KernelIdeal.Launch
import proofs.«118521_j721554506107_2_alg».proof.Proof.RefOps
import Idealize.ShloMosaic.Lib.StableHlo.Run
import Idealize.ShloMosaic.PureOps.Ideal

noncomputable section

namespace Cert.Hand.LeafTailH

open Idealize.ShloMosaic Idealize.ShloMosaic.TcCoe Idealize.SL.Sem Idealize.ShloMosaic.StableHlo

variable (VK : Valuation Cert.KernelIdeal.τ Cert.KernelIdeal.sig (Elt Ideal))
  (VR : Valuation Cert.ReferenceIdeal.τ Cert.ReferenceIdeal.sig (Elt Ideal))

/-- A concatenation of two arrays depends on the arrays only: equal operands give equal results. -/
theorem concat2_congr {α : Type} {t : Shape} {a : Fin t.rank} {s1 s2 : Shape} {x x' : s1.Idx → α} {y y' : s2.Idx → α}
    (h : Shape.Concatenates (([⟨s1, x⟩, ⟨s2, y⟩] : List ((s : Shape) × (s.Idx → α))).map (·.1)) t a)
    (h' : Shape.Concatenates (([⟨s1, x'⟩, ⟨s2, y'⟩] : List ((s : Shape) × (s.Idx → α))).map (·.1)) t a)
    (hx : x = x') (hy : y = y') :
    concatenate t a [⟨s1, x⟩, ⟨s2, y⟩] h = concatenate t a [⟨s1, x'⟩, ⟨s2, y'⟩] h' := by
  subst hx; subst hy; rfl

set_option maxHeartbeats 20000000 in
/-- The hashed levels' (level, row) pairs, a negative row shifted by the table size. -/
theorem tail_iH
    (h62 : VR (Proc.devRef .tc Cert.ReferenceIdeal.main_v62) = VK (Proc.devRef .tc Cert.KernelIdeal.main_v68)) :
    StableHlo.after (Cert.ReferenceIdeal.Hand.refOps4 (F := Ideal)) VR (Proc.devRef .tc Cert.ReferenceIdeal.main_v85)
      = StableHlo.after (Cert.KernelIdeal.Gen.hostOps2 (F := Ideal)) VK (Proc.devRef .tc Cert.KernelIdeal.main_v97) := by
  after_results_simp
  refine concat2_congr _ _ ?_ ?_
  · after_results_simp
    first
      | done
      | rfl
  · after_results_simp
    first
      | (rw [h62]; done)
      | (rw [h62]; rfl)

end Cert.Hand.LeafTailH

end
-- ==== Proof.TailsLib.lean ====
import Idealize.ShloMosaic.Lib.Pipeline.Value
import Idealize.ShloMosaic.Lib.ValueIdx
import Idealize.ShloMosaic.Lib.IdealHost
import Idealize.ShloMosaic.PureOps.Ideal.Laws

/-!
  Host layout operations read at ONE index, at the ranks the two tails use, over generic extents: the
  concatenation of two arrays along the last axis of a matrix or the leading axis of a rank-3 / rank-4 array,
  the transposes [1,0] and [1,0,2], the sum over the last-but-one or last axis, the two broadcasts that spread
  a rank-3 array over a new trailing axis, and the reshapes [N,1] → [N] and [a·b] → [a,b].
  Every index is written with the literal-size constructors `ix1 … ix4`.
-/

open scoped BigOperators

namespace Cert.Hand.TailsLib

open Idealize.ShloMosaic Idealize.ShloMosaic.ValueIdx

variable {α : Type}

/-! ## Concatenation -/

/-- `[n,p] ++ [n,q]` along axis 1, at a column below `p`: the first piece. -/
theorem concat2_axis1_left {n p q r : Nat} (x : (⟨2, ![n, p]⟩ : Shape).Idx → α) (y : (⟨2, ![n, q]⟩ : Shape).Idx → α)
    (h : Shape.Concatenates [⟨2, ![n, p]⟩, ⟨2, ![n, q]⟩] ⟨2, ![n, r]⟩ 1) (i : Fin n) (c : Fin p) (c' : Fin r)
    (hc : c.val = c'.val) :
    concatenate ⟨2, ![n, r]⟩ 1 [⟨⟨2, ![n, p]⟩, x⟩, ⟨⟨2, ![n, q]⟩, y⟩] h (ix2 i c') = x (ix2 i c) :=
  concatenate_pair_apply_left 1 x y h (ix2 i c') rfl (ix2 i c)
    (fun b => match b with | ⟨0, _⟩ => rfl | ⟨1, _⟩ => hc)

/-- `[n,p] ++ [n,q]` along axis 1, at column `p + c`: the second piece at column `c`. -/
theorem concat2_axis1_right {n p q r : Nat} (x : (⟨2, ![n, p]⟩ : Shape).Idx → α) (y : (⟨2, ![n, q]⟩ : Shape).Idx → α)
    (h : Shape.Concatenates [⟨2, ![n, p]⟩, ⟨2, ![n, q]⟩] ⟨2, ![n, r]⟩ 1) (i : Fin n) (c : Fin q) (c' : Fin r)
    (hc : c.val + p = c'.val) :
    concatenate ⟨2, ![n, r]⟩ 1 [⟨⟨2, ![n, p]⟩, x⟩, ⟨⟨2, ![n, q]⟩, y⟩] h (ix2 i c') = y (ix2 i c) :=
  concatenate_pair_apply_right 1 x y h (ix2 i c') rfl rfl (ix2 i c)
    (fun b hb => match b, hb with | ⟨0, _⟩, _ => rfl | ⟨1, _⟩, hb => absurd rfl hb) hc

/-- `[p,m,n] ++ [q,m,n]` along axis 0, at a leading coordinate below `p`: the first piece. -/
theorem concat3_axis0_left {p q r m n : Nat} (x : (⟨3, ![p, m, n]⟩ : Shape).Idx → α) (y : (⟨3, ![q, m, n]⟩ : Shape).Idx → α)
    (h : Shape.Concatenates [⟨3, ![p, m, n]⟩, ⟨3, ![q, m, n]⟩] ⟨3, ![r, m, n]⟩ 0) (l : Fin p) (l' : Fin r) (i : Fin m) (j : Fin n)
    (hl : l.val = l'.val) :
    concatenate ⟨3, ![r, m, n]⟩ 0 [⟨⟨3, ![p, m, n]⟩, x⟩, ⟨⟨3, ![q, m, n]⟩, y⟩] h (ix3 l' i j) = x (ix3 l i j) :=
  concatenate_pair_apply_left 0 x y h (ix3 l' i j) rfl (ix3 l i j)
    (fun b => match b with | ⟨0, _⟩ => hl | ⟨1, _⟩ => rfl | ⟨2, _⟩ => rfl)

/-- `[p,m,n] ++ [q,m,n]` along axis 0, at leading coordinate `p + l`: the second piece at `l`. -/
theorem concat3_axis0_right {p q r m n : Nat} (x : (⟨3, ![p, m, n]⟩ : Shape).Idx → α) (y : (⟨3, ![q, m, n]⟩ : Shape).Idx → α)
    (h : Shape.Concatenates [⟨3, ![p, m, n]⟩, ⟨3, ![q, m, n]⟩] ⟨3, ![r, m, n]⟩ 0) (l : Fin q) (l' : Fin r) (i : Fin m) (j : Fin n)
    (hl : l.val + p = l'.val) :
    concatenate ⟨3, ![r, m, n]⟩ 0 [⟨⟨3, ![p, m, n]⟩, x⟩, ⟨⟨3, ![q, m, n]⟩, y⟩] h (ix3 l' i j) = y (ix3 l i j) :=
  concatenate_pair_apply_right 0 x y h (ix3 l' i j) rfl rfl (ix3 l i j)
    (fun b hb => match b, hb with | ⟨0, _⟩, hb => absurd rfl hb | ⟨1, _⟩, _ => rfl | ⟨2, _⟩, _ => rfl) hl

/-- `[p,m,n,k] ++ [q,m,n,k]` along axis 0, at a leading coordinate below `p`: the first piece. -/
theorem concat4_axis0_left {p q r m n k : Nat} (x : (⟨4, ![p, m, n, k]⟩ : Shape).Idx → α) (y : (⟨4, ![q, m, n, k]⟩ : Shape).Idx → α)
    (h : Shape.Concatenates [⟨4, ![p, m, n, k]⟩, ⟨4, ![q, m, n, k]⟩] ⟨4, ![r, m, n, k]⟩ 0) (l : Fin p) (l' : Fin r)
    (i : Fin m) (j : Fin n) (f : Fin k) (hl : l.val = l'.val) :
    concatenate ⟨4, ![r, m, n, k]⟩ 0 [⟨⟨4, ![p, m, n, k]⟩, x⟩, ⟨⟨4, ![q, m, n, k]⟩, y⟩] h (ix4 l' i j f) = x (ix4 l i j f) :=
  concatenate_pair_apply_left 0 x y h (ix4 l' i j f) rfl (ix4 l i j f)
    (fun b => match b with | ⟨0, _⟩ => hl | ⟨1, _⟩ => rfl | ⟨2, _⟩ => rfl | ⟨3, _⟩ => rfl)

/-- `[p,m,n,k] ++ [q,m,n,k]` along axis 0, at leading coordinate `p + l`: the second piece at `l`. -/
theorem concat4_axis0_right {p q r m n k : Nat} (x : (⟨4, ![p, m, n, k]⟩ : Shape).Idx → α) (y : (⟨4, ![q, m, n, k]⟩ : Shape).Idx → α)
    (h : Shape.Concatenates [⟨4, ![p, m, n, k]⟩, ⟨4, ![q, m, n, k]⟩] ⟨4, ![r, m, n, k]⟩ 0) (l : Fin q) (l' : Fin r)
    (i : Fin m) (j : Fin n) (f : Fin k) (hl : l.val + p = l'.val) :
    concatenate ⟨4, ![r, m, n, k]⟩ 0 [⟨⟨4, ![p, m, n, k]⟩, x⟩, ⟨⟨4, ![q, m, n, k]⟩, y⟩] h (ix4 l' i j f) = y (ix4 l i j f) :=
  concatenate_pair_apply_right 0 x y h (ix4 l' i j f) rfl rfl (ix4 l i j f)
    (fun b hb => match b, hb with
      | ⟨0, _⟩, hb => absurd rfl hb | ⟨1, _⟩, _ => rfl | ⟨2, _⟩, _ => rfl | ⟨3, _⟩, _ => rfl) hl

/-! ## Transposes -/

/-- The transpose `[a,b] → [b,a]`. -/
theorem transpose2_apply {a b : Nat} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) (fun d => match d with | ⟨0, _⟩ => rfl | ⟨1, _⟩ => rfl)

/-- The transpose `[a,b,c] → [b,a,c]`. -/
theorem transpose3_apply {a b c : Nat} (x : (⟨3, ![a, b, c]⟩ : Shape).Idx → α)
    (h : (⟨3, ![a, b, c]⟩ : Shape).Transposes [1, 0, 2] ⟨3, ![b, a, c]⟩) (i : Fin a) (j : Fin b) (k : Fin c) :
    transpose ⟨3, ![b, a, c]⟩ [1, 0, 2] x h (ix3 j i k) = x (ix3 i j k) :=
  transpose_apply [1, 0, 2] x h (ix3 j i k) (ix3 i j k)
    (fun d => match d with | ⟨0, _⟩ => rfl | ⟨1, _⟩ => rfl | ⟨2, _⟩ => rfl)

/-! ## Sums over one axis -/

/-- The host's sum over the last axis of `[a,b,c]`: the initial value plus the sum of the `c` entries. -/
theorem reduce3_axis2_apply {a b c : Nat} {u : Shape} (x : FVec Ideal ⟨3, ![a, b, c]⟩ .f32) (init : u.Idx → Ideal .f32)
    (h' : (⟨3, ![a, b, c]⟩ : Shape).ReducesTo [2] ⟨2, ![a, b]⟩) (hu : 0 < u.numel) (i : Fin a) (j : Fin b) :
    Host.reduceAdd (F := Ideal) x init h' hu (ix2 i j) = init (Shape.Idx.first hu) + ∑ k : Fin c, x (ix3 i j k) := by
  have h : (⟨3, ![a, b, c]⟩ : Shape).Reduces [2] ⟨2, ![a, b]⟩ := ⟨h'.1, Nat.two_pos, h'.2⟩
  show Ideal.hostReduceAdd h' x _ (ix2 i j) = _
  rw [Ideal.hostReduceAdd_single h' h]
  refine congrArg (_ + ·) (Finset.sum_congr rfl fun k _ => ?_)
  refine congrArg x (funext fun d => Fin.ext ?_)
  match d with
  | ⟨0, _⟩ => rfl
  | ⟨1, _⟩ => rfl
  | ⟨2, _⟩ => rfl

/-- The host's sum over axis 2 of `[a,b,c,e]`: the initial value plus the sum of the `c` entries. -/
theorem reduce4_axis2_apply {a b c e : Nat} {u : Shape} (x : FVec Ideal ⟨4, ![a, b, c, e]⟩ .f32) (init : u.Idx → Ideal .f32)
    (h' : (⟨4, ![a, b, c, e]⟩ : Shape).ReducesTo [2] ⟨3, ![a, b, e]⟩) (hu : 0 < u.numel) (i : Fin a) (j : Fin b) (f : Fin e) :
    Host.reduceAdd (F := Ideal) x init h' hu (ix3 i j f) = init (Shape.Idx.first hu) + ∑ k : Fin c, x (ix4 i j k f) := by
  have h : (⟨4, ![a, b, c, e]⟩ : Shape).Reduces [2] ⟨3, ![a, b, e]⟩ := ⟨h'.1, Nat.succ_pos 2, h'.2⟩
  show Ideal.hostReduceAdd h' x _ (ix3 i j f) = _
  rw [Ideal.hostReduceAdd_single h' h]
  refine congrArg (_ + ·) (Finset.sum_congr rfl fun k _ => ?_)
  refine congrArg x (funext fun d => Fin.ext ?_)
  match d with
  | ⟨0, _⟩ => rfl
  | ⟨1, _⟩ => rfl
  | ⟨2, _⟩ => rfl
  | ⟨3, _⟩ => rfl

/-! ## Broadcasts over a new trailing axis -/

/-- `[a,b,c] → [a,b,c,1]` (axes kept in place). -/
theorem bcast3_unit_apply {a b c : Nat} (x : (⟨3, ![a, b, c]⟩ : Shape).Idx → α)
    (h : (⟨3, ![a, b, c]⟩ : Shape).BroadcastsInDim ⟨4, ![a, b, c, 1]⟩ ![0, 1, 2]) (ha : a ≠ 1) (hb : b ≠ 1) (hc : c ≠ 1)
    (i : Fin a) (j : Fin b) (k : Fin c) (z : Fin 1) :
    broadcastInDim ⟨4, ![a, b, c, 1]⟩ ![0, 1, 2] h x (ix4 i j k z) = x (ix3 i j k) :=
  broadcastInDim_apply ![0, 1, 2] h x (ix4 i j k z) (ix3 i j k)
    (fun d => match d with
      | ⟨0, _⟩ => (if_neg ha).symm
      | ⟨1, _⟩ => (if_neg hb).symm
      | ⟨2, _⟩ => (if_neg hc).symm)

/-- `[a,b,c,1] → [a,b,c,e]`: the unit axis spread over `e`. -/
theorem bcast4_spread_apply {a b c e : Nat} (x : (⟨4, ![a, b, c, 1]⟩ : Shape).Idx → α)
    (h : (⟨4, ![a, b, c, 1]⟩ : Shape).BroadcastsInDim ⟨4, ![a, b, c, e]⟩ ![0, 1, 2, 3]) (ha : a ≠ 1) (hb : b ≠ 1) (hc : c ≠ 1)
    (i : Fin a) (j : Fin b) (k : Fin c) (f : Fin e) :
    broadcastInDim ⟨4, ![a, b, c, e]⟩ ![0, 1, 2, 3] h x (ix4 i j k f) = x (ix4 i j k (0 : Fin 1)) :=
  broadcastInDim_apply ![0, 1, 2, 3] h x (ix4 i j k f) (ix4 i j k (0 : Fin 1))
    (fun d => match d with
      | ⟨0, _⟩ => (if_neg ha).symm
      | ⟨1, _⟩ => (if_neg hb).symm
      | ⟨2, _⟩ => (if_neg hc).symm
      | ⟨3, _⟩ => (if_pos rfl).symm)

/-! ## Reshapes -/

/-- `[N,1] → [N]`. -/
theorem cast_col_apply {N : Nat} (x : (⟨2, ![N, 1]⟩ : Shape).Idx → α)
    (h : (⟨2, ![N, 1]⟩ : Shape).ShapeCasts ⟨1, ![N]⟩) (r : Fin N) :
    shapeCast ⟨1, ![N]⟩ x h (ix1 r) = x (ix2 r (0 : Fin 1)) :=
  shapeCast_apply x h (ix1 r) (ix2 r (0 : Fin 1)) (by
    rw [Shape.rowMajor_val_two, Shape.rowMajor_val_one]
    show r.val * 1 + 0 = r.val
    omega)

/-- `[a·b] → [a,b]`: entry `(i, j)` is entry `i·b + j`. -/
theorem cast_rows_apply {N a b : Nat} (x : (⟨1, ![N]⟩ : Shape).Idx → α)
    (h : (⟨1, ![N]⟩ : Shape).ShapeCasts ⟨2, ![a, b]⟩) (i : Fin a) (j : Fin b) (r : Fin N) (hr : r.val = i.val * b + j.val) :
    shapeCast ⟨2, ![a, b]⟩ x h (ix2 i j) = x (ix1 r) :=
  shapeCast_apply x h (ix2 i j) (ix1 r) (by
    rw [Shape.rowMajor_val_two, Shape.rowMajor_val_one]
    show r.val = i.val * b + j.val
    exact hr)

end Cert.Hand.TailsLib
-- ==== Proof.TailsRead.lean ====
import proofs.«118521_j721554506107_2_alg».proof.Proof.Tails
import proofs.«118521_j721554506107_2_alg».proof.Proof.TailsLib

/-!
  The two tails read at one index of the output `[65536, 19]`.

  Columns 0..2 are the points on both sides. Column `3 + l` of point `n` is
  * for the kernel, `0 + ∑_c w(l,n,c) · K(l,n,c)`, `K` the stack of gathered row sums (`kStack`);
  * for the reference, `0 + ∑_f (0 + ∑_c w(l,n,c) · R(l,n,c,f))`, `R` the stack of gathered rows (`rStack`).
  The stacks read at a level below 6 are the dense gather, at a level `6 + l` the hashed gather at `l`.
-/

open scoped BigOperators

noncomputable section

namespace Cert.Hand.Tails

open Idealize.ShloMosaic Idealize.ShloMosaic.ValueIdx Cert.Hand.TailsLib

/-- The zero the host's sums start from. -/
theorem init_zero (hu : 0 < (⟨0, ![]⟩ : Shape).numel) :
    constant (F := Ideal) (⟨0, ![]⟩ : Shape) .f32 0x00000000#32 (Shape.Idx.first hu) = (0 : EReal) :=
  Ideal.ofBits_zero_f32

section Kernel
open Cert.KernelIdeal Cert.KernelIdeal.Gen

/-- The gathered row sums of the six dense and the ten hashed levels, stacked: `[16, 65536, 8]`. -/
def kStack (iD : (⟨S6x65536x8x1, .i32⟩ : BufTy).Contents (Elt Ideal))
    (iH : (⟨S10x65536x8x2, .i32⟩ : BufTy).Contents (Elt Ideal))
    (rs0 : FVec Ideal S822944x1 .f32) (rs1 : FVec Ideal S10485830x1 .f32) : FVec Ideal S16x65536x8 .f32 :=
  concatenate S16x65536x8 0
    [⟨S6x65536x8,
      Host.gather gather_S822944_S6x65536x8x1_S6x65536x8_n_0_n_n_0_3_1
        (shapeCast S822944 rs0 shapeCasts_S822944x1_S822944) iD⟩,
     ⟨S10x65536x8,
      Host.gather gather_S10x1048583_S10x65536x8x2_S10x65536x8_n_01_n_n_01_3_11
        (shapeCast S10x1048583 (shapeCast S10485830 rs1 shapeCasts_S10485830x1_S10485830)
          shapeCasts_S10485830_S10x1048583) iH⟩]
    concatenates_S6x65536x8_S10x65536x8_S16x65536x8_d0

variable (xn : FVec Ideal S65536x3 .f32) (w : FVec Ideal S16x65536x8 .f32)
  (iD : (⟨S6x65536x8x1, .i32⟩ : BufTy).Contents (Elt Ideal))
  (iH : (⟨S10x65536x8x2, .i32⟩ : BufTy).Contents (Elt Ideal))
  (rs0 : FVec Ideal S822944x1 .f32) (rs1 : FVec Ideal S10485830x1 .f32)

/-- The kernel's tail over the stack. -/
theorem kTail_eq : kTail xn w iD iH rs0 rs1 =
    concatenate S65536x19 1
      [⟨S65536x3, xn⟩,
       ⟨S65536x16,
        transpose S65536x16 [1, 0]
          (Host.reduceAdd (F := Ideal) (mulf (F := Ideal) w (kStack iD iH rs0 rs1))
            (constant (F := Ideal) S_ .f32 0x00000000#32) reducesTo_S16x65536x8_S16x65536_d2 h_S_)
          transposes_S16x65536_S65536x16_1_0⟩]
      concatenates_S65536x3_S65536x16_S65536x19_d1 := rfl

/-- Columns 0..2 of the kernel's output are the points. -/
theorem kTail_lo (n : Fin 65536) (c : Fin 3) (c' : Fin 19) (hc : c.val = c'.val) :
    kTail xn w iD iH rs0 rs1 (ix2 n c') = xn (ix2 n c) := by
  rw [kTail_eq]
  exact concat2_axis1_left _ _ _ n c c' hc

/-- Column `3 + l` of the kernel's output: the weighted sum over the corners of the stacked row sums. -/
theorem kTail_hi (n : Fin 65536) (l : Fin 16) (c' : Fin 19) (hc : l.val + 3 = c'.val) :
    kTail xn w iD iH rs0 rs1 (ix2 n c')
      = 0 + ∑ c : Fin 8, w (ix3 l n c) * kStack iD iH rs0 rs1 (ix3 l n c) := by
  rw [kTail_eq]
  refine (concat2_axis1_right _ _ _ n l c' hc).trans ?_
  refine (transpose2_apply _ _ l n).trans ?_
  refine (reduce3_axis2_apply _ _ _ _ l n).trans ?_
  rw [init_zero]
  rfl

/-- The stack at a dense level. -/
theorem kStack_lo (l : Fin 6) (l' : Fin 16) (hl : l.val = l'.val) (n : Fin 65536) (c : Fin 8) :
    kStack iD iH rs0 rs1 (ix3 l' n c)
      = Host.gather gather_S822944_S6x65536x8x1_S6x65536x8_n_0_n_n_0_3_1
          (shapeCast S822944 rs0 shapeCasts_S822944x1_S822944) iD (ix3 l n c) :=
  concat3_axis0_left _ _ _ l l' n c hl

/-- The stack at a hashed level. -/
theorem kStack_hi (l : Fin 10) (l' : Fin 16) (hl : l.val + 6 = l'.val) (n : Fin 65536) (c : Fin 8) :
    kStack iD iH rs0 rs1 (ix3 l' n c)
      = Host.gather gather_S10x1048583_S10x65536x8x2_S10x65536x8_n_01_n_n_01_3_11
          (shapeCast S10x1048583 (shapeCast S10485830 rs1 shapeCasts_S10485830x1_S10485830)
            shapeCasts_S10485830_S10x1048583) iH (ix3 l n c) :=
  concat3_axis0_right _ _ _ l l' n c hl

/-- The dense row sums as a vector: entry `r` is the column's entry `(r, 0)`. -/
theorem rs0_flat (r : Fin 822944) :
    shapeCast S822944 rs0 shapeCasts_S822944x1_S822944 (ix1 r) = rs0 (ix2 r (0 : Fin 1)) :=
  cast_col_apply _ _ r

/-- The hashed row sums as a `[10, 1048583]` matrix: entry `(a, p)` is the column's entry `(a · 1048583 + p, 0)`. -/
theorem rs1_flat (a : Fin 10) (p : Fin 1048583) :
    shapeCast S10x1048583 (shapeCast S10485830 rs1 shapeCasts_S10485830x1_S10485830)
        shapeCasts_S10485830_S10x1048583 (ix2 a p)
      = rs1 (ix2 (⟨a.val * 1048583 + p.val, by omega⟩ : Fin 10485830) (0 : Fin 1)) :=
  (cast_rows_apply _ _ a p (⟨a.val * 1048583 + p.val, by omega⟩ : Fin 10485830) rfl).trans (cast_col_apply _ _ _)

end Kernel

section Reference
open Cert.ReferenceIdeal Cert.ReferenceIdeal.Gen

/-- The gathered rows of the six dense and the ten hashed levels, stacked: `[16, 65536, 8, 16]`. -/
def rStack (iD : (⟨S6x65536x8x1, .i32⟩ : BufTy).Contents (Elt Ideal))
    (iH : (⟨S10x65536x8x2, .i32⟩ : BufTy).Contents (Elt Ideal))
    (d : FVec Ideal S822944x16 .f32) (h : FVec Ideal S10x1048583x16 .f32) : FVec Ideal S16x65536x8x16 .f32 :=
  concatenate S16x65536x8x16 0
    [⟨S6x65536x8x16,
      Host.gather gather_S822944x16_S6x65536x8x1_S6x65536x8x16_3_0_n_n_0_3_116 d iD⟩,
     ⟨S10x65536x8x16,
      Host.gather gather_S10x1048583x16_S10x65536x8x2_S10x65536x8x16_3_01_n_n_01_3_1116 h iH⟩]
    concatenates_S6x65536x8x16_S10x65536x8x16_S16x65536x8x16_d0

variable (xn : FVec Ideal S65536x3 .f32) (w : FVec Ideal S16x65536x8 .f32)
  (iD : (⟨S6x65536x8x1, .i32⟩ : BufTy).Contents (Elt Ideal))
  (iH : (⟨S10x65536x8x2, .i32⟩ : BufTy).Contents (Elt Ideal))
  (d : FVec Ideal S822944x16 .f32) (h : FVec Ideal S10x1048583x16 .f32)

/-- The reference's tail over the stack. -/
theorem rTail_eq : rTail xn w iD iH d h =
    concatenate S65536x19 1
      [⟨S65536x3, xn⟩,
       ⟨S65536x16,
        Host.reduceAdd (F := Ideal)
          (transpose S65536x16x16 [1, 0, 2]
            (Host.reduceAdd (F := Ideal)
              (mulf (F := Ideal)
                (broadcastInDim S16x65536x8x16 ![0, 1, 2, 3] bcast_S16x65536x8x1_S16x65536x8x16_0_1_2_3
                  (broadcastInDim S16x65536x8x1 ![0, 1, 2] bcast_S16x65536x8_S16x65536x8x1_0_1_2 w))
                (rStack iD iH d h))
              (constant (F := Ideal) S_ .f32 0x00000000#32)
              reducesTo_S16x65536x8x16_S16x65536x16_d2 h_S_)
            transposes_S16x65536x16_S65536x16x16_1_0_2)
          (constant (F := Ideal) S_ .f32 0x00000000#32)
          reducesTo_S65536x16x16_S65536x16_d2 h_S_⟩]
      concatenates_S65536x3_S65536x16_S65536x19_d1 := rfl

/-- Columns 0..2 of the reference's output are the points. -/
theorem rTail_lo (n : Fin 65536) (c : Fin 3) (c' : Fin 19) (hc : c.val = c'.val) :
    rTail xn w iD iH d h (ix2 n c') = xn (ix2 n c) := by
  rw [rTail_eq]
  exact concat2_axis1_left _ _ _ n c c' hc

/-- Column `3 + l` of the reference's output: the sum over the features of the weighted sum over the corners of
    the stacked rows. -/
theorem rTail_hi (n : Fin 65536) (l : Fin 16) (c' : Fin 19) (hc : l.val + 3 = c'.val) :
    rTail xn w iD iH d h (ix2 n c')
      = 0 + ∑ f : Fin 16, (0 + ∑ c : Fin 8, w (ix3 l n c) * rStack iD iH d h (ix4 l n c f)) := by
  rw [rTail_eq]
  refine (concat2_axis1_right _ _ _ n l c' hc).trans ?_
  refine (reduce3_axis2_apply _ _ _ _ n l).trans ?_
  rw [init_zero]
  refine congrArg (_ + ·) (Finset.sum_congr rfl fun f _ => ?_)
  refine (transpose3_apply _ _ l n f).trans ?_
  refine (reduce4_axis2_apply _ _ _ _ l n f).trans ?_
  rw [init_zero]
  refine congrArg (_ + ·) (Finset.sum_congr rfl fun c _ => ?_)
  refine congrArg (· * rStack iD iH d h (ix4 l n c f)) ?_
  refine (bcast4_spread_apply _ _ (by decide) (by decide) (by decide) l n c f).trans ?_
  exact bcast3_unit_apply _ _ (by decide) (by decide) (by decide) l n c 0

/-- The stack at a dense level. -/
theorem rStack_lo (l : Fin 6) (l' : Fin 16) (hl : l.val = l'.val) (n : Fin 65536) (c : Fin 8) (f : Fin 16) :
    rStack iD iH d h (ix4 l' n c f)
      = Host.gather gather_S822944x16_S6x65536x8x1_S6x65536x8x16_3_0_n_n_0_3_116 d iD (ix4 l n c f) :=
  concat4_axis0_left _ _ _ l l' n c f hl

/-- The stack at a hashed level. -/
theorem rStack_hi (l : Fin 10) (l' : Fin 16) (hl : l.val + 6 = l'.val) (n : Fin 65536) (c : Fin 8) (f : Fin 16) :
    rStack iD iH d h (ix4 l' n c f)
      = Host.gather gather_S10x1048583x16_S10x65536x8x2_S10x65536x8x16_3_01_n_n_01_3_1116 h iH (ix4 l n c f) :=
  concat4_axis0_right _ _ _ l l' n c f hl

end Reference

end Cert.Hand.Tails
-- ==== Proof.LibSumSwap.lean ====
/-
  The one algebraic law behind the low-rank product: for real matrices, multiplying a row `x` first by `U` and
  then by `Wᵀ` gives the same numbers as multiplying `x` by the product `W Uᵀ` computed beforehand,
      ∑ₖ (∑ᵢ xᵢ · Uᵢₖ) · wₖ  =  ∑ᵢ xᵢ · (∑ₖ wₖ · Uᵢₖ).
  Over the extended reals the law needs every entry to be a real number: distributing a factor over a sum and
  exchanging two sums both fail at the infinities. So the entries come with real witnesses, the coercion is
  pushed outside (it commutes with products and with finite sums), and what is left is the identity over ℝ.
-/
import Idealize.ShloMosaic.PureOps.Ideal

open scoped BigOperators

namespace Cert.LowRank

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: expand both sides into the double sum of `xᵢ · Uᵢₖ · wₖ` and exchange the sums. -/
theorem sum_swap_real {ι κ : Type*} [Fintype ι] [Fintype κ] (x : ι → ℝ) (u : ι → κ → ℝ) (w : κ → ℝ) :
    ∑ k, (∑ i, x i * u i k) * w k = ∑ i, x i * ∑ k, w k * u i k := by
  simp_rw [Finset.sum_mul, Finset.mul_sum]
  rw [Finset.sum_comm]
  exact Finset.sum_congr rfl fun i _ => Finset.sum_congr rfl fun k _ => by ring

/-- The same identity over the extended reals, for entries that are real numbers. -/
theorem sum_swap {ι κ : Type*} [Fintype ι] [Fintype κ] (x : ι → EReal) (u : ι → κ → EReal) (w : κ → EReal)
    (hx : ∀ i, ∃ r : ℝ, x i = (r : EReal)) (hu : ∀ i k, ∃ r : ℝ, u i k = (r : EReal))
    (hw : ∀ k, ∃ r : ℝ, w k = (r : EReal)) :
    ∑ k, (∑ i, x i * u i k) * w k = ∑ i, x i * ∑ k, w k * u i k := by
  choose x' hx' using hx
  choose u' hu' using hu
  choose w' hw' using hw
  have hl : ∑ k, (∑ i, x i * u i k) * w k = ((∑ k, (∑ i, x' i * u' i k) * w' k : ℝ) : EReal) := by
    rw [coe_sum]
    refine Finset.sum_congr rfl fun k _ => ?_
    rw [EReal.coe_mul, coe_sum, hw']
    refine congrArg (· * (w' k : EReal)) (Finset.sum_congr rfl fun i _ => ?_)
    rw [EReal.coe_mul, hx', hu']
  have hr : ∑ i, x i * ∑ k, w k * u i k = ((∑ i, x' i * ∑ k, w' k * u' i k : ℝ) : EReal) := by
    rw [coe_sum]
    refine Finset.sum_congr rfl fun i _ => ?_
    rw [EReal.coe_mul, coe_sum, hx']
    refine congrArg ((x' i : EReal) * ·) (Finset.sum_congr rfl fun k _ => ?_)
    rw [EReal.coe_mul, hw', hu']
  rw [hl, hr, sum_swap_real]

end Cert.LowRank
-- ==== Proof.TailsAlgebra.lean ====
/-
  The algebra behind summing the features first: for real weights `x c` (one per corner) and real table entries
  `u c f` (corner `c`, feature `f`),
      ∑_c x c · (∑_f u c f)  =  ∑_f ∑_c x c · u c f.
  Over the extended reals neither distributing a factor over a sum nor exchanging two sums is valid at the
  infinities, so every entry comes with a real witness, the coercion is pushed outside the sums and the products,
  and what is left is the identity over ℝ. The zeros are the initial values of the host's sums.
-/
import proofs.«118521_j721554506107_2_alg».proof.Proof.LibSumSwap

open scoped BigOperators

namespace Cert.Hand.TailsAlgebra

/-- Weighted row sums, summed over the corners, are the sum over the features of the weighted columns. -/
theorem weighted_rowsum {ι κ : Type*} [Fintype ι] [Fintype κ] (x : ι → EReal) (u : ι → κ → EReal)
    (hx : ∀ c, ∃ r : ℝ, x c = (r : EReal)) (hu : ∀ c f, ∃ r : ℝ, u c f = (r : EReal)) :
    (0 : EReal) + ∑ c, x c * ∑ f, u c f = 0 + ∑ f, (0 + ∑ c, x c * u c f) := by
  choose x' hx' using hx
  choose u' hu' using hu
  have hl : ∑ c, x c * ∑ f, u c f = ((∑ c, x' c * ∑ f, u' c f : ℝ) : EReal) := by
    rw [Cert.LowRank.coe_sum]
    refine Finset.sum_congr rfl fun c _ => ?_
    rw [EReal.coe_mul, Cert.LowRank.coe_sum, hx']
    refine congrArg ((x' c : EReal) * ·) (Finset.sum_congr rfl fun f _ => ?_)
    rw [hu']
  have hr : ∑ f, ((0 : EReal) + ∑ c, x c * u c f) = ((∑ f, ∑ c, x' c * u' c f : ℝ) : EReal) := by
    rw [Cert.LowRank.coe_sum]
    refine Finset.sum_congr rfl fun f _ => ?_
    rw [zero_add, Cert.LowRank.coe_sum]
    refine Finset.sum_congr rfl fun c _ => ?_
    rw [EReal.coe_mul, hx', hu']
  rw [hl, hr]
  refine congrArg (fun t : ℝ => (0 : EReal) + (t : EReal)) ?_
  simp_rw [Finset.mul_sum]
  exact Finset.sum_comm

end Cert.Hand.TailsAlgebra
-- ==== Proof.GatherReads.lean ====
/-
  The four table lookups of the two programs, each read at one result index.

  Both programs look entries up by the same two arrays of signed 32-bit index words: one word per (level, point,
  corner) for the six dense levels, and a (level, row) pair of words per (level, point, corner) for the ten hashed
  levels. A lookup clamps every start index so that the slice it starts fits inside the table: a dense row into
  [0, 822943], a hashed level into [0, 9], a hashed row into [0, 1048582]. The clamped positions `posD`, `posH0`,
  `posH1` are functions of the index words alone, so the program that looks up one number per row (in a table already
  summed over its 16 features) and the program that looks up whole 16-wide rows read THE SAME rows:

    scalar table  v : [822944]          result (l, n, c)     is  v (posD l n c)
    row table     d : [822944, 16]      result (l, n, c, f)  is  d (posD l n c, f)
    scalar table  v : [10, 1048583]     result (l, n, c)     is  v (posH0 l n c, posH1 l n c)
    row table     h : [10, 1048583, 16] result (l, n, c, f)  is  h (posH0 l n c, posH1 l n c, f)

  Each proof computes the operand index of the lookup axis by axis: on an axis the start index map names, the clamped
  start read off the index words (the result's three batch coordinates select the word, the position in the start index
  map selects the component); on the feature axis of a row table, which is neither collapsed nor named by the start
  index map, the result's own last coordinate.
-/
import proofs.«118521_j721554506107_2_alg».proof.KernelIdeal
import proofs.«118521_j721554506107_2_alg».proof.ReferenceIdeal
import Idealize.ShloMosaic.Lib.ValueIdx
import Idealize.ShloMosaic.PureOps.Ideal

noncomputable section

namespace Cert.Hand.Tails

open Idealize.ShloMosaic Idealize.ShloMosaic.ValueIdx

/-- The index words of the dense levels: one 32-bit word per (level, point, corner). -/
abbrev IdxD : Type := (⟨Cert.KernelIdeal.S6x65536x8x1, .i32⟩ : BufTy).Contents (Elt Ideal)
/-- The index words of the hashed levels: a (level, row) pair of 32-bit words per (level, point, corner). -/
abbrev IdxH : Type := (⟨Cert.KernelIdeal.S10x65536x8x2, .i32⟩ : BufTy).Contents (Elt Ideal)

/-- The dense row the index word at (level `l`, point `n`, corner `c`) selects: the word read as a signed integer,
    negative values to 0, clamped into [0, 822943]. -/
def posD (iD : IdxD) (l : Fin 6) (n : Fin 65536) (c : Fin 8) : Fin 822944 :=
  ⟨min ((iD : IVec Cert.KernelIdeal.S6x65536x8x1 32) (ix4 l n c 0)).toInt.toNat 822943, by omega⟩

theorem posD_val (iD : IdxD) (l : Fin 6) (n : Fin 65536) (c : Fin 8) :
    (posD iD l n c).val = min (iD (ix4 l n c 0)).toInt.toNat 822943 := rfl

/-- The hashed level the first index word at (l, n, c) selects: read signed, clamped into [0, 9]. -/
def posH0 (iH : IdxH) (l : Fin 10) (n : Fin 65536) (c : Fin 8) : Fin 10 :=
  ⟨min ((iH : IVec Cert.KernelIdeal.S10x65536x8x2 32) (ix4 l n c 0)).toInt.toNat 9, by omega⟩

/-- The hashed row the second index word at (l, n, c) selects: read signed, clamped into [0, 1048582]. -/
def posH1 (iH : IdxH) (l : Fin 10) (n : Fin 65536) (c : Fin 8) : Fin 1048583 :=
  ⟨min ((iH : IVec Cert.KernelIdeal.S10x65536x8x2 32) (ix4 l n c 1)).toInt.toNat 1048582, by omega⟩

theorem posH0_val (iH : IdxH) (l : Fin 10) (n : Fin 65536) (c : Fin 8) :
    (posH0 iH l n c).val = min (iH (ix4 l n c 0)).toInt.toNat 9 := rfl

theorem posH1_val (iH : IdxH) (l : Fin 10) (n : Fin 65536) (c : Fin 8) :
    (posH1 iH l n c).val = min (iH (ix4 l n c 1)).toInt.toNat 1048582 := rfl

/-! ## The program that looks up row sums -/

section RowSums
variable [Cert.KernelIdeal.Facts₀]

local notation "GK0" => Cert.KernelIdeal.gather_S822944_S6x65536x8x1_S6x65536x8_n_0_n_n_0_3_1
local notation "GK1" => Cert.KernelIdeal.gather_S10x1048583_S10x65536x8x2_S10x65536x8_n_01_n_n_01_3_11

/-- The lookup in the dense table of row sums, at (l, n, c): the entry at the clamped row. -/
theorem gatherK0_apply (v : FVec Ideal Cert.KernelIdeal.S822944 .f32) (iD : IdxD)
    (l : Fin 6) (n : Fin 65536) (c : Fin 8) :
    Host.gather GK0 v iD (ix3 l n c) = v (ix1 (posD iD l n c)) := by
  unfold Host.gather
  refine congrArg v ?_
  funext a
  obtain rfl : a = 0 := Subsingleton.elim _ _
  refine Fin.ext ?_
  show (GK0).start (ix3 l n c) iD 0 + (GK0).batchCoord (ix3 l n c) 0 + (GK0).offCoord (ix3 l n c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (GK0).startIndexMap from List.mem_singleton.mpr rfl)]
  have hsi : (GK0).siIdx (ix3 l n c)
      ⟨List.idxOf (0 : Fin 1) (GK0).startIndexMap, List.idxOf_lt_length_iff.2 (List.mem_singleton.mpr rfl)⟩
        = ix4 l n c 0 := by
    funext b; refine Fin.ext ?_
    match b with
    | ⟨0, _⟩ => rfl
    | ⟨1, _⟩ => rfl
    | ⟨2, _⟩ => rfl
    | ⟨3, _⟩ => rfl
  rw [hsi]
  rfl

/-- The lookup in the hashed tables' row sums, at (l, n, c): the entry at the clamped (level, row). -/
theorem gatherK1_apply (v : FVec Ideal Cert.KernelIdeal.S10x1048583 .f32) (iH : IdxH)
    (l : Fin 10) (n : Fin 65536) (c : Fin 8) :
    Host.gather GK1 v iH (ix3 l n c) = v (ix2 (posH0 iH l n c) (posH1 iH l n c)) := by
  unfold Host.gather
  refine congrArg v ?_
  funext a
  refine Fin.ext ?_
  have h0 : (0 : Fin 2) ∈ (GK1).startIndexMap := show (0 : Fin 2) ∈ ([0, 1] : List (Fin 2)) from by decide
  have h1 : (1 : Fin 2) ∈ (GK1).startIndexMap := show (1 : Fin 2) ∈ ([0, 1] : List (Fin 2)) from by decide
  have c0 : (0 : Fin 2) ∈ (GK1).collapsedSliceDims := show (0 : Fin 2) ∈ ([0, 1] : List (Fin 2)) from by decide
  have c1 : (1 : Fin 2) ∈ (GK1).collapsedSliceDims := show (1 : Fin 2) ∈ ([0, 1] : List (Fin 2)) from by decide
  match a with
  | ⟨0, _⟩ =>
    show (GK1).start (ix3 l n c) iH 0 + (GK1).batchCoord (ix3 l n c) 0 + (GK1).offCoord (ix3 l n c) 0 = _
    rw [GatherDims.batchCoord_eq_zero _ _ _ List.not_mem_nil,
      GatherDims.offCoord_eq_zero _ _ _ (fun h => ((GatherDims.mem_sKept _ _).mp h).1 c0)]
    simp only [Nat.add_zero]
    unfold GatherDims.start
    rw [dif_pos h0]
    have hsi : (GK1).siIdx (ix3 l n c)
        ⟨List.idxOf (0 : Fin 2) (GK1).startIndexMap, List.idxOf_lt_length_iff.2 h0⟩ = ix4 l n c 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (GK1).start (ix3 l n c) iH 1 + (GK1).batchCoord (ix3 l n c) 1 + (GK1).offCoord (ix3 l n c) 1 = _
    rw [GatherDims.batchCoord_eq_zero _ _ _ List.not_mem_nil,
      GatherDims.offCoord_eq_zero _ _ _ (fun h => ((GatherDims.mem_sKept _ _).mp h).1 c1)]
    simp only [Nat.add_zero]
    unfold GatherDims.start
    rw [dif_pos h1]
    have hsi : (GK1).siIdx (ix3 l n c)
        ⟨List.idxOf (1 : Fin 2) (GK1).startIndexMap, List.idxOf_lt_length_iff.2 h1⟩ = ix4 l n c 1 := by
      funext b; refine Fin.ext ?_
      match b with
      | ⟨0, _⟩ => rfl
      | ⟨1, _⟩ => rfl
      | ⟨2, _⟩ => rfl
      | ⟨3, _⟩ => rfl
    rw [hsi]
    rfl

end RowSums

/-! ## The program that looks up whole rows -/

section Rows
variable [Cert.ReferenceIdeal.Facts₀]

local notation "GR0" => Cert.ReferenceIdeal.gather_S822944x16_S6x65536x8x1_S6x65536x8x16_3_0_n_n_0_3_116
local notation "GR1" => Cert.ReferenceIdeal.gather_S10x1048583x16_S10x65536x8x2_S10x65536x8x16_3_01_n_n_01_3_1116

/-- The lookup of whole rows of the dense table, at (l, n, c, f): feature `f` of the same clamped row. -/
theorem gatherR0_apply (d : FVec Ideal Cert.ReferenceIdeal.S822944x16 .f32) (iD : IdxD)
    (l : Fin 6) (n : Fin 65536) (c : Fin 8) (f : Fin 16) :
    Host.gather GR0 d iD (ix4 l n c f) = d (ix2 (posD iD l n c) f) := by
  unfold Host.gather
  refine congrArg d ?_
  funext a
  refine Fin.ext ?_
  match a with
  | ⟨0, _⟩ =>
    show (GR0).start (ix4 l n c f) iD 0 + (GR0).batchCoord (ix4 l n c f) 0 + (GR0).offCoord (ix4 l n c f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GR0).startIndexMap from List.mem_singleton.mpr rfl)]
    have hsi : (GR0).siIdx (ix4 l n c f)
        ⟨List.idxOf (0 : Fin 2) (GR0).startIndexMap, List.idxOf_lt_length_iff.2 (List.mem_singleton.mpr rfl)⟩
          = ix4 l n c 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (GR0).start (ix4 l n c f) iD 1 + (GR0).batchCoord (ix4 l n c f) 1 + (GR0).offCoord (ix4 l n c f) 1 = f.val
    rw [GatherDims.batchCoord_eq_zero _ _ _ List.not_mem_nil]
    unfold GatherDims.start
    rw [dif_neg (show (1 : Fin 2) ∉ (GR0).startIndexMap from fun h => absurd (List.mem_singleton.mp h) (by decide))]
    simp only [Nat.zero_add, Nat.add_zero]
    rfl

/-- The lookup of whole rows of the hashed tables, at (l, n, c, f): feature `f` of the same clamped (level, row). -/
theorem gatherR1_apply (h : FVec Ideal Cert.ReferenceIdeal.S10x1048583x16 .f32) (iH : IdxH)
    (l : Fin 10) (n : Fin 65536) (c : Fin 8) (f : Fin 16) :
    Host.gather GR1 h iH (ix4 l n c f) = h (ix3 (posH0 iH l n c) (posH1 iH l n c) f) := by
  unfold Host.gather
  refine congrArg h ?_
  funext a
  refine Fin.ext ?_
  have h0 : (0 : Fin 3) ∈ (GR1).startIndexMap := show (0 : Fin 3) ∈ ([0, 1] : List (Fin 3)) from by decide
  have h1 : (1 : Fin 3) ∈ (GR1).startIndexMap := show (1 : Fin 3) ∈ ([0, 1] : List (Fin 3)) from by decide
  have h2 : (2 : Fin 3) ∉ (GR1).startIndexMap := show (2 : Fin 3) ∉ ([0, 1] : List (Fin 3)) from by decide
  have c0 : (0 : Fin 3) ∈ (GR1).collapsedSliceDims := show (0 : Fin 3) ∈ ([0, 1] : List (Fin 3)) from by decide
  have c1 : (1 : Fin 3) ∈ (GR1).collapsedSliceDims := show (1 : Fin 3) ∈ ([0, 1] : List (Fin 3)) from by decide
  match a with
  | ⟨0, _⟩ =>
    show (GR1).start (ix4 l n c f) iH 0 + (GR1).batchCoord (ix4 l n c f) 0 + (GR1).offCoord (ix4 l n c f) 0 = _
    rw [GatherDims.batchCoord_eq_zero _ _ _ List.not_mem_nil,
      GatherDims.offCoord_eq_zero _ _ _ (fun h => ((GatherDims.mem_sKept _ _).mp h).1 c0)]
    simp only [Nat.add_zero]
    unfold GatherDims.start
    rw [dif_pos h0]
    have hsi : (GR1).siIdx (ix4 l n c f)
        ⟨List.idxOf (0 : Fin 3) (GR1).startIndexMap, List.idxOf_lt_length_iff.2 h0⟩ = ix4 l n c 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (GR1).start (ix4 l n c f) iH 1 + (GR1).batchCoord (ix4 l n c f) 1 + (GR1).offCoord (ix4 l n c f) 1 = _
    rw [GatherDims.batchCoord_eq_zero _ _ _ List.not_mem_nil,
      GatherDims.offCoord_eq_zero _ _ _ (fun h => ((GatherDims.mem_sKept _ _).mp h).1 c1)]
    simp only [Nat.add_zero]
    unfold GatherDims.start
    rw [dif_pos h1]
    have hsi : (GR1).siIdx (ix4 l n c f)
        ⟨List.idxOf (1 : Fin 3) (GR1).startIndexMap, List.idxOf_lt_length_iff.2 h1⟩ = ix4 l n c 1 := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show (GR1).start (ix4 l n c f) iH 2 + (GR1).batchCoord (ix4 l n c f) 2 + (GR1).offCoord (ix4 l n c f) 2 = f.val
    rw [GatherDims.batchCoord_eq_zero _ _ _ List.not_mem_nil]
    unfold GatherDims.start
    rw [dif_neg h2]
    simp only [Nat.zero_add, Nat.add_zero]
    rfl

end Rows

end Cert.Hand.Tails
-- ==== Proof.TailsEq.lean ====
import proofs.«118521_j721554506107_2_alg».proof.Proof.TailsRead
import proofs.«118521_j721554506107_2_alg».proof.Proof.TailsAlgebra
import proofs.«118521_j721554506107_2_alg».proof.Proof.GatherReads

/-!
  The two tails are one function.

  At column `3 + l` of point `n` the kernel has `0 + ∑_c w(l,n,c) · S(l,n,c)`, `S` the gathered ROW SUM of the table
  row the index words select, and the reference `0 + ∑_f (0 + ∑_c w(l,n,c) · T(l,n,c,f))`, `T` that row's entry `f`.
  Both gathers select the same row (the same clamped position), the row sum is `∑_f T`, and for real weights and
  real table entries the two sums agree: distribute the weight over the row sum and exchange the two finite sums.
  Columns 0..2 are the points on both sides.
-/

open scoped BigOperators

noncomputable section

namespace Cert.Hand.Tails

open Idealize.ShloMosaic Idealize.ShloMosaic.ValueIdx Cert.Hand.TailsAlgebra

theorem tails_eq
    (xn : FVec Ideal Cert.KernelIdeal.S65536x3 .f32) (w : FVec Ideal Cert.KernelIdeal.S16x65536x8 .f32)
    (iD : (⟨Cert.KernelIdeal.S6x65536x8x1, .i32⟩ : BufTy).Contents (Elt Ideal))
    (iH : (⟨Cert.KernelIdeal.S10x65536x8x2, .i32⟩ : BufTy).Contents (Elt Ideal))
    (d : FVec Ideal Cert.ReferenceIdeal.S822944x16 .f32) (h : FVec Ideal Cert.ReferenceIdeal.S10x1048583x16 .f32)
    (h2 : FVec Ideal Cert.KernelIdeal.S10485830x16 .f32)
    (rs0 : FVec Ideal Cert.KernelIdeal.S822944x1 .f32) (rs1 : FVec Ideal Cert.KernelIdeal.S10485830x1 .f32)
    (hw : ∀ i, ∃ x : ℝ, w i = (x : EReal)) (hd : ∀ i, ∃ x : ℝ, d i = (x : EReal))
    (hh : ∀ i, ∃ x : ℝ, h i = (x : EReal))
    (hh2 : ∀ (a : Fin 10) (p : Fin 1048583) (f : Fin 16),
      h2 (ix2 (⟨a.val * 1048583 + p.val, by omega⟩ : Fin 10485830) f) = h (ix3 a p f))
    (hrs0 : ∀ r : Fin 822944, rs0 (ix2 r (0 : Fin 1)) = ∑ f : Fin 16, d (ix2 r f))
    (hrs1 : ∀ r : Fin 10485830, rs1 (ix2 r (0 : Fin 1)) = ∑ f : Fin 16, h2 (ix2 r f)) :
    kTail xn w iD iH rs0 rs1 = rTail xn w iD iH d h := by
  funext j
  obtain ⟨n, col, rfl⟩ : ∃ (n : Fin 65536) (col : Fin 19), j = ix2 n col := ⟨j 0, j 1, eq_ix2 j⟩
  by_cases hcol : col.val < 3
  · -- a column of the points
    rw [kTail_lo xn w iD iH rs0 rs1 n ⟨col.val, hcol⟩ col rfl, rTail_lo xn w iD iH d h n ⟨col.val, hcol⟩ col rfl]
  · -- column 3 + l: level l
    obtain ⟨l, hl⟩ : ∃ l : Fin 16, l.val + 3 = col.val := ⟨⟨col.val - 3, by omega⟩, by show col.val - 3 + 3 = col.val; omega⟩
    rw [kTail_hi xn w iD iH rs0 rs1 n l col hl, rTail_hi xn w iD iH d h n l col hl]
    by_cases hlev : l.val < 6
    · -- a dense level: both gathers read row `posD` of the dense table
      have hK : ∀ c : Fin 8, kStack iD iH rs0 rs1 (ix3 l n c) = ∑ f : Fin 16, d (ix2 (posD iD ⟨l.val, hlev⟩ n c) f) := fun c => by
        rw [kStack_lo iD iH rs0 rs1 ⟨l.val, hlev⟩ l rfl n c, gatherK0_apply, rs0_flat, hrs0]
      have hR : ∀ (c : Fin 8) (f : Fin 16), rStack iD iH d h (ix4 l n c f) = d (ix2 (posD iD ⟨l.val, hlev⟩ n c) f) := fun c f => by
        rw [rStack_lo iD iH d h ⟨l.val, hlev⟩ l rfl n c f, gatherR0_apply]
      simp only [hK, hR]
      exact weighted_rowsum (fun c : Fin 8 => w (ix3 l n c)) (fun (c : Fin 8) (f : Fin 16) => d (ix2 (posD iD ⟨l.val, hlev⟩ n c) f))
        (fun c => hw _) (fun c f => hd _)
    · -- a hashed level: both gathers read row `posH1` of table `posH0`
      obtain ⟨m, hm⟩ : ∃ m : Fin 10, m.val + 6 = l.val := ⟨⟨l.val - 6, by omega⟩, by show l.val - 6 + 6 = l.val; omega⟩
      have hK : ∀ c : Fin 8, kStack iD iH rs0 rs1 (ix3 l n c)
          = ∑ f : Fin 16, h (ix3 (posH0 iH m n c) (posH1 iH m n c) f) := fun c => by
        rw [kStack_hi iD iH rs0 rs1 m l hm n c, gatherK1_apply, rs1_flat, hrs1]
        exact Finset.sum_congr rfl fun f _ => hh2 _ _ f
      have hR : ∀ (c : Fin 8) (f : Fin 16), rStack iD iH d h (ix4 l n c f)
          = h (ix3 (posH0 iH m n c) (posH1 iH m n c) f) := fun c f => by
        rw [rStack_hi iD iH d h m l hm n c f, gatherR1_apply]
      simp only [hK, hR]
      exact weighted_rowsum (fun c : Fin 8 => w (ix3 l n c))
        (fun (c : Fin 8) (f : Fin 16) => h (ix3 (posH0 iH m n c) (posH1 iH m n c) f)) (fun c => hw _) (fun c f => hh _)

end Cert.Hand.Tails
-- ==== Proof.PreReal.lean ====
/-
  Finite inputs are real numbers. An extended real is REAL when it is the coercion of a real number; the predicate is
  closed under sums, differences, products and the quotient by a nonzero real. The precondition compares |x| with
  the pattern of +∞ at every entry of each input and takes the conjunction of all the comparisons: |x| = max x (−x) < ⊤
  excludes both infinities, so every entry of every input is real.
-/
import proofs.«118521_j721554506107_2_alg».proof.Pre_finite_inputs
import proofs.«118521_j721554506107_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Hand.Real

open Idealize.ShloMosaic

/-- The extended real `x` is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The quotient of a real by a nonzero real is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  exact ⟨a * (1 / b), by rw [Ideal.div_coe hb, ← EReal.coe_mul]⟩

/-- The pattern 0x7F800000 is +∞. -/
theorem ofBits_inf : Ideal.ofBits .f32 0x7F800000#32 = (⊤ : EReal) := by
  simp [Ideal.ofBits, Ideal.ieee]

/-- An entry whose absolute value compares below +∞ is real. -/
theorem isReal_of_abs_lt (x : EReal)
    (h : Ideal.cmp .olt (max x (-x)) (Ideal.ofBits .f32 0x7F800000#32) = 1#1) : IsReal x := by
  rw [ofBits_inf] at h
  have h' : max x (-x) < ⊤ := by
    unfold Ideal.cmp at h
    by_contra hn
    simp [hn] at h
  induction x using EReal.rec with
  | bot => simp at h'
  | top => simp at h'
  | coe r => exact ⟨r, rfl⟩

instance : Subsingleton Cert.Pre_finite_inputs.S_.Idx := ⟨fun a b => funext fun d => d.elim0⟩

/-- Under the precondition every entry of each of the three inputs is a real number. -/
theorem real_of_pre (a0 : FVec Ideal Cert.Pre_finite_inputs.S65536x3 .f32) (a1 : FVec Ideal Cert.Pre_finite_inputs.S822944x16 .f32)
    (a2 : FVec Ideal Cert.Pre_finite_inputs.S10x1048583x16 .f32)
    (h : Cert.Pre_finite_inputs.fn (F := Ideal) a0 a1 a2 = fun _ => 1#1) :
    (∀ i, IsReal (a0 i)) ∧ (∀ i, IsReal (a1 i)) ∧ (∀ i, IsReal (a2 i)) := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  refine ⟨fun i => ?_, fun i => ?_, fun i => ?_⟩
  · exact isReal_of_abs_lt _ (Host.reduce_andi_all _ _ _ _ _ h0' i)
  · exact isReal_of_abs_lt _ (Host.reduce_andi_all _ _ _ _ _ h1 i)
  · exact isReal_of_abs_lt _ (Host.reduce_andi_all _ _ _ _ _ h2 i)

end Cert.Hand.Real

end
-- ==== Proof.RealVec.lean ====
/-
  Arrays all of whose entries are real numbers. The predicate passes through every operation that computes an entry
  from entries at the same index by +, −, · or a quotient by a nonzero real, through every operation that only moves
  entries (a broadcast, a slice, a reshape, a transpose read an entry of their operand at a re-mapped index), and holds
  of a conversion from integers and of a constant whose pattern is finite. An f32 pattern whose exponent field is not
  all ones denotes a real number, and a nonzero one when the field is not zero either (a normal number).
-/
import proofs.«118521_j721554506107_2_alg».proof.Proof.PreReal
import Idealize.ShloMosaic.PureOps.Ideal
import Idealize.ShloMosaic.PureOps.Vector
import Idealize.ShloMosaic.PureOps.ShapeOps

noncomputable section

namespace Cert.Hand.Real

open Idealize.ShloMosaic

variable {s t : Shape} {φ : FTy}

/-- Every entry of the array is a real number. -/
def AllReal (x : s.Idx → EReal) : Prop := ∀ i, IsReal (x i)

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostDivf {x y : FVec Ideal s φ} (hx : AllReal x) (hy : AllReal y) (h0 : ∀ i, y i ≠ 0) :
    AllReal (Host.divf x y) :=
  fun i => (hx i).div (hy i) (h0 i)

theorem AllReal.bcast {x : s.Idx → EReal} (hx : AllReal x) (dims : Fin s.rank → Fin t.rank) (h : s.BroadcastsInDim t dims) :
    AllReal (broadcastInDim t dims h x) :=
  fun _ => hx _

theorem AllReal.slice {x : s.Idx → EReal} (hx : AllReal x) (off : Fin s.rank → Nat) (h : s.Slices off t) :
    AllReal (extractStridedSlice t off x h) :=
  fun _ => hx _

theorem AllReal.cast {x : s.Idx → EReal} (hx : AllReal x) (h : s.ShapeCasts t) : AllReal (shapeCast t x h) :=
  fun _ => hx _

/-- A conversion from integers gives real numbers. -/
theorem allReal_sitofp {w : Nat} (x : IVec s w) : AllReal (sitofp (F := Ideal) .f32 x) :=
  fun i => ⟨((x i).toInt : ℝ), rfl⟩

theorem allReal_constant (b : BitVec φ.bits) (h : IsReal (Ideal.ofBits φ b)) : AllReal (constant (F := Ideal) s φ b) :=
  fun _ => h

/-- What a broadcast reads is an entry of its operand: a property of all entries passes through. -/
theorem bcast_forall {α : Type} {P : α → Prop} {x : s.Idx → α} (hx : ∀ i, P (x i)) (dims : Fin s.rank → Fin t.rank)
    (h : s.BroadcastsInDim t dims) (j : t.Idx) : P (broadcastInDim t dims h x j) :=
  hx _

/-- An f32 pattern whose exponent field is not all ones denotes a real number. -/
theorem ofBits_f32_isReal (b : BitVec 32) (h : (b.extractLsb' 23 8).toNat ≠ 255) : IsReal (Ideal.ofBits .f32 b) := by
  show IsReal (Ideal.ieee 8 23 b)
  unfold Ideal.ieee
  dsimp only
  rw [if_neg (by norm_num; exact h)]
  split <;> exact ⟨_, rfl⟩

/-- A normal f32 pattern (exponent field neither all ones nor zero) denotes a nonzero number. -/
theorem ofBits_f32_ne_zero (b : BitVec 32) (h1 : (b.extractLsb' 23 8).toNat ≠ 255) (h0 : (b.extractLsb' 23 8).toNat ≠ 0) :
    Ideal.ofBits .f32 b ≠ 0 := by
  show Ideal.ieee 8 23 b ≠ 0
  unfold Ideal.ieee
  dsimp only
  rw [if_neg (by norm_num; exact h1), if_neg h0]
  rw [Ne, EReal.coe_eq_zero]
  have hs : (if (b.extractLsb' (8 + 23) 1 == 1#1) = true then (-1 : ℝ) else 1) ≠ 0 := by split <;> norm_num
  have hn : (((2 ^ 23 + (b.extractLsb' 0 23).toNat : ℕ) : ℝ)) ≠ 0 := by positivity
  have hp : (2 : ℝ) ^ (((b.extractLsb' 23 8).toNat : ℤ) - (2 ^ (8 - 1) - 1) - 23) ≠ 0 := zpow_ne_zero _ (by norm_num)
  exact mul_ne_zero (mul_ne_zero hs hn) hp

end Cert.Hand.Real

end
-- ==== Proof.WReal.lean ====
/-
  The corner weights are real numbers when the points are.

  Both programs compute, before any table is read, the position t of each point inside its cell at each level,
      t = ((x − lo) / (hi − lo)) / cell size − corner,      lo = −2, hi = 2,
  and from it the weight of each of the eight corners of the cell, a product over axes of (1 − o) + (2·o − 1)·t with
  o ∈ {0, 1} the corner's offset on the axis. Every step is a sum, a difference, a product, a quotient by a nonzero real
  (hi − lo = 4, and the sixteen cell sizes, whose bit patterns are normal numbers), a conversion from an integer, or a
  move of entries (broadcast, slice, reshape). So if every coordinate of every point is a real number, so is every
  position t and every weight.
-/
import proofs.«118521_j721554506107_2_alg».proof.Proof.PreReal
import proofs.«118521_j721554506107_2_alg».proof.Proof.RealVec
import proofs.«118521_j721554506107_2_alg».proof.Proof.Gen.KernelIdeal.Launch
import Idealize.ShloMosaic.Lib.StableHlo.Run

noncomputable section

namespace Cert.Hand.Real

open Idealize.ShloMosaic Idealize.ShloMosaic.TcCoe Idealize.SL.Sem Idealize.ShloMosaic.StableHlo

/-- The buffers after the four stretches of host operations that precede the first row-sum region. -/
abbrev afterHost (VK : Valuation Cert.KernelIdeal.τ Cert.KernelIdeal.sig (Elt Ideal)) : Valuation Cert.KernelIdeal.τ Cert.KernelIdeal.sig (Elt Ideal) :=
  StableHlo.after (Cert.KernelIdeal.Gen.hostOps0_3 (F := Ideal)) (StableHlo.after (Cert.KernelIdeal.Gen.hostOps0_2 (F := Ideal))
    (StableHlo.after (Cert.KernelIdeal.Gen.hostOps0_1 (F := Ideal)) (StableHlo.after (Cert.KernelIdeal.Gen.hostOps0 (F := Ideal)) VK)))

/-! ## Bit patterns -/

/-- The pattern 0x40000000 is 2. -/
theorem ofBits_two : Ideal.ofBits .f32 0x40000000#32 = ((2 : ℝ) : EReal) := by
  simp [Ideal.ofBits, Ideal.ieee]
  rw [← EReal.coe_mul, EReal.coe_eq_coe_iff]
  norm_num

/-- The pattern 0xC0000000 is −2. -/
theorem ofBits_neg_two : Ideal.ofBits .f32 0xC0000000#32 = ((-2 : ℝ) : EReal) := by
  simp [Ideal.ofBits, Ideal.ieee]
  rw [← EReal.coe_mul, EReal.coe_eq_coe_iff]
  norm_num

/-- The sixteen cell sizes are normal numbers: the exponent field of each pattern is neither all ones nor zero. -/
theorem lit0_normal : ∀ k : Fin 16, ((Cert.KernelIdeal.lit0 k).extractLsb' 23 8).toNat ≠ 255
    ∧ ((Cert.KernelIdeal.lit0 k).extractLsb' 23 8).toNat ≠ 0 := by decide

/-- The twenty-four corner offsets (each 0 or 1) are finite: no exponent field is all ones. -/
theorem lit2_finite : ∀ k : Fin 24, ((Cert.KernelIdeal.lit2 k).extractLsb' 23 8).toNat ≠ 255 := by decide

/-! ## The position inside the cell -/

set_option maxHeartbeats 20000000 in
/-- The position of each point inside its cell at each level, (x − lo) / (hi − lo) / cell size − corner, is a real
    number when the point's coordinates are: lo = −2 and hi = 2 are real and hi − lo = 4 is not zero, every cell size is
    a nonzero real, and the corner is a converted integer. -/
theorem v25_real (VK : Valuation Cert.KernelIdeal.τ Cert.KernelIdeal.sig (Elt Ideal))
    (harg : AllReal (s := Cert.KernelIdeal.S65536x3) (VK (Proc.devRef .tc Cert.KernelIdeal.main_arg0))) :
    AllReal (s := Cert.KernelIdeal.S16x65536x3) (afterHost VK (Proc.devRef .tc Cert.KernelIdeal.main_v25)) := by
  after_results_simp
  have hm2 : IsReal (Ideal.ofBits .f32 0xC0000000#32) := ofBits_f32_isReal _ (by decide)
  have h2 : IsReal (Ideal.ofBits .f32 0x40000000#32) := ofBits_f32_isReal _ (by decide)
  have hspan : ∀ i, subf (constant (F := Ideal) Cert.KernelIdeal.S3 .f32 0x40000000#32)
      (constant (F := Ideal) Cert.KernelIdeal.S3 .f32 0xC0000000#32) i ≠ 0 := by
    intro i
    show Ideal.ofBits .f32 0x40000000#32 - Ideal.ofBits .f32 0xC0000000#32 ≠ 0
    rw [ofBits_two, ofBits_neg_two, ← EReal.coe_sub, Ne, EReal.coe_eq_zero]
    norm_num
  have htab : AllReal (s := Cert.KernelIdeal.S16)
      (fun i => FloatOps.ofBits (F := Ideal) .f32 (Cert.KernelIdeal.lit0 (Cert.KernelIdeal.S16.rowMajor i))) :=
    fun i => ofBits_f32_isReal _ (lit0_normal _).1
  have htab0 : ∀ i : Cert.KernelIdeal.S16.Idx,
      FloatOps.ofBits (F := Ideal) .f32 (Cert.KernelIdeal.lit0 (Cert.KernelIdeal.S16.rowMajor i)) ≠ 0 :=
    fun i => ofBits_f32_ne_zero _ (lit0_normal _).1 (lit0_normal _).2
  have hv6 := AllReal.hostDivf (φ := .f32) (AllReal.subf (φ := .f32) harg (((allReal_constant (s := Cert.KernelIdeal.S3) _ hm2).bcast _
      Cert.KernelIdeal.Gen.bcast_S3_S1x3_1).bcast _ Cert.KernelIdeal.Gen.bcast_S1x3_S65536x3_0_1))
    ((((allReal_constant (s := Cert.KernelIdeal.S3) _ h2).subf (allReal_constant _ hm2)).bcast _
      Cert.KernelIdeal.Gen.bcast_S3_S1x3_1).bcast _ Cert.KernelIdeal.Gen.bcast_S1x3_S65536x3_0_1)
    (fun i => bcast_forall (P := fun e : EReal => e ≠ 0)
      (fun j => bcast_forall (P := fun e : EReal => e ≠ 0) hspan _ Cert.KernelIdeal.Gen.bcast_S3_S1x3_1 j) _
      Cert.KernelIdeal.Gen.bcast_S1x3_S65536x3_0_1 i)
  exact AllReal.subf
    (AllReal.hostDivf ((hv6.bcast _ _).bcast _ _) ((htab.bcast _ _).bcast _ _)
      (fun i => bcast_forall (P := fun e : EReal => e ≠ 0)
        (fun j => bcast_forall (P := fun e : EReal => e ≠ 0) htab0 _ Cert.KernelIdeal.Gen.bcast_S16_S16x1x1_0 j) _
        Cert.KernelIdeal.Gen.bcast_S16x1x1_S16x65536x3_0_1_2 i))
    (allReal_sitofp _)

set_option maxHeartbeats 20000000 in
/-- The table of the eight corners' offsets holds real numbers. -/
theorem cst2_real (VK : Valuation Cert.KernelIdeal.τ Cert.KernelIdeal.sig (Elt Ideal)) :
    AllReal (s := Cert.KernelIdeal.S8x3) (afterHost VK (Proc.devRef .tc Cert.KernelIdeal.main_cst_2)) := by
  after_results_simp
  exact fun i => ofBits_f32_isReal _ (lit2_finite _)

/-! ## The corner weights -/

set_option maxHeartbeats 20000000 in
/-- The weight of corner c is the product over two of the axes of (1 − o) + (2·o − 1)·t, with o the corner's offset
    (0 or 1) on the axis and t the position inside the cell: sums, differences and products of real numbers. -/
theorem w_real (V : Valuation Cert.KernelIdeal.τ Cert.KernelIdeal.sig (Elt Ideal))
    (h25 : AllReal (s := Cert.KernelIdeal.S16x65536x3) (V (Proc.devRef .tc Cert.KernelIdeal.main_v25)))
    (hc : AllReal (s := Cert.KernelIdeal.S8x3) (V (Proc.devRef .tc Cert.KernelIdeal.main_cst_2))) :
    AllReal (s := Cert.KernelIdeal.S16x65536x8)
      (StableHlo.after (Cert.KernelIdeal.Gen.hostOps2 (F := Ideal)) V (Proc.devRef .tc Cert.KernelIdeal.main_v118)) := by
  after_results_simp
  have h1 : IsReal (Ideal.ofBits .f32 0x3F800000#32) := ofBits_f32_isReal _ (by decide)
  have h2 : IsReal (Ideal.ofBits .f32 0x40000000#32) := ofBits_f32_isReal _ (by decide)
  refine AllReal.mulf ((AllReal.slice ?_ _ _).cast _) ((AllReal.slice ?_ _ _).cast _) <;>
  exact AllReal.addf
    ((AllReal.subf ((allReal_constant _ h1).bcast _ _) (hc.bcast _ _)).bcast _ _)
    (AllReal.mulf
      ((AllReal.subf (AllReal.mulf ((allReal_constant _ h2).bcast _ _) (hc.bcast _ _))
        ((allReal_constant _ h1).bcast _ _)).bcast _ _)
      ((h25.bcast _ _).bcast _ _))

end Cert.Hand.Real

end
-- ==== Proof.ReshapeRows.lean ====
/-
  The reshape of the hashed tables [10, 1048583, 16] to one table of rows [10485830, 16] read at an index. A reshape
  keeps the row-major position of every entry: entry (a, p, f) sits at position (a·1048583 + p)·16 + f, which in the
  reshaped array is row a·1048583 + p, column f.
-/
import proofs.«118521_j721554506107_2_alg».proof.Proof.Gen.KernelIdeal
import Idealize.ShloMosaic.Lib.Pipeline.Value
import Idealize.ShloMosaic.Lib.ValueIdx
import Idealize.ShloMosaic.PureOps.Ideal

noncomputable section

namespace Cert.Hand.Real

open Idealize.ShloMosaic

/-- Row a·1048583 + p, column f of the reshaped tables is entry (a, p, f) of the tables. -/
theorem reshape_rows (h : FVec Ideal Cert.KernelIdeal.S10x1048583x16 .f32) (a : Fin 10) (p : Fin 1048583) (f : Fin 16) :
    shapeCast Cert.KernelIdeal.S10485830x16 h Cert.KernelIdeal.Gen.shapeCasts_S10x1048583x16_S10485830x16
      (ValueIdx.ix2 (⟨a.val * 1048583 + p.val, by omega⟩ : Fin 10485830) f) = h (ValueIdx.ix3 a p f) := by
  refine shapeCast_apply h _ _ (ValueIdx.ix3 a p f) ?_
  rw [Shape.rowMajor_val_three, Shape.rowMajor_val_two]
  rfl

end Cert.Hand.Real

end
-- ==== Proof.Bridge.lean ====
/-
  The reference's result is the kernel program's last contents of the result buffer.

  Both programs end with the same tail applied to arrays the earlier stretches leave: the normalised points, the
  corner weights, the dense levels' rows and the hashed levels' (level, row) pairs.  These four are the same
  operations of the points array in both programs, so from memories that agree on the points they are the same
  arrays.  The reference's tail then gathers 16-wide table rows, weights them and sums over corners and features;
  the kernel program's tail gathers the row sums the two calls left, weights them and sums over corners.  The calls
  leave the row sums of the tables as launched, the inputs are real numbers under the precondition, and for real
  weights and entries the two tails agree.
-/
import proofs.«118521_j721554506107_2_alg».proof.Defs
import proofs.«118521_j721554506107_2_alg».proof.Proof.Gen.Pre_finite_inputs
import proofs.«118521_j721554506107_2_alg».proof.Proof.Kept
import proofs.«118521_j721554506107_2_alg».proof.Proof.RefRun
import proofs.«118521_j721554506107_2_alg».proof.Proof.ReadOff
import proofs.«118521_j721554506107_2_alg».proof.Proof.LeafA
import proofs.«118521_j721554506107_2_alg».proof.Proof.LeafB
import proofs.«118521_j721554506107_2_alg».proof.Proof.LeafH
import proofs.«118521_j721554506107_2_alg».proof.Proof.LeafTail
import proofs.«118521_j721554506107_2_alg».proof.Proof.LeafTailH
import proofs.«118521_j721554506107_2_alg».proof.Proof.TailsEq
import proofs.«118521_j721554506107_2_alg».proof.Proof.WReal
import proofs.«118521_j721554506107_2_alg».proof.Proof.ReshapeRows
import proofs.«118521_j721554506107_2_alg».proof.Proof.PreReal
import proofs.«118521_j721554506107_2_alg».proof.Proof.RealVec

noncomputable section

namespace Cert.Proof.Bridge

open Idealize.ShloMosaic Idealize.ShloMosaic.TcCoe Idealize.SL.Sem Idealize.ShloMosaic.StableHlo
open Cert.KernelIdeal.Hand Cert.Hand.Real

/-- No operation of a stretch that keeps the arguments changes the dense table's buffer, -/
theorem keeps1 {ops : List (HloOp Cert.ReferenceIdeal.τ Cert.ReferenceIdeal.sig (Elt Ideal))}
    (hk : ops.Forall fun op => Cert.ReferenceIdeal.Hand.KeepsArgs op) (V : Valuation Cert.ReferenceIdeal.τ Cert.ReferenceIdeal.sig (Elt Ideal)) :
    StableHlo.after ops V (Proc.devRef .tc Cert.ReferenceIdeal.main_arg1) = V (Proc.devRef .tc Cert.ReferenceIdeal.main_arg1) :=
  after_of_forall_not_mem _ _ fun op h => (List.forall_iff_forall_mem.1 hk op h).2.1
/-- nor the hash table's. -/
theorem keeps2 {ops : List (HloOp Cert.ReferenceIdeal.τ Cert.ReferenceIdeal.sig (Elt Ideal))}
    (hk : ops.Forall fun op => Cert.ReferenceIdeal.Hand.KeepsArgs op) (V : Valuation Cert.ReferenceIdeal.τ Cert.ReferenceIdeal.sig (Elt Ideal)) :
    StableHlo.after ops V (Proc.devRef .tc Cert.ReferenceIdeal.main_arg2) = V (Proc.devRef .tc Cert.ReferenceIdeal.main_arg2) :=
  after_of_forall_not_mem _ _ fun op h => (List.forall_iff_forall_mem.1 hk op h).2.2

/-- The reference's contents after its first four stretches. -/
abbrev R4 (VR : Valuation Cert.ReferenceIdeal.τ Cert.ReferenceIdeal.sig (Elt Ideal)) : Valuation Cert.ReferenceIdeal.τ Cert.ReferenceIdeal.sig (Elt Ideal) :=
  StableHlo.after (Cert.ReferenceIdeal.Hand.refOps3 (F := Ideal)) (StableHlo.after (Cert.ReferenceIdeal.Hand.refOps2 (F := Ideal))
    (StableHlo.after (Cert.ReferenceIdeal.Hand.refOps1 (F := Ideal)) (StableHlo.after (Cert.ReferenceIdeal.Hand.refOps0 (F := Ideal)) VR)))

theorem R4_arg1 (VR : Valuation Cert.ReferenceIdeal.τ Cert.ReferenceIdeal.sig (Elt Ideal)) :
    R4 VR (Proc.devRef .tc Cert.ReferenceIdeal.main_arg1) = VR (Proc.devRef .tc Cert.ReferenceIdeal.main_arg1) :=
  (keeps1 Cert.ReferenceIdeal.Hand.refOps3_keeps _).trans <| (keeps1 Cert.ReferenceIdeal.Hand.refOps2_keeps _).trans <|
    (keeps1 Cert.ReferenceIdeal.Hand.refOps1_keeps _).trans (keeps1 Cert.ReferenceIdeal.Hand.refOps0_keeps _)
theorem R4_arg2 (VR : Valuation Cert.ReferenceIdeal.τ Cert.ReferenceIdeal.sig (Elt Ideal)) :
    R4 VR (Proc.devRef .tc Cert.ReferenceIdeal.main_arg2) = VR (Proc.devRef .tc Cert.ReferenceIdeal.main_arg2) :=
  (keeps2 Cert.ReferenceIdeal.Hand.refOps3_keeps _).trans <| (keeps2 Cert.ReferenceIdeal.Hand.refOps2_keeps _).trans <|
    (keeps2 Cert.ReferenceIdeal.Hand.refOps1_keeps _).trans (keeps2 Cert.ReferenceIdeal.Hand.refOps0_keeps _)

/-- The reference's tail depends on its six arrays only. -/
theorem rTail_congr {x x' : FVec Ideal Cert.ReferenceIdeal.S65536x3 .f32} {w w' : FVec Ideal Cert.ReferenceIdeal.S16x65536x8 .f32}
    {iD iD' : (⟨Cert.ReferenceIdeal.S6x65536x8x1, .i32⟩ : BufTy).Contents (Elt Ideal)}
    {iH iH' : (⟨Cert.ReferenceIdeal.S10x65536x8x2, .i32⟩ : BufTy).Contents (Elt Ideal)}
    {d d' : FVec Ideal Cert.ReferenceIdeal.S822944x16 .f32} {h h' : FVec Ideal Cert.ReferenceIdeal.S10x1048583x16 .f32}
    (ex : x = x') (ew : w = w') (eD : iD = iD') (eH : iH = iH') (ed : d = d') (eh : h = h') :
    Cert.Hand.Tails.rTail x w iD iH d h = Cert.Hand.Tails.rTail x' w' iD' iH' d' h' := by
  subst ex ew eD eH ed eh; rfl

theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    StableHlo.after (Cert.ReferenceIdeal.Hand.refOps (F := Ideal)) (launchContents m' c) (Proc.devRef .tc Cert.ReferenceIdeal.main_v113)
      = Cert.KernelIdeal.Hand.W8 m c (Proc.devRef .tc Cert.KernelIdeal.main_v122) := by
  -- the two launch memories agree on the points
  have hA0 : launchContents m' c (Proc.devRef .tc Cert.ReferenceIdeal.main_arg0) = W0 m c (Proc.devRef .tc Cert.KernelIdeal.main_arg0) := (hagree c).1
  -- the arrays the earlier stretches leave, the same in both programs; the calls and the stretch between them keep them
  have e6 := (Cert.Hand.LeafA.pre_v6 (W0 m c) (launchContents m' c) hA0).trans (W7_v6 m c).symm
  have e25 := (Cert.Hand.LeafB.pre_v25 (W0 m c) (launchContents m' c) hA0).trans (W7_v25 m c).symm
  have ec := (Cert.Hand.LeafA.pre_cst2 (W0 m c) (launchContents m' c)).trans (W7_cst2 m c).symm
  have e46 := (Cert.Hand.LeafB.pre_v46 (W0 m c) (launchContents m' c) hA0).trans (W7_v46 m c).symm
  have e62 := (Cert.Hand.LeafH.pre_hash (W0 m c) (launchContents m' c) hA0).trans (W7_v68 m c).symm
  -- the four arrays of the tails
  have t6 := Cert.Hand.LeafTail.tail_xn (W7 m c) (R4 (launchContents m' c)) e6
  have tw := Cert.Hand.LeafTail.tail_w (W7 m c) (R4 (launchContents m' c)) e25 ec
  have tD := Cert.Hand.LeafTail.tail_iD (W7 m c) (R4 (launchContents m' c)) e46
  have tH := Cert.Hand.LeafTailH.tail_iH (W7 m c) (R4 (launchContents m' c)) e62
  -- the tables
  have a1 : R4 (launchContents m' c) (Proc.devRef .tc Cert.ReferenceIdeal.main_arg1) = denseTab m c :=
    (R4_arg1 _).trans (hagree c).2.1
  have a2 : R4 (launchContents m' c) (Proc.devRef .tc Cert.ReferenceIdeal.main_arg2) = m ((c.tc : Thread Cert.KernelIdeal.nD Cert.KernelIdeal.τ).loc Cert.KernelIdeal.main_arg2) :=
    (R4_arg2 _).trans (hagree c).2.2
  -- the inputs are real numbers
  have hreal := real_of_pre _ _ _ (hpre c)
  have h25 : AllReal (s := Cert.KernelIdeal.S16x65536x3) (W7 m c (Proc.devRef .tc Cert.KernelIdeal.main_v25)) := by
    rw [W7_v25 m c]; exact v25_real (W0 m c) hreal.1
  have hc2 : AllReal (s := Cert.KernelIdeal.S8x3) (W7 m c (Proc.devRef .tc Cert.KernelIdeal.main_cst_2)) := by
    rw [W7_cst2 m c]; exact cst2_real (W0 m c)
  have hw := w_real (W7 m c) h25 hc2
  calc StableHlo.after (Cert.ReferenceIdeal.Hand.refOps (F := Ideal)) (launchContents m' c) (Proc.devRef .tc Cert.ReferenceIdeal.main_v113)
      = StableHlo.after (Cert.ReferenceIdeal.Hand.refOps4 (F := Ideal)) (R4 (launchContents m' c)) (Proc.devRef .tc Cert.ReferenceIdeal.main_v113) :=
        congrFun (Cert.Hand.ReadOff.refOps_after (launchContents m' c)) _
    _ = _ := Cert.Hand.ReadOff.ref_tail (R4 (launchContents m' c))
    _ = Cert.Hand.Tails.rTail
          (StableHlo.after (Cert.KernelIdeal.Gen.hostOps2 (F := Ideal)) (W7 m c) (Proc.devRef .tc Cert.KernelIdeal.main_v6))
          (StableHlo.after (Cert.KernelIdeal.Gen.hostOps2 (F := Ideal)) (W7 m c) (Proc.devRef .tc Cert.KernelIdeal.main_v118))
          (StableHlo.after (Cert.KernelIdeal.Gen.hostOps2 (F := Ideal)) (W7 m c) (Proc.devRef .tc Cert.KernelIdeal.main_v80))
          (StableHlo.after (Cert.KernelIdeal.Gen.hostOps2 (F := Ideal)) (W7 m c) (Proc.devRef .tc Cert.KernelIdeal.main_v97))
          (denseTab m c) (m ((c.tc : Thread Cert.KernelIdeal.nD Cert.KernelIdeal.τ).loc Cert.KernelIdeal.main_arg2)) :=
        rTail_congr t6 tw tD tH a1 a2
    _ = Cert.Hand.Tails.kTail
          (StableHlo.after (Cert.KernelIdeal.Gen.hostOps2 (F := Ideal)) (W7 m c) (Proc.devRef .tc Cert.KernelIdeal.main_v6))
          (StableHlo.after (Cert.KernelIdeal.Gen.hostOps2 (F := Ideal)) (W7 m c) (Proc.devRef .tc Cert.KernelIdeal.main_v118))
          (StableHlo.after (Cert.KernelIdeal.Gen.hostOps2 (F := Ideal)) (W7 m c) (Proc.devRef .tc Cert.KernelIdeal.main_v80))
          (StableHlo.after (Cert.KernelIdeal.Gen.hostOps2 (F := Ideal)) (W7 m c) (Proc.devRef .tc Cert.KernelIdeal.main_v97))
          (W5 m c (Proc.devRef .tc Cert.KernelIdeal.main_v69)) (W7 m c (Proc.devRef .tc Cert.KernelIdeal.main_v72)) :=
        (Cert.Hand.Tails.tails_eq _ _ _ _ (denseTab m c) (m ((c.tc : Thread Cert.KernelIdeal.nD Cert.KernelIdeal.τ).loc Cert.KernelIdeal.main_arg2))
          (hashRows m c) _ _ hw hreal.2.1 hreal.2.2 (fun a p f => reshape_rows _ a p f) (rows0 m c) (rows1 m c)).symm
    _ = Cert.KernelIdeal.Hand.W8 m c (Proc.devRef .tc Cert.KernelIdeal.main_v122) :=
        (Cert.Hand.ReadOff.kernel_tail (W7 m c) (W5 m c (Proc.devRef .tc Cert.KernelIdeal.main_v69)) (W7_v70 m c)).symm

end Cert.Proof.Bridge

end
-- ==== Proof.lean ====
/-
  A multi-resolution hash-grid lookup: from points in a box, per level l and point n, the eight corners c of the cell
  the point falls in, a weight w(l,n,c) (the product of two of the three linear interpolation factors) and a table row
  — a flat grid index in the dense table for the six coarse levels, a hash of the corner's integer coordinates modulo
  the table size for the ten fine ones. The reference gathers the 16-wide rows T(l,n,c,·), multiplies by the weight,
  sums over the corners and then over the 16 features; the kernel program first replaces every table row by the sum of
  its 16 entries — two row-sum kernels over the whole tables, blocks of 16384 rows, the last block of each cut at the
  table's end — then gathers those sums, multiplies by the weight and sums over the corners. Column 3+l of point n is
  0 + ∑_c w(l,n,c)·(∑_f T(l,n,c,f)) on one side and 0 + ∑_f (0 + ∑_c w(l,n,c)·T(l,n,c,f)) on the other; columns 0..2
  are the normalised point on both. For real entries the two are equal (distributivity and the exchange of two finite
  sums, both of which fail at infinities): the tables are real by the precondition, and the weights are real because
  they are built from the finite points by +, −, ·, quotients by nonzero constants and conversions from integers.

  The pieces: the word-level program's frame (its row sums are an opaque function of the whole staging buffer, so the
  output windows' contents are not named: relational proof data); the idealized kernel program's run with every
  buffer's final contents named, the two output columns read as row sums of the tables; the reference's run as the
  fold of its operations; both programs' shared intermediate arrays identified; the two tails equal index by index.
-/
import proofs.«118521_j721554506107_2_alg».proof.Defs
import proofs.«118521_j721554506107_2_alg».proof.Proof.Gen.Kernel
import proofs.«118521_j721554506107_2_alg».proof.Proof.Gen.KernelIdeal
import proofs.«118521_j721554506107_2_alg».proof.Proof.Gen.ReferenceIdeal
import proofs.«118521_j721554506107_2_alg».proof.Proof.Gen.Pre_finite_inputs
import proofs.«118521_j721554506107_2_alg».proof.Proof.BitsRun
import proofs.«118521_j721554506107_2_alg».proof.Proof.IdealClaims
import proofs.«118521_j721554506107_2_alg».proof.Proof.RefRun
import proofs.«118521_j721554506107_2_alg».proof.Proof.Bridge
import Idealize.ShloMosaic.Adequacy
import Idealize.ShloMosaic.Init

noncomputable section

namespace Cert.Proof

open Idealize.ShloMosaic Idealize.SL.Sem

/-- The word-level program runs to the end, faults nowhere and leaves its three arguments as launched. -/
theorem frame_p : Cert.frame_Kernel := fun m ρ _ => Cert.Kernel.Hand.frame (F := Bits) m ρ

/-- The reference runs to the end and leaves its arguments as launched: no operation of its fold writes one. -/
theorem frame_ri : Cert.frame_ReferenceIdeal := fun m ρ _ =>
  (θ_run Cert.ReferenceIdeal.defs _ _).mono
    (fun _ h c => ⟨(h c Cert.ReferenceIdeal.main_arg0).trans (Cert.ReferenceIdeal.Hand.kept_arg0 m c),
      (h c Cert.ReferenceIdeal.main_arg1).trans (Cert.ReferenceIdeal.Hand.kept_arg1 m c),
      (h c Cert.ReferenceIdeal.main_arg2).trans (Cert.ReferenceIdeal.Hand.kept_arg2 m c)⟩)
    (Cert.ReferenceIdeal.Hand.run (F := Ideal) m ρ)

/-- The idealization rewrote no operation: nothing to preserve. -/
theorem preserves : Cert.preserves_Kernel_KernelIdeal := trivial

/-- From memories agreeing on the arguments both idealized programs run, and the reference's result — the fold of its
    operations at the result buffer — is the kernel program's last valuation at its result buffer. -/
theorem algebraic : Cert.algebraic_KernelIdeal_ReferenceIdeal := by
  intro m ρ m' ρ' hpre hagree
  refine ⟨fun c => Cert.KernelIdeal.Hand.W8 m c (Proc.devRef .tc Cert.KernelIdeal.main_v122), Cert.Proof.IdealClaims.kernel_side m ρ, ?_⟩
  refine (θ_run Cert.ReferenceIdeal.defs _ _).mono
    (fun _ h c => ⟨(h c Cert.ReferenceIdeal.main_v113).trans (Cert.Proof.Bridge.result_eq m m' hpre hagree c),
      (h c Cert.ReferenceIdeal.main_arg0).trans (Cert.ReferenceIdeal.Hand.kept_arg0 m' c),
      (h c Cert.ReferenceIdeal.main_arg1).trans (Cert.ReferenceIdeal.Hand.kept_arg1 m' c),
      (h c Cert.ReferenceIdeal.main_arg2).trans (Cert.ReferenceIdeal.Hand.kept_arg2 m' c)⟩)
    (Cert.ReferenceIdeal.Hand.run (F := Ideal) m' ρ')

theorem claim : Cert.Claim :=
  ⟨Cert.Kernel.Gen.facts, Cert.KernelIdeal.Gen.facts, Cert.ReferenceIdeal.Gen.facts, Cert.Pre_finite_inputs.Gen.facts,
    frame_p, Cert.Proof.IdealClaims.frame_pi, frame_ri, preserves, algebraic⟩

end Cert.Proof

end
